-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x131072 : Shape := ⟨2, ![2, 131072]⟩
abbrev S4096x4096 : Shape := ⟨2, ![4096, 4096]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S4096x256 .f32) (main_arg1 : IVec S2x131072 32) (main_arg2 : FVec F S4096x4096 .f32) (main_arg3 : FVec F S4096x4096 .f32) (main_arg4 : FVec F S256x256 .f32) (main_arg5 : FVec F S256x256 .f32) (main_arg6 : FVec F S256 .f32) (main_arg7 : FVec F S1 .f32) (main_arg8 : FVec F S1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_v13 main_v16
-- ==== Kernel.lean ====
abbrev S4096x256 : Shape := ⟨2, ![4096, 256]⟩
abbrev S2x131072 : Shape := ⟨2, ![2, 131072]⟩
abbrev S4096x4096 : Shape := ⟨2, ![4096, 4096]⟩
abbrev S256x256 : Shape := ⟨2, ![256, 256]⟩
abbrev S256 : Shape := ⟨1, ![256]⟩
abbrev S1 : Shape := ⟨1, ![1]⟩
abbrev S1024x1024 : Shape := ⟨2, ![1024, 1024]⟩
abbrev S_ : Shape := ⟨0, ![]⟩
abbrev S1024x256 : Shape := ⟨2, ![1024, 256]⟩
abbrev S1x131072 : Shape := ⟨2, ![1, 131072]⟩
abbrev S131072 : Shape := ⟨1, ![131072]⟩
abbrev S4096 : Shape := ⟨1, ![4096]⟩
abbrev S135168 : Shape := ⟨1, ![135168]⟩
abbrev S135168x1 : Shape := ⟨2, ![135168, 1]⟩
abbrev S135168x256 : Shape := ⟨2, ![135168, 256]⟩
abbrev S1x256 : Shape := ⟨2, ![1, 256]⟩
abbrev S1x1 : Shape := ⟨2, ![1, 1]⟩

abbrev nBuf : Space → Nat
  | .hbm => 86
  | .vmem => 21
  | .smem => 0
  | _ => 0

abbrev bufTy : (tb : Table) → Fin (tcTables nBuf tb) → BufTy
  | .hbm, ⟨0, _⟩ => ⟨S4096x256, .f32⟩
  | .hbm, ⟨1, _⟩ => ⟨S2x131072, .i32⟩
  | .hbm, ⟨2, _⟩ => ⟨S4096x4096, .f32⟩
  | .hbm, ⟨3, _⟩ => ⟨S4096x4096, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S1, .f32⟩
  | .hbm, ⟨9, _⟩ => ⟨S4096x4096, .f32⟩
  | .hbm, ⟨10, _⟩ => ⟨S4096x4096, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S1x131072, .i32⟩
  | .hbm, ⟨17, _⟩ => ⟨S131072, .i32⟩
  | .hbm, ⟨18, _⟩ => ⟨S1x131072, .i32⟩
  | .hbm, ⟨19, _⟩ => ⟨S131072, .i32⟩
  | .hbm, ⟨20, _⟩ => ⟨S4096, .i32⟩
  | .hbm, ⟨21, _⟩ => ⟨S135168, .i32⟩
  | .hbm, ⟨22, _⟩ => ⟨S135168, .i32⟩
  | .hbm, ⟨23, _⟩ => ⟨S_, .f32⟩
  | .hbm, ⟨24, _⟩ => ⟨S135168, .f32⟩
  | .hbm, ⟨25, _⟩ => ⟨S_, .f32⟩
  | .hbm, ⟨26, _⟩ => ⟨S4096, .f32⟩
  | .hbm, ⟨27, _⟩ => ⟨S135168x1, .i32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .i1⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .i32⟩
  | .hbm, ⟨41, _⟩ => ⟨S135168, .i32⟩
  | .hbm, ⟨42, _⟩ => ⟨S135168, .i1⟩
  | .hbm, ⟨43, _⟩ => ⟨S_, .i32⟩
  | .hbm, ⟨44, _⟩ => ⟨S135168, .i32⟩
  | .hbm, ⟨45, _⟩ => ⟨S135168, .i32⟩
  | .hbm, ⟨46, _⟩ => ⟨S135168, .i32⟩
  | .hbm, ⟨47, _⟩ => ⟨S135168x1, .i32⟩
  | .hbm, ⟨48, _⟩ => ⟨S135168, .f32⟩
  | .hbm, ⟨49, _⟩ => ⟨S_, .i32⟩
  | .hbm, ⟨50, _⟩ => ⟨S135168, .i32⟩
  | .hbm, ⟨51, _⟩ => ⟨S135168, .i1⟩
  | .hbm, ⟨52, _⟩ => ⟨S_, .i32⟩
  | .hbm, ⟨53, _⟩ => ⟨S135168, .i32⟩
  | .hbm, ⟨54, _⟩ => ⟨S135168, .i32⟩
  | .hbm, ⟨55, _⟩ => ⟨S135168, .i32⟩
  | .hbm, ⟨56, _⟩ => ⟨S135168x1, .i32⟩
  | .hbm, ⟨57, _⟩ => ⟨S135168, .f32⟩
  | .hbm, ⟨58, _⟩ => ⟨S135168, .f32⟩
  | .hbm, ⟨59, _⟩ => ⟨S4096x256, .f32⟩
  | .hbm, ⟨60, _⟩ => ⟨S_, .i32⟩
  | .hbm, ⟨61, _⟩ => ⟨S135168, .i32⟩
  | .hbm, ⟨62, _⟩ => ⟨S135168, .i1⟩
  | .hbm, ⟨63, _⟩ => ⟨S_, .i32⟩
  | .hbm, ⟨64, _⟩ => ⟨S135168, .i32⟩
  | .hbm, ⟨65, _⟩ => ⟨S135168, .i32⟩
  | .hbm, ⟨66, _⟩ => ⟨S135168, .i32⟩
  | .hbm, ⟨67, _⟩ => ⟨S135168x1, .i32⟩
  | .hbm, ⟨68, _⟩ => ⟨S135168x256, .f32⟩
  | .hbm, ⟨69, _⟩ => ⟨S135168x1, .f32⟩
  | .hbm, ⟨70, _⟩ => ⟨S135168x256, .f32⟩
  | .hbm, ⟨71, _⟩ => ⟨S135168x256, .f32⟩
  | .hbm, ⟨72, _⟩ => ⟨S_, .f32⟩
  | .hbm, ⟨73, _⟩ => ⟨S4096x256, .f32⟩
  | .hbm, ⟨74, _⟩ => ⟨S135168x1, .i32⟩
  | .hbm, ⟨75, _⟩ => ⟨S4096x256, .f32⟩
  | .hbm, ⟨76, _⟩ => ⟨S1x256, .f32⟩
  | .hbm, ⟨77, _⟩ => ⟨S4096x256, .f32⟩
  | .hbm, ⟨78, _⟩ => ⟨S4096x256, .f32⟩
  | .hbm, ⟨79, _⟩ => ⟨S1x1, .f32⟩
  | .hbm, ⟨80, _⟩ => ⟨S4096x256, .f32⟩
  | .hbm, ⟨81, _⟩ => ⟨S4096x256, .f32⟩
  | .hbm, ⟨82, _⟩ => ⟨S1x1, .f32⟩
  | .hbm, ⟨83, _⟩ => ⟨S4096x256, .f32⟩
  | .hbm, ⟨84, _⟩ => ⟨S4096x256, .f32⟩
  | .hbm, ⟨85, _⟩ => ⟨S4096x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  bcast_S_S4096x256 : S_.BroadcastsInDim S4096x256 (![] : Fin 0 → Fin S4096x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S2x131072_S1x131072_0_0 : S2x131072.Slices ![0, 0] S1x131072
  shapeCasts_S1x131072_S131072 : S1x131072.ShapeCasts S131072
  slices_S2x131072_S1x131072_1_0 : S2x131072.Slices ![1, 0] S1x131072
  concatenates_S131072_S4096_S135168_d0 : Shape.Concatenates [S131072, S4096] S135168 0
  bcast_S_S135168 : S_.BroadcastsInDim S135168 (![] : Fin 0 → Fin S135168.rank)
  bcast_S_S4096 : S_.BroadcastsInDim S4096 (![] : Fin 0 → Fin S4096.rank)
  bcast_S135168_S135168x1_0 : S135168.BroadcastsInDim S135168x1 (![0] : Fin 1 → Fin S135168x1.rank)
  bcast_S135168x1_S135168x256_0_1 : S135168x1.BroadcastsInDim S135168x256 (![0, 1] : Fin 2 → Fin S135168x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1_S1x1_1 : S1.BroadcastsInDim S1x1 (![1] : Fin 1 → Fin S1x1.rank)
  bcast_S1x1_S4096x256_0_1 : S1x1.BroadcastsInDim S4096x256 (![0, 1] : Fin 2 → Fin S4096x256.rank)
  dot_S1024x1024_S1024x1024_S1024x1024_1_0_0_1_n_n_wf : DotDims.WF S1024x1024 S1024x1024 S1024x1024 [1] [0] [0] [1] [] []
  dot_S4096x256_S256x256_S4096x256_1_0_0_1_n_n_wf : DotDims.WF S4096x256 S256x256 S4096x256 [1] [0] [0] [1] [] []
  dot_S1024x1024_S1024x256_S1024x256_1_0_0_1_n_n_wf : DotDims.WF S1024x1024 S1024x256 S1024x256 [1] [0] [0] [1] [] []
  scatter_S4096_S135168x1_S135168_n_0_0_1_wf : ScatterDims.WF S4096 S135168x1 S135168 [] [0] [0] 1
  gather_S4096_S135168x1_S135168_n_0_n_n_0_1_1_wf : GatherDims.WF S4096 S135168x1 S135168 [] [0] [] [0] [] 1 ![1]
  gather_S4096x256_S135168x1_S135168x256_1_0_n_n_0_1_1256_wf : GatherDims.WF S4096x256 S135168x1 S135168x256 [1] [0] [] [0] [] 1 ![1, 256]
  scatter_S4096x256_S135168x1_S135168x256_1_0_0_1_wf : ScatterDims.WF S4096x256 S135168x1 S135168x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S4096x256.size a
  hwx2_2 : ∀ i : grid2.Coords, EltTy.bits .f32 = 32 ∨ (Rect.block (s := S4096x256) S1024x256.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def scatter_S4096_S135168x1_S135168_n_0_0_1 : ScatterDims S4096 S135168x1 S135168 where
  updateWindowDims := []
  insertedWindowDims := [0]
  scatterDimsToOperandDims := [0]
  indexVectorDim := 1
  wf := scatter_S4096_S135168x1_S135168_n_0_0_1_wf
def gather_S4096_S135168x1_S135168_n_0_n_n_0_1_1 : GatherDims S4096 S135168x1 S135168 where
  offsetDims := []
  collapsedSliceDims := [0]
  operandBatchingDims := []
  startIndicesBatchingDims := []
  startIndexMap := [0]
  indexVectorDim := 1
  sliceSizes := ![1]
  wf := gather_S4096_S135168x1_S135168_n_0_n_n_0_1_1_wf
def gather_S4096x256_S135168x1_S135168x256_1_0_n_n_0_1_1256 : GatherDims S4096x256 S135168x1 S135168x256 where
  offsetDims := [1]
  collapsedSliceDims := [0]
  operandBatchingDims := []
  startIndicesBatchingDims := []
  startIndexMap := [0]
  indexVectorDim := 1
  sliceSizes := ![1, 256]
  wf := gather_S4096x256_S135168x1_S135168x256_1_0_n_n_0_1_1256_wf
def scatter_S4096x256_S135168x1_S135168x256_1_0_0_1 : ScatterDims S4096x256 S135168x1 S135168x256 where
  updateWindowDims := [1]
  insertedWindowDims := [0]
  scatterDimsToOperandDims := [0]
  indexVectorDim := 1
  wf := scatter_S4096x256_S135168x1_S135168x256_1_0_0_1_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S2x131072 : Shape := ⟨2, ![2, 131072]⟩
abbrev S4096x4096 : Shape := ⟨2, ![4096, 4096]⟩
abbrev S256x256 : Shape := ⟨2, ![256, 256]⟩
abbrev S256 : Shape := ⟨1, ![256]⟩
abbrev S1 : Shape := ⟨1, ![1]⟩
abbrev S_ : Shape := ⟨0, ![]⟩
abbrev S1x131072 : Shape := ⟨2, ![1, 131072]⟩
abbrev S131072 : Shape := ⟨1, ![131072]⟩
abbrev S4096 : Shape := ⟨1, ![4096]⟩
abbrev S135168 : Shape := ⟨1, ![135168]⟩
abbrev S135168x1 : Shape := ⟨2, ![135168, 1]⟩
abbrev S135168x256 : Shape := ⟨2, ![135168, 256]⟩
abbrev S1x256 : Shape := ⟨2, ![1, 256]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x131072, .i32⟩
  | .hbm, ⟨2, _⟩ => ⟨S4096x4096, .f32⟩
  | .hbm, ⟨3, _⟩ => ⟨S4096x4096, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S1, .f32⟩
  | .hbm, ⟨9, _⟩ => ⟨S4096x4096, .f32⟩
  | .hbm, ⟨10, _⟩ => ⟨S4096x4096, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S1x131072, .i32⟩
  | .hbm, ⟨17, _⟩ => ⟨S131072, .i32⟩
  | .hbm, ⟨18, _⟩ => ⟨S1x131072, .i32⟩
  | .hbm, ⟨19, _⟩ => ⟨S131072, .i32⟩
  | .hbm, ⟨20, _⟩ => ⟨S4096, .i32⟩
  | .hbm, ⟨21, _⟩ => ⟨S135168, .i32⟩
  | .hbm, ⟨22, _⟩ => ⟨S135168, .i32⟩
  | .hbm, ⟨23, _⟩ => ⟨S_, .f32⟩
  | .hbm, ⟨24, _⟩ => ⟨S135168, .f32⟩
  | .hbm, ⟨25, _⟩ => ⟨S_, .f32⟩
  | .hbm, ⟨26, _⟩ => ⟨S4096, .f32⟩
  | .hbm, ⟨27, _⟩ => ⟨S135168x1, .i32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .i1⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .i32⟩
  | .hbm, ⟨41, _⟩ => ⟨S135168, .i32⟩
  | .hbm, ⟨42, _⟩ => ⟨S135168, .i1⟩
  | .hbm, ⟨43, _⟩ => ⟨S_, .i32⟩
  | .hbm, ⟨44, _⟩ => ⟨S135168, .i32⟩
  | .hbm, ⟨45, _⟩ => ⟨S135168, .i32⟩
  | .hbm, ⟨46, _⟩ => ⟨S135168, .i32⟩
  | .hbm, ⟨47, _⟩ => ⟨S135168x1, .i32⟩
  | .hbm, ⟨48, _⟩ => ⟨S135168, .f32⟩
  | .hbm, ⟨49, _⟩ => ⟨S_, .i32⟩
  | .hbm, ⟨50, _⟩ => ⟨S135168, .i32⟩
  | .hbm, ⟨51, _⟩ => ⟨S135168, .i1⟩
  | .hbm, ⟨52, _⟩ => ⟨S_, .i32⟩
  | .hbm, ⟨53, _⟩ => ⟨S135168, .i32⟩
  | .hbm, ⟨54, _⟩ => ⟨S135168, .i32⟩
  | .hbm, ⟨55, _⟩ => ⟨S135168, .i32⟩
  | .hbm, ⟨56, _⟩ => ⟨S135168x1, .i32⟩
  | .hbm, ⟨57, _⟩ => ⟨S135168, .f32⟩
  | .hbm, ⟨58, _⟩ => ⟨S135168, .f32⟩
  | .hbm, ⟨59, _⟩ => ⟨S4096x256, .f32⟩
  | .hbm, ⟨60, _⟩ => ⟨S_, .i32⟩
  | .hbm, ⟨61, _⟩ => ⟨S135168, .i32⟩
  | .hbm, ⟨62, _⟩ => ⟨S135168, .i1⟩
  | .hbm, ⟨63, _⟩ => ⟨S_, .i32⟩
  | .hbm, ⟨64, _⟩ => ⟨S135168, .i32⟩
  | .hbm, ⟨65, _⟩ => ⟨S135168, .i32⟩
  | .hbm, ⟨66, _⟩ => ⟨S135168, .i32⟩
  | .hbm, ⟨67, _⟩ => ⟨S135168x1, .i32⟩
  | .hbm, ⟨68, _⟩ => ⟨S135168x256, .f32⟩
  | .hbm, ⟨69, _⟩ => ⟨S135168x1, .f32⟩
  | .hbm, ⟨70, _⟩ => ⟨S135168x256, .f32⟩
  | .hbm, ⟨71, _⟩ => ⟨S135168x256, .f32⟩
  | .hbm, ⟨72, _⟩ => ⟨S_, .f32⟩
  | .hbm, ⟨73, _⟩ => ⟨S4096x256, .f32⟩
  | .hbm, ⟨74, _⟩ => ⟨S135168x1, .i32⟩
  | .hbm, ⟨75, _⟩ => ⟨S4096x256, .f32⟩
  | .hbm, ⟨76, _⟩ => ⟨S1x256, .f32⟩
  | .hbm, ⟨77, _⟩ => ⟨S4096x256, .f32⟩
  | .hbm, ⟨78, _⟩ => ⟨S4096x256, .f32⟩
  | .hbm, ⟨79, _⟩ => ⟨S1x1, .f32⟩
  | .hbm, ⟨80, _⟩ => ⟨S4096x256, .f32⟩
  | .hbm, ⟨81, _⟩ => ⟨S4096x256, .f32⟩
  | .hbm, ⟨82, _⟩ => ⟨S1x1, .f32⟩
  | .hbm, ⟨83, _⟩ => ⟨S4096x256, .f32⟩
  | .hbm, ⟨84, _⟩ => ⟨S4096x256, .f32⟩
  | .hbm, ⟨85, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  concatenates_S131072_S4096_S135168_d0 : Shape.Concatenates [S131072, S4096] S135168 0
  bcast_S_S135168 : S_.BroadcastsInDim S135168 (![] : Fin 0 → Fin S135168.rank)
  bcast_S_S4096 : S_.BroadcastsInDim S4096 (![] : Fin 0 → Fin S4096.rank)
  bcast_S135168_S135168x1_0 : S135168.BroadcastsInDim S135168x1 (![0] : Fin 1 → Fin S135168x1.rank)
  bcast_S135168x1_S135168x256_0_1 : S135168x1.BroadcastsInDim S135168x256 (![0, 1] : Fin 2 → Fin S135168x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1_S1x1_1 : S1.BroadcastsInDim S1x1 (![1] : Fin 1 → Fin S1x1.rank)
  bcast_S1x1_S4096x256_0_1 : S1x1.BroadcastsInDim S4096x256 (![0, 1] : Fin 2 → Fin S4096x256.rank)
  dot_S4096x4096_S4096x4096_S4096x4096_1_0_0_1_n_n_wf : DotDims.WF S4096x4096 S4096x4096 S4096x4096 [1] [0] [0] [1] [] []
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  scatter_S4096_S135168x1_S135168_n_0_0_1_wf : ScatterDims.WF S4096 S135168x1 S135168 [] [0] [0] 1
  gather_S4096_S135168x1_S135168_n_0_n_n_0_1_1_wf : GatherDims.WF S4096 S135168x1 S135168 [] [0] [] [0] [] 1 ![1]
  gather_S4096x256_S135168x1_S135168x256_1_0_n_n_0_1_1256_wf : GatherDims.WF S4096x256 S135168x1 S135168x256 [1] [0] [] [0] [] 1 ![1, 256]
  scatter_S4096x256_S135168x1_S135168x256_1_0_0_1_wf : ScatterDims.WF S4096x256 S135168x1 S135168x256 [1] [0] [0] 1

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def scatter_S4096_S135168x1_S135168_n_0_0_1 : ScatterDims S4096 S135168x1 S135168 where
  updateWindowDims := []
  insertedWindowDims := [0]
  scatterDimsToOperandDims := [0]
  indexVectorDim := 1
  wf := scatter_S4096_S135168x1_S135168_n_0_0_1_wf
def gather_S4096_S135168x1_S135168_n_0_n_n_0_1_1 : GatherDims S4096 S135168x1 S135168 where
  offsetDims := []
  collapsedSliceDims := [0]
  operandBatchingDims := []
  startIndicesBatchingDims := []
  startIndexMap := [0]
  indexVectorDim := 1
  sliceSizes := ![1]
  wf := gather_S4096_S135168x1_S135168_n_0_n_n_0_1_1_wf
def gather_S4096x256_S135168x1_S135168x256_1_0_n_n_0_1_1256 : GatherDims S4096x256 S135168x1 S135168x256 where
  offsetDims := [1]
  collapsedSliceDims := [0]
  operandBatchingDims := []
  startIndicesBatchingDims := []
  startIndexMap := [0]
  indexVectorDim := 1
  sliceSizes := ![1, 256]
  wf := gather_S4096x256_S135168x1_S135168x256_1_0_n_n_0_1_1256_wf
def scatter_S4096x256_S135168x1_S135168x256_1_0_0_1 : ScatterDims S4096x256 S135168x1 S135168x256 where
  updateWindowDims := [1]
  insertedWindowDims := [0]
  scatterDimsToOperandDims := [0]
  indexVectorDim := 1
  wf := scatter_S4096x256_S135168x1_S135168x256_1_0_0_1_wf

class Facts : Prop extends Facts₀ where

variable [Facts]
-- ==== Proof.K.RunCond.lean ====
/- The run of the kernel program with its result named.

   Between two items of @main every core holds each of its unscoped buffers whole, at the valuations
   `V0 … V8` of the imported module `Gen.Kernel.Regions`: the launch contents, then what each host
   stretch computes (`StableHlo.after`), then what a kernel region leaves in its output array (the
   unknowns `outs`).  The result `main_v60` is such a buffer, so at the end of the run it can be read
   off the last valuation exactly like the arguments: every final memory holds `V8 m outs c main_v60`
   in it, and each argument as launched.  The hypotheses are those of the conditional frame: one
   segment record per kernel region, entered from the thread state before it and left at the one after. -/
import proofs.«141484_j24618752540870_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE RUN, GIVEN THE REGIONS' RECORDS. Under the hypotheses of the conditional frame, every weakly fair
    execution of @main from memory `m` with zero counters terminates, and every final memory holds the last
    valuation's contents in the result `main_v60` and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      r.2.mem ((c.tc : Thread nD τ).loc main_v60) = V8 m outs c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨hpre0 c, (hpost0 c).trans (hpre1 c), hpost1 c, .rfl, hpre2 c, hpost2 c, .rfl, .rfl, sep_mono .rfl (hE3 c)⟩)
    (hinit := ?_) (QY := fun c s => s.mem ((c.tc : Thread nD τ).loc main_v60) = V8 m outs c main_v60 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v60) (Finset.mem_filter.mpr ⟨StableHlo.devRef_mem_tcRefs main_v60, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

end Cert.Kernel.Hand

end
-- ==== Proof.K.Region0.lean ====
import proofs.«141484_j24618752540870_1_alg».proof.Proof.Gen.Kernel.Launch
import proofs.«141484_j24618752540870_1_alg».proof.Proof.Gen.Kernel.Skeleton
import proofs.«141484_j24618752540870_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 0: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first0 (i : grid0.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst0 : ∀ t : Fin cfg0.N, first0 (grid0.coords t) ↔ t.val % 4 = 0 :=
  (by decide +kernel : ∀ t : Fin grid0.N, first0 (grid0.coords t) ↔ t.val % 4 = 0)
/-- The step along the contracted axis is the last one. -/
abbrev last0 (i : grid0.Coords) : Prop := k0_cond2 i = 1#1
/-- The last step is at the points ≡ 3 (mod 4). -/
theorem hlast0 : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off the last step the output tile is idle: nothing is stored into it and it is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
/-- At the last step it is live. -/
theorem live0_2 : ∀ t : Fin cfg0.N, last0 (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x1024 .f32 := Memref.whole cc0_scratch0
/-- The accumulator and one output staging buffer as views: what they hold is stated through them. -/
abbrev VS0 : View sig .tc .vmem S1024x1024 .f32 := (acc0).view
abbrev VO0 : View sig .tc .vmem S1024x1024 .f32 := (Memref.whole cc0_stg2_0 : Memref sig .tc .vmem S1024x1024 .f32).view

/-! ## The region's invariant, the accumulator taken out -/

/-- Every scoped buffer that is neither a staging buffer of this region nor its accumulator, at some contents, and the
    generator register at some state: what the body never touches. -/
def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant is the accumulator at some contents beside the rest. -/
theorem PhiA0_eq (c : Dev nD) :
    (Pipeline.ΦA spec0 c : sProp 𝕄) = iprop((∃ d, owns (c : Thread nD τ) acc0 fullShare d) ∗ rest0 (F := F) c) := by
  unfold Pipeline.ΦA rest0
  rw [Pipeline.scopedRest_split_of_list (win := spec0) (c := c) [cc0_scratch0] (by decide) (by decide)]
  simp only [acc0, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i)
    (x0 : Vec F S1024x1024 .f32) (x1 : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, fun xi E Q => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i)
    (x0 : Vec F S1024x1024 .f32) (x1 : Vec F S1024x1024 .f32) (xs : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, fun xi E Q => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, ?_, fun E Q => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i) (x0 : Vec F S1024x1024 .f32) (x1 : Vec F S1024x1024 .f32) (y : S1024x1024.Idx) :
    ∃ pc ∈ (runFirst0 c i arg3 harg3 arg4 harg4 arg5 harg5 arg6 harg6 hc0 hc1 x0 x1).1, y ∈ pc.1.set :=
  View.cover_of_tiledL (runFirst0 c i arg3 harg3 arg4 harg4 arg5 harg5 arg6 harg6 hc0 hc1 x0 x1).1 S1024x1024.size (by sl_kernel_rfl) y
/-- The accumulator after a first step: its pieces read back. -/
def accFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i) (x0 : Vec F S1024x1024 .f32) (x1 : Vec F S1024x1024 .f32) : Vec F S1024x1024 .f32 :=
  VS0.read (Elt F) (VS0.writes (Elt F) VS0.junk (runFirst0 c i arg3 harg3 arg4 harg4 arg5 harg5 arg6 harg6 hc0 hc1 x0 x1).1)

theorem coverMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i) (x0 : Vec F S1024x1024 .f32) (x1 : Vec F S1024x1024 .f32) (xs : Vec F S1024x1024 .f32) (y : S1024x1024.Idx) :
    ∃ pc ∈ (runMid0 c i arg3 harg3 arg4 harg4 arg5 harg5 arg6 harg6 hc0 hc1 x0 x1 xs).1, y ∈ pc.1.set :=
  View.cover_of_tiledL (runMid0 c i arg3 harg3 arg4 harg4 arg5 harg5 arg6 harg6 hc0 hc1 x0 x1 xs).1 S1024x1024.size (by sl_kernel_rfl) y
/-- The accumulator after a middle step. -/
def accMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i) (x0 : Vec F S1024x1024 .f32) (x1 : Vec F S1024x1024 .f32) (xs : Vec F S1024x1024 .f32) : Vec F S1024x1024 .f32 :=
  VS0.read (Elt F) (VS0.writes (Elt F) VS0.junk (runMid0 c i arg3 harg3 arg4 harg4 arg5 harg5 arg6 harg6 hc0 hc1 x0 x1 xs).1)

theorem coverLastS0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) (y : S1024x1024.Idx) :
    ∃ pc ∈ (runLast0 c i arg3 harg3 arg4 harg4 arg5 harg5 arg6 harg6 hc0 hc1 x0 x1 xs).2.1, y ∈ pc.1.set :=
  View.cover_of_tiledL (runLast0 c i arg3 harg3 arg4 harg4 arg5 harg5 arg6 harg6 hc0 hc1 x0 x1 xs).2.1 S1024x1024.size (by sl_kernel_rfl) y
theorem coverLastO0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) (y : S1024x1024.Idx) :
    ∃ pc ∈ (runLast0 c i arg3 harg3 arg4 harg4 arg5 harg5 arg6 harg6 hc0 hc1 x0 x1 xs).1, y ∈ pc.1.set :=
  View.cover_of_tiledL (runLast0 c i arg3 harg3 arg4 harg4 arg5 harg5 arg6 harg6 hc0 hc1 x0 x1 xs).1 S1024x1024.size (by sl_kernel_rfl) y
/-- The accumulator and the output tile after a last step. -/
def accLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) : Vec F S1024x1024 .f32 :=
  VS0.read (Elt F) (VS0.writes (Elt F) VS0.junk (runLast0 c i arg3 harg3 arg4 harg4 arg5 harg5 arg6 harg6 hc0 hc1 x0 x1 xs).2.1)
def outLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) : Vec F S1024x1024 .f32 :=
  VO0.read (Elt F) (VO0.writes (Elt F) VO0.junk (runLast0 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the accumulator after the body at position `n`, by recursion on the position — a first step
    starts from the two blocks alone, any other step adds to what the position before left. -/
def accAt0 (c : Dev nD) : (n : ℕ) → n < cfg0.N → Vec F S1024x1024 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((hfirst0 ⟨0, hn⟩).mpr (Nat.zero_mod _)) (fun h => (fun h => by (try dsimp only at h); omega) ((hlast0 ⟨0, hn⟩).mp h)) (iblk0 V c 0 ⟨0, hn⟩) (iblk0 V c 1 ⟨0, hn⟩)
  | n + 1, hn =>
    if h0 : (n + 1) % 4 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((hfirst0 ⟨n + 1, hn⟩).mpr h0) (fun h => (fun h => by (try dsimp only at h); omega) ((hlast0 ⟨n + 1, hn⟩).mp h)) (iblk0 V c 0 ⟨n + 1, hn⟩) (iblk0 V c 1 ⟨n + 1, hn⟩)
    else if h1 : (n + 1) % 4 = 3 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (accAt0 c n (Nat.lt_of_succ_lt hn))
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hfirst0 ⟨n + 1, hn⟩).mp h)) (fun h => h1 ((hlast0 ⟨n + 1, hn⟩).mp h)) (iblk0 V c 0 ⟨n + 1, hn⟩) (iblk0 V c 1 ⟨n + 1, hn⟩) (accAt0 c n (Nat.lt_of_succ_lt hn))

/-- What the position before left in the accumulator (read only at positions that are not first steps). -/
def accPrev0 (c : Dev nD) (t : Fin cfg0.N) : Vec F S1024x1024 .f32 :=
  accAt0 V c (t.val - 1) (Nat.lt_of_le_of_lt (Nat.sub_le _ _) t.isLt)

theorem accAt0_first (c : Dev nD) (t : Fin cfg0.N) (h0 : t.val % 4 = 0) (h1 : ¬t.val % 4 = 3) :
    accAt0 V c t.val t.isLt = accFirst0 c (grid0.coords t) (ms0_0 t) (hs0_0 t) (ms0_1 t) (hs0_1 t) (ms0_2 t) (hs0_2 t) acc0 (Memref.isWhole_whole _) ((hfirst0 t).mpr h0) (fun h => h1 ((hlast0 t).mp h)) (iblk0 V c 0 t) (iblk0 V c 1 t) := by
  obtain ⟨n, hn⟩ := t
  cases n with
  | zero => exact rfl
  | succ n => exact (dif_pos h0).trans rfl
theorem accAt0_mid (c : Dev nD) (t : Fin cfg0.N) (h0 : ¬t.val % 4 = 0) (h1 : ¬t.val % 4 = 3) :
    accAt0 V c t.val t.isLt = accMid0 c (grid0.coords t) (ms0_0 t) (hs0_0 t) (ms0_1 t) (hs0_1 t) (ms0_2 t) (hs0_2 t) acc0 (Memref.isWhole_whole _) (fun h => h0 ((hfirst0 t).mp h)) (fun h => h1 ((hlast0 t).mp h)) (iblk0 V c 0 t) (iblk0 V c 1 t) (accPrev0 V c t) := by
  obtain ⟨n, hn⟩ := t
  cases n with
  | zero => exact (by exfalso; (try dsimp only at h0); exact absurd (Nat.zero_mod _) h0)
  | succ n => exact (dif_neg h0).trans ((dif_neg h1).trans rfl)
theorem accAt0_last (c : Dev nD) (t : Fin cfg0.N) (h0 : ¬t.val % 4 = 0) (h1 : t.val % 4 = 3) :
    accAt0 V c t.val t.isLt = accLast0 c (grid0.coords t) (ms0_0 t) (hs0_0 t) (ms0_1 t) (hs0_1 t) (ms0_2 t) (hs0_2 t) acc0 (Memref.isWhole_whole _) (fun h => h0 ((hfirst0 t).mp h)) ((hlast0 t).mpr h1) (iblk0 V c 0 t) (iblk0 V c 1 t) (accPrev0 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt0 (c : Dev nD) (t : Fin cfg0.N) : Vec F S1024x1024 .f32 :=
  if h1 : t.val % 4 = 3 then
    outLast0 c (grid0.coords t) (ms0_0 t) (hs0_0 t) (ms0_1 t) (hs0_1 t) (ms0_2 t) (hs0_2 t) acc0 (Memref.isWhole_whole _) (fun h => (fun h => by omega) ((hfirst0 t).mp h)) ((hlast0 t).mpr h1) (iblk0 V c 0 t) (iblk0 V c 1 t) (accPrev0 V c t)
  else VO0.read (Elt F) (VO0.writes (Elt F) VO0.junk [])

/-- The invariant before position `n`: before the first point the class's (the accumulator at anything); afterwards
    the accumulator at what the position before left, beside the rest. -/
def PhiS0 (c : Dev nD) : (n : ℕ) → n ≤ cfg0.N → sProp 𝕄
  | 0, _ => Pipeline.ΦA spec0 c
  | n + 1, hn => iprop(owns (c : Thread nD τ) acc0 fullShare (accAt0 V c n hn) ∗ rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) acc0 fullShare (accAt0 V c n hn) ∗ rest0 (F := F) c) := rfl
theorem PhiS0_pos (c : Dev nD) (n : ℕ) (h : n ≤ cfg0.N) (hz : n ≠ 0) :
    PhiS0 V c n h = iprop(owns (c : Thread nD τ) acc0 fullShare (accAt0 V c (n - 1) (by omega)) ∗ rest0 (F := F) c) := by
  cases n with
  | zero => exact absurd rfl hz
  | succ n => rfl

/-! ## The proof data -/

/-- The arrays as the region finds them; after the body each operand's buffer at its block and the output's at
    `outAt`; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem outAt0_last (c : Dev nD) (t : Fin cfg0.N) (h0 : ¬t.val % 4 = 0) (h1 : t.val % 4 = 3) :
    outAt0 V c t = outLast0 c (grid0.coords t) (ms0_0 t) (hs0_0 t) (ms0_1 t) (hs0_1 t) (ms0_2 t) (hs0_2 t) acc0 (Memref.isWhole_whole _) (fun h => h0 ((hfirst0 t).mp h)) ((hlast0 t).mpr h1) (iblk0 V c 0 t) (iblk0 V c 1 t) (accPrev0 V c t) :=
  dif_pos h1

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 64 := lt_of_lt_of_eq t.isLt (show cfg0.N = 64 from N_0)
  by_cases h0 : t.val % 4 = 0
  · have h1 : ¬t.val % 4 = 3 := by omega
    rw [Dat.leavesExact_idle (dat0 V c) 2 t (idle0_2 t (fun h => h1 ((hlast0 t).mp h))) (noFlush0_2 t (fun h => h1 ((hlast0 t).mp h)))]
    rw [accAt0_first V c t h0 h1]
    unfold accFirst0; (try dsimp only)
    by_cases hz : t.val = 0
    · rw [PhiS0_castSucc V c t, PhiS0_zero V c _ _ hz, PhiA0_eq]
      iintro ⟨⟨HS, Hr⟩, Ho, ⟨%d0, H0⟩, ⟨%d1, H1⟩, ⟨%d2, H2⟩⟩
      iapply ((runFirst0 c (grid0.coords t) _ _ _ _ _ _ _ _ ((hfirst0 t).mpr h0) (fun h => h1 ((hlast0 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst0 c _ _ _ _ _ _ _ _ _ _ _ _ _)
        iexact Hr
      isplitl [Ho]; · iexact Ho
      isplitl [H0]; · iexact H0
      isplitl [H1]; · iexact H1
      iexists _; iexact H2
    · rw [PhiS0_castSucc V c t, PhiS0_pos V c _ _ hz]
      iintro ⟨⟨HS, Hr⟩, Ho, ⟨%d0, H0⟩, ⟨%d1, H1⟩, ⟨%d2, H2⟩⟩
      iapply ((runFirst0 c (grid0.coords t) _ _ _ _ _ _ _ _ ((hfirst0 t).mpr h0) (fun h => h1 ((hlast0 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst0 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [live0_2 t ((hlast0 t).mpr h1)], after0_2]
      rw [accAt0_last V c t h0 h1, outAt0_last V c t h0 h1]
      unfold accLast0 outLast0; (try dsimp only)
      rw [PhiS0_castSucc V c t, PhiS0_pos V c _ _ hz]
      iintro ⟨⟨HS, Hr⟩, Ho, ⟨%d0, H0⟩, ⟨%d1, H1⟩, ⟨%d2, H2⟩⟩
      iapply ((runLast0 c (grid0.coords t) _ _ _ _ _ _ _ _ (fun h => h0 ((hfirst0 t).mp h)) ((hlast0 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS0 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO0 c _ _ _ _ _ _ _ _ _ _ _ _ _ _)
    · rw [Dat.leavesExact_idle (dat0 V c) 2 t (idle0_2 t (fun h => h1 ((hlast0 t).mp h))) (noFlush0_2 t (fun h => h1 ((hlast0 t).mp h)))]
      rw [accAt0_mid V c t h0 h1]
      unfold accMid0; (try dsimp only)
      rw [PhiS0_castSucc V c t, PhiS0_pos V c _ _ hz]
      iintro ⟨⟨HS, Hr⟩, Ho, ⟨%d0, H0⟩, ⟨%d1, H1⟩, ⟨%d2, H2⟩⟩
      iapply ((runMid0 c (grid0.coords t) _ _ _ _ _ _ _ _ (fun h => h0 ((hfirst0 t).mp h)) (fun h => h1 ((hlast0 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid0 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: what the accumulator holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS, Hr⟩
  isplitl [HS]
  · iexists _; iexact HS
  iexact Hr

end Cert.Kernel.Hand

end
-- ==== Proof.K.Region1.lean ====
import proofs.«141484_j24618752540870_1_alg».proof.Proof.Gen.Kernel.Launch
import proofs.«141484_j24618752540870_1_alg».proof.Proof.Gen.Kernel.Skeleton
import proofs.«141484_j24618752540870_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 1: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first1 (i : grid1.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst1 : ∀ t : Fin cfg1.N, first1 (grid1.coords t) ↔ t.val % 4 = 0 :=
  (by decide +kernel : ∀ t : Fin grid1.N, first1 (grid1.coords t) ↔ t.val % 4 = 0)
/-- The step along the contracted axis is the last one. -/
abbrev last1 (i : grid1.Coords) : Prop := k1_cond2 i = 1#1
/-- The last step is at the points ≡ 3 (mod 4). -/
theorem hlast1 : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off the last step the output tile is idle: nothing is stored into it and it is not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
/-- At the last step it is live. -/
theorem live1_2 : ∀ t : Fin cfg1.N, last1 (grid1.coords t) → cfg1.idle 2 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x1024 .f32 := Memref.whole cc1_scratch0
/-- The accumulator and one output staging buffer as views: what they hold is stated through them. -/
abbrev VS1 : View sig .tc .vmem S1024x1024 .f32 := (acc1).view
abbrev VO1 : View sig .tc .vmem S1024x1024 .f32 := (Memref.whole cc1_stg2_0 : Memref sig .tc .vmem S1024x1024 .f32).view

/-! ## The region's invariant, the accumulator taken out -/

/-- Every scoped buffer that is neither a staging buffer of this region nor its accumulator, at some contents, and the
    generator register at some state: what the body never touches. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant is the accumulator at some contents beside the rest. -/
theorem PhiA1_eq (c : Dev nD) :
    (Pipeline.ΦA spec1 c : sProp 𝕄) = iprop((∃ d, owns (c : Thread nD τ) acc1 fullShare d) ∗ rest1 (F := F) c) := by
  unfold Pipeline.ΦA rest1
  rw [Pipeline.scopedRest_split_of_list (win := spec1) (c := c) [cc1_scratch0] (by decide) (by decide)]
  simp only [acc1, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i)
    (x0 : Vec F S1024x1024 .f32) (x1 : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, fun xi E Q => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i)
    (x0 : Vec F S1024x1024 .f32) (x1 : Vec F S1024x1024 .f32) (xs : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, fun xi E Q => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, ?_, fun E Q => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i) (x0 : Vec F S1024x1024 .f32) (x1 : Vec F S1024x1024 .f32) (y : S1024x1024.Idx) :
    ∃ pc ∈ (runFirst1 c i arg3 harg3 arg4 harg4 arg5 harg5 arg6 harg6 hc0 hc1 x0 x1).1, y ∈ pc.1.set :=
  View.cover_of_tiledL (runFirst1 c i arg3 harg3 arg4 harg4 arg5 harg5 arg6 harg6 hc0 hc1 x0 x1).1 S1024x1024.size (by sl_kernel_rfl) y
/-- The accumulator after a first step: its pieces read back. -/
def accFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i) (x0 : Vec F S1024x1024 .f32) (x1 : Vec F S1024x1024 .f32) : Vec F S1024x1024 .f32 :=
  VS1.read (Elt F) (VS1.writes (Elt F) VS1.junk (runFirst1 c i arg3 harg3 arg4 harg4 arg5 harg5 arg6 harg6 hc0 hc1 x0 x1).1)

theorem coverMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i) (x0 : Vec F S1024x1024 .f32) (x1 : Vec F S1024x1024 .f32) (xs : Vec F S1024x1024 .f32) (y : S1024x1024.Idx) :
    ∃ pc ∈ (runMid1 c i arg3 harg3 arg4 harg4 arg5 harg5 arg6 harg6 hc0 hc1 x0 x1 xs).1, y ∈ pc.1.set :=
  View.cover_of_tiledL (runMid1 c i arg3 harg3 arg4 harg4 arg5 harg5 arg6 harg6 hc0 hc1 x0 x1 xs).1 S1024x1024.size (by sl_kernel_rfl) y
/-- The accumulator after a middle step. -/
def accMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i) (x0 : Vec F S1024x1024 .f32) (x1 : Vec F S1024x1024 .f32) (xs : Vec F S1024x1024 .f32) : Vec F S1024x1024 .f32 :=
  VS1.read (Elt F) (VS1.writes (Elt F) VS1.junk (runMid1 c i arg3 harg3 arg4 harg4 arg5 harg5 arg6 harg6 hc0 hc1 x0 x1 xs).1)

theorem coverLastS1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) (y : S1024x1024.Idx) :
    ∃ pc ∈ (runLast1 c i arg3 harg3 arg4 harg4 arg5 harg5 arg6 harg6 hc0 hc1 x0 x1 xs).2.1, y ∈ pc.1.set :=
  View.cover_of_tiledL (runLast1 c i arg3 harg3 arg4 harg4 arg5 harg5 arg6 harg6 hc0 hc1 x0 x1 xs).2.1 S1024x1024.size (by sl_kernel_rfl) y
theorem coverLastO1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) (y : S1024x1024.Idx) :
    ∃ pc ∈ (runLast1 c i arg3 harg3 arg4 harg4 arg5 harg5 arg6 harg6 hc0 hc1 x0 x1 xs).1, y ∈ pc.1.set :=
  View.cover_of_tiledL (runLast1 c i arg3 harg3 arg4 harg4 arg5 harg5 arg6 harg6 hc0 hc1 x0 x1 xs).1 S1024x1024.size (by sl_kernel_rfl) y
/-- The accumulator and the output tile after a last step. -/
def accLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) : Vec F S1024x1024 .f32 :=
  VS1.read (Elt F) (VS1.writes (Elt F) VS1.junk (runLast1 c i arg3 harg3 arg4 harg4 arg5 harg5 arg6 harg6 hc0 hc1 x0 x1 xs).2.1)
def outLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) : Vec F S1024x1024 .f32 :=
  VO1.read (Elt F) (VO1.writes (Elt F) VO1.junk (runLast1 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, for any proof data over `V` that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the accumulator after the body at position `n`, by recursion on the position — a first step
    starts from the two blocks alone, any other step adds to what the position before left. -/
def accAt1 (c : Dev nD) : (n : ℕ) → n < cfg1.N → Vec F S1024x1024 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) acc1 (Memref.isWhole_whole _) ((hfirst1 ⟨0, hn⟩).mpr (Nat.zero_mod _)) (fun h => (fun h => by (try dsimp only at h); omega) ((hlast1 ⟨0, hn⟩).mp h)) (iblk1 V c 0 ⟨0, hn⟩) (iblk1 V c 1 ⟨0, hn⟩)
  | n + 1, hn =>
    if h0 : (n + 1) % 4 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) ((hfirst1 ⟨n + 1, hn⟩).mpr h0) (fun h => (fun h => by (try dsimp only at h); omega) ((hlast1 ⟨n + 1, hn⟩).mp h)) (iblk1 V c 0 ⟨n + 1, hn⟩) (iblk1 V c 1 ⟨n + 1, hn⟩)
    else if h1 : (n + 1) % 4 = 3 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (accAt1 c n (Nat.lt_of_succ_lt hn))
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hfirst1 ⟨n + 1, hn⟩).mp h)) (fun h => h1 ((hlast1 ⟨n + 1, hn⟩).mp h)) (iblk1 V c 0 ⟨n + 1, hn⟩) (iblk1 V c 1 ⟨n + 1, hn⟩) (accAt1 c n (Nat.lt_of_succ_lt hn))

/-- What the position before left in the accumulator (read only at positions that are not first steps). -/
def accPrev1 (c : Dev nD) (t : Fin cfg1.N) : Vec F S1024x1024 .f32 :=
  accAt1 V c (t.val - 1) (Nat.lt_of_le_of_lt (Nat.sub_le _ _) t.isLt)

theorem accAt1_first (c : Dev nD) (t : Fin cfg1.N) (h0 : t.val % 4 = 0) (h1 : ¬t.val % 4 = 3) :
    accAt1 V c t.val t.isLt = accFirst1 c (grid1.coords t) (ms1_0 t) (hs1_0 t) (ms1_1 t) (hs1_1 t) (ms1_2 t) (hs1_2 t) acc1 (Memref.isWhole_whole _) ((hfirst1 t).mpr h0) (fun h => h1 ((hlast1 t).mp h)) (iblk1 V c 0 t) (iblk1 V c 1 t) := by
  obtain ⟨n, hn⟩ := t
  cases n with
  | zero => exact rfl
  | succ n => exact (dif_pos h0).trans rfl
theorem accAt1_mid (c : Dev nD) (t : Fin cfg1.N) (h0 : ¬t.val % 4 = 0) (h1 : ¬t.val % 4 = 3) :
    accAt1 V c t.val t.isLt = accMid1 c (grid1.coords t) (ms1_0 t) (hs1_0 t) (ms1_1 t) (hs1_1 t) (ms1_2 t) (hs1_2 t) acc1 (Memref.isWhole_whole _) (fun h => h0 ((hfirst1 t).mp h)) (fun h => h1 ((hlast1 t).mp h)) (iblk1 V c 0 t) (iblk1 V c 1 t) (accPrev1 V c t) := by
  obtain ⟨n, hn⟩ := t
  cases n with
  | zero => exact (by exfalso; (try dsimp only at h0); exact absurd (Nat.zero_mod _) h0)
  | succ n => exact (dif_neg h0).trans ((dif_neg h1).trans rfl)
theorem accAt1_last (c : Dev nD) (t : Fin cfg1.N) (h0 : ¬t.val % 4 = 0) (h1 : t.val % 4 = 3) :
    accAt1 V c t.val t.isLt = accLast1 c (grid1.coords t) (ms1_0 t) (hs1_0 t) (ms1_1 t) (hs1_1 t) (ms1_2 t) (hs1_2 t) acc1 (Memref.isWhole_whole _) (fun h => h0 ((hfirst1 t).mp h)) ((hlast1 t).mpr h1) (iblk1 V c 0 t) (iblk1 V c 1 t) (accPrev1 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt1 (c : Dev nD) (t : Fin cfg1.N) : Vec F S1024x1024 .f32 :=
  if h1 : t.val % 4 = 3 then
    outLast1 c (grid1.coords t) (ms1_0 t) (hs1_0 t) (ms1_1 t) (hs1_1 t) (ms1_2 t) (hs1_2 t) acc1 (Memref.isWhole_whole _) (fun h => (fun h => by omega) ((hfirst1 t).mp h)) ((hlast1 t).mpr h1) (iblk1 V c 0 t) (iblk1 V c 1 t) (accPrev1 V c t)
  else VO1.read (Elt F) (VO1.writes (Elt F) VO1.junk [])

/-- The invariant before position `n`: before the first point the class's (the accumulator at anything); afterwards
    the accumulator at what the position before left, beside the rest. -/
def PhiS1 (c : Dev nD) : (n : ℕ) → n ≤ cfg1.N → sProp 𝕄
  | 0, _ => Pipeline.ΦA spec1 c
  | n + 1, hn => iprop(owns (c : Thread nD τ) acc1 fullShare (accAt1 V c n hn) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) acc1 fullShare (accAt1 V c n hn) ∗ rest1 (F := F) c) := rfl
theorem PhiS1_pos (c : Dev nD) (n : ℕ) (h : n ≤ cfg1.N) (hz : n ≠ 0) :
    PhiS1 V c n h = iprop(owns (c : Thread nD τ) acc1 fullShare (accAt1 V c (n - 1) (by omega)) ∗ rest1 (F := F) c) := by
  cases n with
  | zero => exact absurd rfl hz
  | succ n => rfl

/-! ## The proof data -/

/-- The arrays as the region finds them; after the body each operand's buffer at its block and the output's at
    `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem outAt1_last (c : Dev nD) (t : Fin cfg1.N) (h0 : ¬t.val % 4 = 0) (h1 : t.val % 4 = 3) :
    outAt1 V c t = outLast1 c (grid1.coords t) (ms1_0 t) (hs1_0 t) (ms1_1 t) (hs1_1 t) (ms1_2 t) (hs1_2 t) acc1 (Memref.isWhole_whole _) (fun h => h0 ((hfirst1 t).mp h)) ((hlast1 t).mpr h1) (iblk1 V c 0 t) (iblk1 V c 1 t) (accPrev1 V c t) :=
  dif_pos h1

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idle1_2 t (fun h => h1 ((hlast1 t).mp h))) (noFlush1_2 t (fun h => h1 ((hlast1 t).mp h)))]
    rw [accAt1_first V c t h0 h1]
    unfold accFirst1; (try dsimp only)
    by_cases hz : t.val = 0
    · rw [PhiS1_castSucc V c t, PhiS1_zero V c _ _ hz, PhiA1_eq]
      iintro ⟨⟨HS, Hr⟩, Ho, ⟨%d0, H0⟩, ⟨%d1, H1⟩, ⟨%d2, H2⟩⟩
      iapply ((runFirst1 c (grid1.coords t) _ _ _ _ _ _ _ _ ((hfirst1 t).mpr h0) (fun h => h1 ((hlast1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst1 c _ _ _ _ _ _ _ _ _ _ _ _ _)
        iexact Hr
      isplitl [Ho]; · iexact Ho
      isplitl [H0]; · iexact H0
      isplitl [H1]; · iexact H1
      iexists _; iexact H2
    · rw [PhiS1_castSucc V c t, PhiS1_pos V c _ _ hz]
      iintro ⟨⟨HS, Hr⟩, Ho, ⟨%d0, H0⟩, ⟨%d1, H1⟩, ⟨%d2, H2⟩⟩
      iapply ((runFirst1 c (grid1.coords t) _ _ _ _ _ _ _ _ ((hfirst1 t).mpr h0) (fun h => h1 ((hlast1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst1 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [live1_2 t ((hlast1 t).mpr h1)], after1_2]
      rw [accAt1_last V c t h0 h1, outAt1_last V c t h0 h1]
      unfold accLast1 outLast1; (try dsimp only)
      rw [PhiS1_castSucc V c t, PhiS1_pos V c _ _ hz]
      iintro ⟨⟨HS, Hr⟩, Ho, ⟨%d0, H0⟩, ⟨%d1, H1⟩, ⟨%d2, H2⟩⟩
      iapply ((runLast1 c (grid1.coords t) _ _ _ _ _ _ _ _ (fun h => h0 ((hfirst1 t).mp h)) ((hlast1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS1 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO1 c _ _ _ _ _ _ _ _ _ _ _ _ _ _)
    · rw [Dat.leavesExact_idle (dat1 V c) 2 t (idle1_2 t (fun h => h1 ((hlast1 t).mp h))) (noFlush1_2 t (fun h => h1 ((hlast1 t).mp h)))]
      rw [accAt1_mid V c t h0 h1]
      unfold accMid1; (try dsimp only)
      rw [PhiS1_castSucc V c t, PhiS1_pos V c _ _ hz]
      iintro ⟨⟨HS, Hr⟩, Ho, ⟨%d0, H0⟩, ⟨%d1, H1⟩, ⟨%d2, H2⟩⟩
      iapply ((runMid1 c (grid1.coords t) _ _ _ _ _ _ _ _ (fun h => h0 ((hfirst1 t).mp h)) (fun h => h1 ((hlast1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid1 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, Hr⟩
  isplitl [HS]
  · iexists _; iexact HS
  iexact Hr

end Cert.Kernel.Hand

end
-- ==== Proof.K.Region2.lean ====
import proofs.«141484_j24618752540870_1_alg».proof.Proof.Gen.Kernel.Launch
import proofs.«141484_j24618752540870_1_alg».proof.Proof.Gen.Kernel.Skeleton
import proofs.«141484_j24618752540870_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 2: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first2 (i : grid2.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst2 : ∀ t : Fin cfg2.N, first2 (grid2.coords t) ↔ t.val % 4 = 0 :=
  (by decide +kernel : ∀ t : Fin grid2.N, first2 (grid2.coords t) ↔ t.val % 4 = 0)
/-- The step along the contracted axis is the last one. -/
abbrev last2 (i : grid2.Coords) : Prop := k2_cond2 i = 1#1
/-- The last step is at the points ≡ 3 (mod 4). -/
theorem hlast2 : ∀ t : Fin cfg2.N, last2 (grid2.coords t) ↔ t.val % 4 = 3 :=
  (by decide +kernel : ∀ t : Fin grid2.N, last2 (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Off the last step the output tile is idle: nothing is stored into it and it is not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
/-- At the last step it is live. -/
theorem live2_2 : ∀ t : Fin cfg2.N, last2 (grid2.coords t) → cfg2.idle 2 (grid2.coords t) = false := by decide +kernel

/-! ## The memrefs the body is called with -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x256 .f32 := Memref.whole cc2_scratch0
/-- The accumulator and one output staging buffer as views: what they hold is stated through them. -/
abbrev VS2 : View sig .tc .vmem S1024x256 .f32 := (acc2).view
abbrev VO2 : View sig .tc .vmem S1024x256 .f32 := (Memref.whole cc2_stg2_0 : Memref sig .tc .vmem S1024x256 .f32).view

/-! ## The region's invariant, the accumulator taken out -/

/-- Every scoped buffer that is neither a staging buffer of this region nor its accumulator, at some contents, and the
    generator register at some state: what the body never touches. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The class invariant is the accumulator at some contents beside the rest. -/
theorem PhiA2_eq (c : Dev nD) :
    (Pipeline.ΦA spec2 c : sProp 𝕄) = iprop((∃ d, owns (c : Thread nD τ) acc2 fullShare d) ∗ rest2 (F := F) c) := by
  unfold Pipeline.ΦA rest2
  rw [Pipeline.scopedRest_split_of_list (win := spec2) (c := c) [cc2_scratch0] (by decide) (by decide)]
  simp only [acc2, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i)
    (x0 : Vec F S1024x1024 .f32) (x1 : Vec F S1024x256 .f32) :
    { LS : List (View.Piece (Elt F) S1024x256 .f32) //
      ∀ (xi : Vec F S1024x256 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, fun xi E Q => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i)
    (x0 : Vec F S1024x1024 .f32) (x1 : Vec F S1024x256 .f32) (xs : Vec F S1024x256 .f32) :
    { LS : List (View.Piece (Elt F) S1024x256 .f32) //
      ∀ (xi : Vec F S1024x256 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, fun xi E Q => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i)
    (x0 : Vec F S1024x1024 .f32) (x1 : Vec F S1024x256 .f32) (xs : Vec F S1024x256 .f32) :
    Σ' (LO : List (View.Piece (Elt F) S1024x256 .f32)), { LS : List (View.Piece (Elt F) S1024x256 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, ?_, fun E Q => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i) (x0 : Vec F S1024x1024 .f32) (x1 : Vec F S1024x256 .f32) (y : S1024x256.Idx) :
    ∃ pc ∈ (runFirst2 c i arg3 harg3 arg4 harg4 arg5 harg5 arg6 harg6 hc0 hc1 x0 x1).1, y ∈ pc.1.set :=
  View.cover_of_tiledL (runFirst2 c i arg3 harg3 arg4 harg4 arg5 harg5 arg6 harg6 hc0 hc1 x0 x1).1 S1024x256.size (by sl_kernel_rfl) y
/-- The accumulator after a first step: its pieces read back. -/
def accFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i) (x0 : Vec F S1024x1024 .f32) (x1 : Vec F S1024x256 .f32) : Vec F S1024x256 .f32 :=
  VS2.read (Elt F) (VS2.writes (Elt F) VS2.junk (runFirst2 c i arg3 harg3 arg4 harg4 arg5 harg5 arg6 harg6 hc0 hc1 x0 x1).1)

theorem coverMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i) (x0 : Vec F S1024x1024 .f32) (x1 : Vec F S1024x256 .f32) (xs : Vec F S1024x256 .f32) (y : S1024x256.Idx) :
    ∃ pc ∈ (runMid2 c i arg3 harg3 arg4 harg4 arg5 harg5 arg6 harg6 hc0 hc1 x0 x1 xs).1, y ∈ pc.1.set :=
  View.cover_of_tiledL (runMid2 c i arg3 harg3 arg4 harg4 arg5 harg5 arg6 harg6 hc0 hc1 x0 x1 xs).1 S1024x256.size (by sl_kernel_rfl) y
/-- The accumulator after a middle step. -/
def accMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i) (x0 : Vec F S1024x1024 .f32) (x1 : Vec F S1024x256 .f32) (xs : Vec F S1024x256 .f32) : Vec F S1024x256 .f32 :=
  VS2.read (Elt F) (VS2.writes (Elt F) VS2.junk (runMid2 c i arg3 harg3 arg4 harg4 arg5 harg5 arg6 harg6 hc0 hc1 x0 x1 xs).1)

theorem coverLastS2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) (y : S1024x256.Idx) :
    ∃ pc ∈ (runLast2 c i arg3 harg3 arg4 harg4 arg5 harg5 arg6 harg6 hc0 hc1 x0 x1 xs).2.1, y ∈ pc.1.set :=
  View.cover_of_tiledL (runLast2 c i arg3 harg3 arg4 harg4 arg5 harg5 arg6 harg6 hc0 hc1 x0 x1 xs).2.1 S1024x256.size (by sl_kernel_rfl) y
theorem coverLastO2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) (y : S1024x256.Idx) :
    ∃ pc ∈ (runLast2 c i arg3 harg3 arg4 harg4 arg5 harg5 arg6 harg6 hc0 hc1 x0 x1 xs).1, y ∈ pc.1.set :=
  View.cover_of_tiledL (runLast2 c i arg3 harg3 arg4 harg4 arg5 harg5 arg6 harg6 hc0 hc1 x0 x1 xs).1 S1024x256.size (by sl_kernel_rfl) y
/-- The accumulator and the output tile after a last step. -/
def accLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) : Vec F S1024x256 .f32 :=
  VS2.read (Elt F) (VS2.writes (Elt F) VS2.junk (runLast2 c i arg3 harg3 arg4 harg4 arg5 harg5 arg6 harg6 hc0 hc1 x0 x1 xs).2.1)
def outLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) : Vec F S1024x256 .f32 :=
  VO2.read (Elt F) (VO2.writes (Elt F) VO2.junk (runLast2 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, for any proof data over `V` that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: the accumulator after the body at position `n`, by recursion on the position — a first step
    starts from the two blocks alone, any other step adds to what the position before left. -/
def accAt2 (c : Dev nD) : (n : ℕ) → n < cfg2.N → Vec F S1024x256 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) acc2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩)
  | n + 1, hn =>
    if h0 : (n + 1) % 4 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) ((hfirst2 ⟨n + 1, hn⟩).mpr h0) (fun h => (fun h => by (try dsimp only at h); omega) ((hlast2 ⟨n + 1, hn⟩).mp h)) (iblk2 V c 0 ⟨n + 1, hn⟩) (iblk2 V c 1 ⟨n + 1, hn⟩)
    else if h1 : (n + 1) % 4 = 3 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (accAt2 c n (Nat.lt_of_succ_lt hn))
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (accAt2 c n (Nat.lt_of_succ_lt hn))

/-- What the position before left in the accumulator (read only at positions that are not first steps). -/
def accPrev2 (c : Dev nD) (t : Fin cfg2.N) : Vec F S1024x256 .f32 :=
  accAt2 V c (t.val - 1) (Nat.lt_of_le_of_lt (Nat.sub_le _ _) t.isLt)

theorem accAt2_first (c : Dev nD) (t : Fin cfg2.N) (h0 : t.val % 4 = 0) (h1 : ¬t.val % 4 = 3) :
    accAt2 V c t.val t.isLt = accFirst2 c (grid2.coords t) (ms2_0 t) (hs2_0 t) (ms2_1 t) (hs2_1 t) (ms2_2 t) (hs2_2 t) acc2 (Memref.isWhole_whole _) ((hfirst2 t).mpr h0) (fun h => h1 ((hlast2 t).mp h)) (iblk2 V c 0 t) (iblk2 V c 1 t) := by
  obtain ⟨n, hn⟩ := t
  cases n with
  | zero => exact rfl
  | succ n => exact (dif_pos h0).trans rfl
theorem accAt2_mid (c : Dev nD) (t : Fin cfg2.N) (h0 : ¬t.val % 4 = 0) (h1 : ¬t.val % 4 = 3) :
    accAt2 V c t.val t.isLt = accMid2 c (grid2.coords t) (ms2_0 t) (hs2_0 t) (ms2_1 t) (hs2_1 t) (ms2_2 t) (hs2_2 t) acc2 (Memref.isWhole_whole _) (fun h => h0 ((hfirst2 t).mp h)) (fun h => h1 ((hlast2 t).mp h)) (iblk2 V c 0 t) (iblk2 V c 1 t) (accPrev2 V c t) := by
  obtain ⟨n, hn⟩ := t
  cases n with
  | zero => exact (by exfalso; (try dsimp only at h0); exact absurd (Nat.zero_mod _) h0)
  | succ n => exact (dif_neg h0).trans ((dif_neg h1).trans rfl)
theorem accAt2_last (c : Dev nD) (t : Fin cfg2.N) (h0 : ¬t.val % 4 = 0) (h1 : t.val % 4 = 3) :
    accAt2 V c t.val t.isLt = accLast2 c (grid2.coords t) (ms2_0 t) (hs2_0 t) (ms2_1 t) (hs2_1 t) (ms2_2 t) (hs2_2 t) acc2 (Memref.isWhole_whole _) (fun h => h0 ((hfirst2 t).mp h)) ((hlast2 t).mpr h1) (iblk2 V c 0 t) (iblk2 V c 1 t) (accPrev2 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt2 (c : Dev nD) (t : Fin cfg2.N) : Vec F S1024x256 .f32 :=
  if h1 : t.val % 4 = 3 then
    outLast2 c (grid2.coords t) (ms2_0 t) (hs2_0 t) (ms2_1 t) (hs2_1 t) (ms2_2 t) (hs2_2 t) acc2 (Memref.isWhole_whole _) (fun h => (fun h => by omega) ((hfirst2 t).mp h)) ((hlast2 t).mpr h1) (iblk2 V c 0 t) (iblk2 V c 1 t) (accPrev2 V c t)
  else VO2.read (Elt F) (VO2.writes (Elt F) VO2.junk [])

/-- The invariant before position `n`: before the first point the class's (the accumulator at anything); afterwards
    the accumulator at what the position before left, beside the rest. -/
def PhiS2 (c : Dev nD) : (n : ℕ) → n ≤ cfg2.N → sProp 𝕄
  | 0, _ => Pipeline.ΦA spec2 c
  | n + 1, hn => iprop(owns (c : Thread nD τ) acc2 fullShare (accAt2 V c n hn) ∗ rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) acc2 fullShare (accAt2 V c n hn) ∗ rest2 (F := F) c) := rfl
theorem PhiS2_pos (c : Dev nD) (n : ℕ) (h : n ≤ cfg2.N) (hz : n ≠ 0) :
    PhiS2 V c n h = iprop(owns (c : Thread nD τ) acc2 fullShare (accAt2 V c (n - 1) (by omega)) ∗ rest2 (F := F) c) := by
  cases n with
  | zero => exact absurd rfl hz
  | succ n => rfl

/-! ## The proof data -/

/-- The arrays as the region finds them; after the body each operand's buffer at its block and the output's at
    `outAt`; the invariant carrying the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem outAt2_last (c : Dev nD) (t : Fin cfg2.N) (h0 : ¬t.val % 4 = 0) (h1 : t.val % 4 = 3) :
    outAt2 V c t = outLast2 c (grid2.coords t) (ms2_0 t) (hs2_0 t) (ms2_1 t) (hs2_1 t) (ms2_2 t) (hs2_2 t) acc2 (Memref.isWhole_whole _) (fun h => h0 ((hfirst2 t).mp h)) ((hlast2 t).mpr h1) (iblk2 V c 0 t) (iblk2 V c 1 t) (accPrev2 V c t) :=
  dif_pos h1

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 16 := lt_of_lt_of_eq t.isLt (show cfg2.N = 16 from N_2)
  by_cases h0 : t.val % 4 = 0
  · have h1 : ¬t.val % 4 = 3 := by omega
    rw [Dat.leavesExact_idle (dat2 V c) 2 t (idle2_2 t (fun h => h1 ((hlast2 t).mp h))) (noFlush2_2 t (fun h => h1 ((hlast2 t).mp h)))]
    rw [accAt2_first V c t h0 h1]
    unfold accFirst2; (try dsimp only)
    by_cases hz : t.val = 0
    · rw [PhiS2_castSucc V c t, PhiS2_zero V c _ _ hz, PhiA2_eq]
      iintro ⟨⟨HS, Hr⟩, Ho, ⟨%d0, H0⟩, ⟨%d1, H1⟩, ⟨%d2, H2⟩⟩
      iapply ((runFirst2 c (grid2.coords t) _ _ _ _ _ _ _ _ ((hfirst2 t).mpr h0) (fun h => h1 ((hlast2 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst2 c _ _ _ _ _ _ _ _ _ _ _ _ _)
        iexact Hr
      isplitl [Ho]; · iexact Ho
      isplitl [H0]; · iexact H0
      isplitl [H1]; · iexact H1
      iexists _; iexact H2
    · rw [PhiS2_castSucc V c t, PhiS2_pos V c _ _ hz]
      iintro ⟨⟨HS, Hr⟩, Ho, ⟨%d0, H0⟩, ⟨%d1, H1⟩, ⟨%d2, H2⟩⟩
      iapply ((runFirst2 c (grid2.coords t) _ _ _ _ _ _ _ _ ((hfirst2 t).mpr h0) (fun h => h1 ((hlast2 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst2 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat2 V c).leavesExact 2 t = owns (c : Thread nD τ) (ms2_2 t) fullShare ((dat2 V c).after 2 t) from by
        unfold Dat.leavesExact; rw [live2_2 t ((hlast2 t).mpr h1)], after2_2]
      rw [accAt2_last V c t h0 h1, outAt2_last V c t h0 h1]
      unfold accLast2 outLast2; (try dsimp only)
      rw [PhiS2_castSucc V c t, PhiS2_pos V c _ _ hz]
      iintro ⟨⟨HS, Hr⟩, Ho, ⟨%d0, H0⟩, ⟨%d1, H1⟩, ⟨%d2, H2⟩⟩
      iapply ((runLast2 c (grid2.coords t) _ _ _ _ _ _ _ _ (fun h => h0 ((hfirst2 t).mp h)) ((hlast2 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS2 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO2 c _ _ _ _ _ _ _ _ _ _ _ _ _ _)
    · rw [Dat.leavesExact_idle (dat2 V c) 2 t (idle2_2 t (fun h => h1 ((hlast2 t).mp h))) (noFlush2_2 t (fun h => h1 ((hlast2 t).mp h)))]
      rw [accAt2_mid V c t h0 h1]
      unfold accMid2; (try dsimp only)
      rw [PhiS2_castSucc V c t, PhiS2_pos V c _ _ hz]
      iintro ⟨⟨HS, Hr⟩, Ho, ⟨%d0, H0⟩, ⟨%d1, H1⟩, ⟨%d2, H2⟩⟩
      iapply ((runMid2 c (grid2.coords t) _ _ _ _ _ _ _ _ (fun h => h0 ((hfirst2 t).mp h)) (fun h => h1 ((hlast2 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid2 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨HS, Hr⟩
  isplitl [HS]
  · iexists _; iexact HS
  iexact Hr

end Cert.Kernel.Hand

end
-- ==== Proof.K.Segs.lean ====
/- The three kernel regions of @main as segment records, and the two runs they give.

   Between two items of @main every core holds each of its unscoped buffers whole at a valuation, beside its
   generator register at some state and nothing owed.  A kernel region takes its three windows' arrays out of
   those buffers, runs its pipeline from the class invariant, and puts the arrays back: the two operands as
   they were, the output at what the pipeline's write-backs leave (`Dat.arrAt 2 N` of the region's proof data
   at its entry contents).  That pins the contents `outs` the valuations of the imported module
   `Gen.Kernel.Regions` are written over:
     `outs 1 main_v0` is region 0's output at the launch contents,
     `outs 2 main_v1` is region 1's output at the contents after region 0,
     `outs 5 main_v4` is region 2's output at the contents after the two host stretches that follow region 1.
   With these the hypotheses of the conditional frame and of the conditional run hold, which gives the frame of
   the program and its run with the result named. -/
import proofs.«141484_j24618752540870_1_alg».proof.Proof.K.RunCond
import proofs.«141484_j24618752540870_1_alg».proof.Proof.K.Region0
import proofs.«141484_j24618752540870_1_alg».proof.Proof.K.Region1
import proofs.«141484_j24618752540870_1_alg».proof.Proof.K.Region2
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents around the regions -/

/-- Region 0's entry contents: the launch memory, read at the TensorCore's references. -/
abbrev Ve0 : (c : Dev nD) → (b : Ref sig .tc) → Buf (Elt F) ((c : Thread nD τ).loc b) := fun c b => V0 m c b
/-- What region 0 leaves in its output array `main_v0`. -/
def o0 (c : Dev nD) : Buf (Elt F) ((c : Thread nD τ).loc main_v0) := (dat0 (Ve0 m) c).arrAt 2 cfg0.N
/-- Core `c`'s unscoped buffers after region 0. -/
def X1 (c : Dev nD) : Valuation τ sig (Elt F) := Function.update (V0 m c) main_v0 (o0 m c)
/-- Region 1's entry contents. -/
abbrev Ve1 : (c : Dev nD) → (b : Ref sig .tc) → Buf (Elt F) ((c : Thread nD τ).loc b) := fun c b => X1 m c b
/-- What region 1 leaves in its output array `main_v1`. -/
def o1 (c : Dev nD) : Buf (Elt F) ((c : Thread nD τ).loc main_v1) := (dat1 (Ve1 m) c).arrAt 2 cfg1.N
/-- Core `c`'s unscoped buffers after region 1. -/
def X2 (c : Dev nD) : Valuation τ sig (Elt F) := Function.update (X1 m c) main_v1 (o1 m c)
/-- The same read at the TensorCore's references (region 1's exit contents). -/
abbrev Ve1' : (c : Dev nD) → (b : Ref sig .tc) → Buf (Elt F) ((c : Thread nD τ).loc b) := fun c b => X2 m c b
/-- Core `c`'s unscoped buffers after the two host stretches that follow region 1. -/
def X4 (c : Dev nD) : Valuation τ sig (Elt F) := StableHlo.after hostOps2_1 (StableHlo.after hostOps2 (X2 m c))
/-- Region 2's entry contents. -/
abbrev Ve2 : (c : Dev nD) → (b : Ref sig .tc) → Buf (Elt F) ((c : Thread nD τ).loc b) := fun c b => X4 m c b
/-- What region 2 leaves in its output array `main_v4`. -/
def o2 (c : Dev nD) : Buf (Elt F) ((c : Thread nD τ).loc main_v4) := (dat2 (Ve2 m) c).arrAt 2 cfg2.N
/-- Core `c`'s unscoped buffers after region 2. -/
def X5 (c : Dev nD) : Valuation τ sig (Elt F) := Function.update (X4 m c) main_v4 (o2 m c)
/-- The same read at the TensorCore's references (region 2's exit contents). -/
abbrev Ve2' : (c : Dev nD) → (b : Ref sig .tc) → Buf (Elt F) ((c : Thread nD τ).loc b) := fun c b => X5 m c b

/-- The contents the regions leave, as the imported valuations take them: after item 0 the buffers at `X1`, after
    item 1 at `X2`, after item 4 at `X5` (read only at the regions' output arrays). -/
def outs : Outs (F := F) := fun J r c =>
  match J with
  | 1 => X1 m c r
  | 2 => X2 m c r
  | 5 => X5 m c r
  | _ => V0 m c r

theorem X1_self (c : Dev nD) : X1 m c main_v0 = o0 m c := by unfold X1; exact Function.update_self _ _ _
theorem X2_self (c : Dev nD) : X2 m c main_v1 = o1 m c := by unfold X2; exact Function.update_self _ _ _
theorem X5_self (c : Dev nD) : X5 m c main_v4 = o2 m c := by unfold X5; exact Function.update_self _ _ _
theorem X1_of (c : Dev nD) (r : Ref sig .tc) (h : r ≠ main_v0) : X1 m c r = V0 m c r := by
  unfold X1; exact Function.update_of_ne (StableHlo.devRef_ne_of_ne h : (Proc.devRef .tc r : DevRef τ sig) ≠ Proc.devRef .tc main_v0) _ _
theorem X2_of (c : Dev nD) (r : Ref sig .tc) (h : r ≠ main_v1) : X2 m c r = X1 m c r := by
  unfold X2; exact Function.update_of_ne (StableHlo.devRef_ne_of_ne h : (Proc.devRef .tc r : DevRef τ sig) ≠ Proc.devRef .tc main_v1) _ _
theorem X5_of (c : Dev nD) (r : Ref sig .tc) (h : r ≠ main_v4) : X5 m c r = X4 m c r := by
  unfold X5; exact Function.update_of_ne (StableHlo.devRef_ne_of_ne h : (Proc.devRef .tc r : DevRef τ sig) ≠ Proc.devRef .tc main_v4) _ _

/-- The regions' outputs are what `outs` holds at the three points the imported valuations read it. -/
theorem outs_v0 (c : Dev nD) : outs m 1 main_v0 c = o0 m c := X1_self m c
theorem outs_v1 (c : Dev nD) : outs m 2 main_v1 c = o1 m c := X2_self m c
theorem outs_v4 (c : Dev nD) : outs m 5 main_v4 c = o2 m c := X5_self m c

/-- The imported valuations at `outs` are the ones above. -/
theorem V1_eq (c : Dev nD) : V1 m (outs m) c = X1 m c := by
  show Function.update (V0 m c) main_v0 (outs m 1 main_v0 c) = X1 m c
  rw [outs_v0]; rfl
theorem V2_eq (c : Dev nD) : V2 m (outs m) c = X2 m c := by
  show Function.update (V1 m (outs m) c) main_v1 (outs m 2 main_v1 c) = X2 m c
  rw [outs_v1, V1_eq]; rfl
theorem V4_eq (c : Dev nD) : V4 m (outs m) c = X4 m c := by
  show StableHlo.after hostOps2_1 (StableHlo.after hostOps2 (V2 m (outs m) c)) = X4 m c
  rw [V2_eq]; rfl
theorem V5_eq (c : Dev nD) : V5 m (outs m) c = X5 m c := by
  show Function.update (V4 m (outs m) c) main_v4 (outs m 5 main_v4 c) = X5 m c
  rw [outs_v4, V4_eq]; rfl

/-- At region 0's exit each of its arrays holds what the pipeline leaves — an operand what it held at entry, the
    output its folded write-backs — and every other buffer what it held at entry. -/
theorem hF0 (c : Dev nD) : ∀ w : Fin cfg0.W, (dat0 (Ve0 m) c).arrAt w cfg0.N = Ve1 m c (Pipeline.arrRef spec0 w)
  | 0 => ((dat0 (Ve0 m) c).arrAt_in 0 rfl _).trans ((A_eq0 (Ve0 m) c 0).trans (X1_of m c main_arg3 (by decide)).symm)
  | 1 => ((dat0 (Ve0 m) c).arrAt_in 1 rfl _).trans ((A_eq0 (Ve0 m) c 1).trans (X1_of m c main_arg2 (by decide)).symm)
  | 2 => (X1_self m c).symm
  | ⟨_ + 3, h⟩ => absurd h (Nat.not_lt.2 (Nat.le_add_left _ _))
theorem hrest0 (c : Dev nD) : ∀ b, b ∉ Finset.univ.image (Pipeline.arrRef spec0) → Ve1 m c b = Ve0 m c b :=
  fun b hb => X1_of m c b fun e => hb (Finset.mem_image.mpr ⟨2, Finset.mem_univ _, e.symm⟩)

/-- At region 1's exit each of its arrays holds what the pipeline leaves — an operand what it held at entry, the
    output its folded write-backs — and every other buffer what it held at entry. -/
theorem hF1 (c : Dev nD) : ∀ w : Fin cfg1.W, (dat1 (Ve1 m) c).arrAt w cfg1.N = Ve1' m c (Pipeline.arrRef spec1 w)
  | 0 => ((dat1 (Ve1 m) c).arrAt_in 0 rfl _).trans ((A_eq1 (Ve1 m) c 0).trans (X2_of m c main_v0 (by decide)).symm)
  | 1 => ((dat1 (Ve1 m) c).arrAt_in 1 rfl _).trans ((A_eq1 (Ve1 m) c 1).trans (X2_of m c main_arg3 (by decide)).symm)
  | 2 => (X2_self m c).symm
  | ⟨_ + 3, h⟩ => absurd h (Nat.not_lt.2 (Nat.le_add_left _ _))
theorem hrest1 (c : Dev nD) : ∀ b, b ∉ Finset.univ.image (Pipeline.arrRef spec1) → Ve1' m c b = Ve1 m c b :=
  fun b hb => X2_of m c b fun e => hb (Finset.mem_image.mpr ⟨2, Finset.mem_univ _, e.symm⟩)

/-- At region 2's exit each of its arrays holds what the pipeline leaves — an operand what it held at entry, the
    output its folded write-backs — and every other buffer what it held at entry. -/
theorem hF2 (c : Dev nD) : ∀ w : Fin cfg2.W, (dat2 (Ve2 m) c).arrAt w cfg2.N = Ve2' m c (Pipeline.arrRef spec2 w)
  | 0 => ((dat2 (Ve2 m) c).arrAt_in 0 rfl _).trans ((A_eq2 (Ve2 m) c 0).trans (X5_of m c main_v1 (by decide)).symm)
  | 1 => ((dat2 (Ve2 m) c).arrAt_in 1 rfl _).trans ((A_eq2 (Ve2 m) c 1).trans (X5_of m c main_v3 (by decide)).symm)
  | 2 => (X5_self m c).symm
  | ⟨_ + 3, h⟩ => absurd h (Nat.not_lt.2 (Nat.le_add_left _ _))
theorem hrest2 (c : Dev nD) : ∀ b, b ∉ Finset.univ.image (Pipeline.arrRef spec2) → Ve2' m c b = Ve2 m c b :=
  fun b hb => X5_of m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
  | ⟨_ + 3, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    class invariant takes it in and gives it back) and its `owes`, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 over the thread state: entered from the launch contents `V0`, left at `X1` (`main_v0` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine BIBase.Entails.trans (hout0 (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from `X1`, left at `X2` (`main_v1` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    refine BIBase.Entails.trans (hout1 (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve1' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from `X4` (after the two host stretches), left at `X5` (`main_v4` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Ve2 m) c)
    unfold Pipeline.ΦA
    iintro ⟨Hp, -, Hr⟩
    isplitl [Hr]; · iexact Hr
    iexact Hp
  hout c := by
    refine BIBase.Entails.trans (hout2 (Ve2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Ve2' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the two runs -/

/-- The launch element is the pipeline library's own; no core takes a ghost resource of its own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest `R` from what the launch deals it: its generator register and its `owes` at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing. -/
theorem hE3 (c : Dev nD) : R c ⊢ (iprop(∃ W, owes (c : Thread nD τ) (0 : CellTallies nD τ sig Unit) W) : sProp 𝕄) := by
  iintro ⟨-, HO⟩; iexact HO

/-- THE FRAME: from any memory with zero counters every weakly fair execution of @main terminates and every
    final memory holds each argument as launched. -/
theorem frame_K (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun c => .rfl) (hpost0 := fun c => BIBase.Entails.of_eq (congrArg (fun W => iprop(StableHlo.held (c : Thread nD τ) (Pipeline.ucRefs τ sig) W ∗ R c)) (V1_eq m c).symm))
    (R1 := reg1 m) (hpre1 := fun c => BIBase.Entails.of_eq (congrArg (fun W => iprop(StableHlo.held (c : Thread nD τ) (Pipeline.ucRefs τ sig) W ∗ R c)) (V1_eq m c)))
    (hpost1 := fun c => BIBase.Entails.of_eq (congrArg (fun W => iprop(StableHlo.held (c : Thread nD τ) (Pipeline.ucRefs τ sig) W ∗ R c)) (V2_eq m c).symm))
    (R2 := reg2 m) (hpre2 := fun c => BIBase.Entails.of_eq (congrArg (fun W => iprop(StableHlo.held (c : Thread nD τ) (Pipeline.ucRefs τ sig) W ∗ R c)) (V4_eq m c)))
    (hpost2 := fun c => BIBase.Entails.of_eq (congrArg (fun W => iprop(StableHlo.held (c : Thread nD τ) (Pipeline.ucRefs τ sig) W ∗ R c)) (V5_eq m c).symm))

/-- THE RUN WITH THE RESULT NAMED: the same, and every final memory holds in `main_v60` what the last valuation,
    over the regions' outputs `outs`, holds there. -/
theorem run_K (ρ : Dev nD → PrngReg) :
    θ_run defs (onTc (τ := τ) (main (F := F))) ⟨m, fun _ => 0, ρ⟩ (fun r => ∀ c : Dev nD,
      r.2.mem ((c.tc : Thread nD τ).loc main_v60) = V8 m (outs m) c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun c => .rfl) (hpost0 := fun c => BIBase.Entails.of_eq (congrArg (fun W => iprop(StableHlo.held (c : Thread nD τ) (Pipeline.ucRefs τ sig) W ∗ R c)) (V1_eq m c).symm))
    (R1 := reg1 m) (hpre1 := fun c => BIBase.Entails.of_eq (congrArg (fun W => iprop(StableHlo.held (c : Thread nD τ) (Pipeline.ucRefs τ sig) W ∗ R c)) (V1_eq m c)))
    (hpost1 := fun c => BIBase.Entails.of_eq (congrArg (fun W => iprop(StableHlo.held (c : Thread nD τ) (Pipeline.ucRefs τ sig) W ∗ R c)) (V2_eq m c).symm))
    (R2 := reg2 m) (hpre2 := fun c => BIBase.Entails.of_eq (congrArg (fun W => iprop(StableHlo.held (c : Thread nD τ) (Pipeline.ucRefs τ sig) W ∗ R c)) (V4_eq m c)))
    (hpost2 := fun c => BIBase.Entails.of_eq (congrArg (fun W => iprop(StableHlo.held (c : Thread nD τ) (Pipeline.ucRefs τ sig) W ∗ R c)) (V5_eq m c).symm))

end Cert.Kernel.Hand

end
-- ==== Proof.KI.RunCond.lean ====
/- The run of the kernel program with its result named.

   Between two items of @main every core holds each of its unscoped buffers whole, at the valuations
   `V0 … V8` of the imported module `Gen.KernelIdeal.Regions`: the launch contents, then what each host
   stretch computes (`StableHlo.after`), then what a kernel region leaves in its output array (the
   unknowns `outs`).  The result `main_v60` is such a buffer, so at the end of the run it can be read
   off the last valuation exactly like the arguments: every final memory holds `V8 m outs c main_v60`
   in it, and each argument as launched.  The hypotheses are those of the conditional frame: one
   segment record per kernel region, entered from the thread state before it and left at the one after. -/
import proofs.«141484_j24618752540870_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE RUN, GIVEN THE REGIONS' RECORDS. Under the hypotheses of the conditional frame, every weakly fair
    execution of @main from memory `m` with zero counters terminates, and every final memory holds the last
    valuation's contents in the result `main_v60` and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      r.2.mem ((c.tc : Thread nD τ).loc main_v60) = V8 m outs c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨hpre0 c, (hpost0 c).trans (hpre1 c), hpost1 c, .rfl, hpre2 c, hpost2 c, .rfl, .rfl, sep_mono .rfl (hE3 c)⟩)
    (hinit := ?_) (QY := fun c s => s.mem ((c.tc : Thread nD τ).loc main_v60) = V8 m outs c main_v60 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v60) (Finset.mem_filter.mpr ⟨StableHlo.devRef_mem_tcRefs main_v60, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

end Cert.KernelIdeal.Hand

end
-- ==== Proof.KI.Region0.lean ====
import proofs.«141484_j24618752540870_1_alg».proof.Proof.Gen.KernelIdeal.Launch
import proofs.«141484_j24618752540870_1_alg».proof.Proof.Gen.KernelIdeal.Skeleton
import proofs.«141484_j24618752540870_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 0: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first0 (i : grid0.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst0 : ∀ t : Fin cfg0.N, first0 (grid0.coords t) ↔ t.val % 4 = 0 :=
  (by decide +kernel : ∀ t : Fin grid0.N, first0 (grid0.coords t) ↔ t.val % 4 = 0)
/-- The step along the contracted axis is the last one. -/
abbrev last0 (i : grid0.Coords) : Prop := k0_cond2 i = 1#1
/-- The last step is at the points ≡ 3 (mod 4). -/
theorem hlast0 : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Off the last step the output tile is idle: nothing is stored into it and it is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
/-- At the last step it is live. -/
theorem live0_2 : ∀ t : Fin cfg0.N, last0 (grid0.coords t) → cfg0.idle 2 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x1024 .f32 := Memref.whole cc0_scratch0
/-- The accumulator and one output staging buffer as views: what they hold is stated through them. -/
abbrev VS0 : View sig .tc .vmem S1024x1024 .f32 := (acc0).view
abbrev VO0 : View sig .tc .vmem S1024x1024 .f32 := (Memref.whole cc0_stg2_0 : Memref sig .tc .vmem S1024x1024 .f32).view

/-! ## The region's invariant, the accumulator taken out -/

/-- Every scoped buffer that is neither a staging buffer of this region nor its accumulator, at some contents, and the
    generator register at some state: what the body never touches. -/
def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The class invariant is the accumulator at some contents beside the rest. -/
theorem PhiA0_eq (c : Dev nD) :
    (Pipeline.ΦA spec0 c : sProp 𝕄) = iprop((∃ d, owns (c : Thread nD τ) acc0 fullShare d) ∗ rest0 (F := F) c) := by
  unfold Pipeline.ΦA rest0
  rw [Pipeline.scopedRest_split_of_list (win := spec0) (c := c) [cc0_scratch0] (by decide) (by decide)]
  simp only [acc0, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i)
    (x0 : Vec F S1024x1024 .f32) (x1 : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, fun xi E Q => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i)
    (x0 : Vec F S1024x1024 .f32) (x1 : Vec F S1024x1024 .f32) (xs : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, fun xi E Q => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc0__matmul_kernel i arg3 harg3 arg4 harg4 arg5 harg5 arg6 harg6) Q } := by
  refine ⟨?_, ?_, fun E Q => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i) (x0 : Vec F S1024x1024 .f32) (x1 : Vec F S1024x1024 .f32) (y : S1024x1024.Idx) :
    ∃ pc ∈ (runFirst0 c i arg3 harg3 arg4 harg4 arg5 harg5 arg6 harg6 hc0 hc1 x0 x1).1, y ∈ pc.1.set :=
  View.cover_of_tiledL (runFirst0 c i arg3 harg3 arg4 harg4 arg5 harg5 arg6 harg6 hc0 hc1 x0 x1).1 S1024x1024.size (by sl_kernel_rfl) y
/-- The accumulator after a first step: its pieces read back. -/
def accFirst0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i) (x0 : Vec F S1024x1024 .f32) (x1 : Vec F S1024x1024 .f32) : Vec F S1024x1024 .f32 :=
  VS0.read (Elt F) (VS0.writes (Elt F) VS0.junk (runFirst0 c i arg3 harg3 arg4 harg4 arg5 harg5 arg6 harg6 hc0 hc1 x0 x1).1)

theorem coverMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i) (x0 : Vec F S1024x1024 .f32) (x1 : Vec F S1024x1024 .f32) (xs : Vec F S1024x1024 .f32) (y : S1024x1024.Idx) :
    ∃ pc ∈ (runMid0 c i arg3 harg3 arg4 harg4 arg5 harg5 arg6 harg6 hc0 hc1 x0 x1 xs).1, y ∈ pc.1.set :=
  View.cover_of_tiledL (runMid0 c i arg3 harg3 arg4 harg4 arg5 harg5 arg6 harg6 hc0 hc1 x0 x1 xs).1 S1024x1024.size (by sl_kernel_rfl) y
/-- The accumulator after a middle step. -/
def accMid0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i) (x0 : Vec F S1024x1024 .f32) (x1 : Vec F S1024x1024 .f32) (xs : Vec F S1024x1024 .f32) : Vec F S1024x1024 .f32 :=
  VS0.read (Elt F) (VS0.writes (Elt F) VS0.junk (runMid0 c i arg3 harg3 arg4 harg4 arg5 harg5 arg6 harg6 hc0 hc1 x0 x1 xs).1)

theorem coverLastS0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) (y : S1024x1024.Idx) :
    ∃ pc ∈ (runLast0 c i arg3 harg3 arg4 harg4 arg5 harg5 arg6 harg6 hc0 hc1 x0 x1 xs).2.1, y ∈ pc.1.set :=
  View.cover_of_tiledL (runLast0 c i arg3 harg3 arg4 harg4 arg5 harg5 arg6 harg6 hc0 hc1 x0 x1 xs).2.1 S1024x1024.size (by sl_kernel_rfl) y
theorem coverLastO0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) (y : S1024x1024.Idx) :
    ∃ pc ∈ (runLast0 c i arg3 harg3 arg4 harg4 arg5 harg5 arg6 harg6 hc0 hc1 x0 x1 xs).1, y ∈ pc.1.set :=
  View.cover_of_tiledL (runLast0 c i arg3 harg3 arg4 harg4 arg5 harg5 arg6 harg6 hc0 hc1 x0 x1 xs).1 S1024x1024.size (by sl_kernel_rfl) y
/-- The accumulator and the output tile after a last step. -/
def accLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) : Vec F S1024x1024 .f32 :=
  VS0.read (Elt F) (VS0.writes (Elt F) VS0.junk (runLast0 c i arg3 harg3 arg4 harg4 arg5 harg5 arg6 harg6 hc0 hc1 x0 x1 xs).2.1)
def outLast0 (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) : Vec F S1024x1024 .f32 :=
  VO0.read (Elt F) (VO0.writes (Elt F) VO0.junk (runLast0 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, for any proof data over `V` that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the accumulator after the body at position `n`, by recursion on the position — a first step
    starts from the two blocks alone, any other step adds to what the position before left. -/
def accAt0 (c : Dev nD) : (n : ℕ) → n < cfg0.N → Vec F S1024x1024 .f32
  | 0, hn => accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((hfirst0 ⟨0, hn⟩).mpr (Nat.zero_mod _)) (fun h => (fun h => by (try dsimp only at h); omega) ((hlast0 ⟨0, hn⟩).mp h)) (iblk0 V c 0 ⟨0, hn⟩) (iblk0 V c 1 ⟨0, hn⟩)
  | n + 1, hn =>
    if h0 : (n + 1) % 4 = 0 then
      accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((hfirst0 ⟨n + 1, hn⟩).mpr h0) (fun h => (fun h => by (try dsimp only at h); omega) ((hlast0 ⟨n + 1, hn⟩).mp h)) (iblk0 V c 0 ⟨n + 1, hn⟩) (iblk0 V c 1 ⟨n + 1, hn⟩)
    else if h1 : (n + 1) % 4 = 3 then
      accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hfirst0 ⟨n + 1, hn⟩).mp h)) ((hlast0 ⟨n + 1, hn⟩).mpr h1) (iblk0 V c 0 ⟨n + 1, hn⟩) (iblk0 V c 1 ⟨n + 1, hn⟩) (accAt0 c n (Nat.lt_of_succ_lt hn))
    else
      accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((hfirst0 ⟨n + 1, hn⟩).mp h)) (fun h => h1 ((hlast0 ⟨n + 1, hn⟩).mp h)) (iblk0 V c 0 ⟨n + 1, hn⟩) (iblk0 V c 1 ⟨n + 1, hn⟩) (accAt0 c n (Nat.lt_of_succ_lt hn))

/-- What the position before left in the accumulator (read only at positions that are not first steps). -/
def accPrev0 (c : Dev nD) (t : Fin cfg0.N) : Vec F S1024x1024 .f32 :=
  accAt0 V c (t.val - 1) (Nat.lt_of_le_of_lt (Nat.sub_le _ _) t.isLt)

theorem accAt0_first (c : Dev nD) (t : Fin cfg0.N) (h0 : t.val % 4 = 0) (h1 : ¬t.val % 4 = 3) :
    accAt0 V c t.val t.isLt = accFirst0 c (grid0.coords t) (ms0_0 t) (hs0_0 t) (ms0_1 t) (hs0_1 t) (ms0_2 t) (hs0_2 t) acc0 (Memref.isWhole_whole _) ((hfirst0 t).mpr h0) (fun h => h1 ((hlast0 t).mp h)) (iblk0 V c 0 t) (iblk0 V c 1 t) := by
  obtain ⟨n, hn⟩ := t
  cases n with
  | zero => exact rfl
  | succ n => exact (dif_pos h0).trans rfl
theorem accAt0_mid (c : Dev nD) (t : Fin cfg0.N) (h0 : ¬t.val % 4 = 0) (h1 : ¬t.val % 4 = 3) :
    accAt0 V c t.val t.isLt = accMid0 c (grid0.coords t) (ms0_0 t) (hs0_0 t) (ms0_1 t) (hs0_1 t) (ms0_2 t) (hs0_2 t) acc0 (Memref.isWhole_whole _) (fun h => h0 ((hfirst0 t).mp h)) (fun h => h1 ((hlast0 t).mp h)) (iblk0 V c 0 t) (iblk0 V c 1 t) (accPrev0 V c t) := by
  obtain ⟨n, hn⟩ := t
  cases n with
  | zero => exact (by exfalso; (try dsimp only at h0); exact absurd (Nat.zero_mod _) h0)
  | succ n => exact (dif_neg h0).trans ((dif_neg h1).trans rfl)
theorem accAt0_last (c : Dev nD) (t : Fin cfg0.N) (h0 : ¬t.val % 4 = 0) (h1 : t.val % 4 = 3) :
    accAt0 V c t.val t.isLt = accLast0 c (grid0.coords t) (ms0_0 t) (hs0_0 t) (ms0_1 t) (hs0_1 t) (ms0_2 t) (hs0_2 t) acc0 (Memref.isWhole_whole _) (fun h => h0 ((hfirst0 t).mp h)) ((hlast0 t).mpr h1) (iblk0 V c 0 t) (iblk0 V c 1 t) (accPrev0 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt0 (c : Dev nD) (t : Fin cfg0.N) : Vec F S1024x1024 .f32 :=
  if h1 : t.val % 4 = 3 then
    outLast0 c (grid0.coords t) (ms0_0 t) (hs0_0 t) (ms0_1 t) (hs0_1 t) (ms0_2 t) (hs0_2 t) acc0 (Memref.isWhole_whole _) (fun h => (fun h => by omega) ((hfirst0 t).mp h)) ((hlast0 t).mpr h1) (iblk0 V c 0 t) (iblk0 V c 1 t) (accPrev0 V c t)
  else VO0.read (Elt F) (VO0.writes (Elt F) VO0.junk [])

/-- The invariant before position `n`: before the first point the class's (the accumulator at anything); afterwards
    the accumulator at what the position before left, beside the rest. -/
def PhiS0 (c : Dev nD) : (n : ℕ) → n ≤ cfg0.N → sProp 𝕄
  | 0, _ => Pipeline.ΦA spec0 c
  | n + 1, hn => iprop(owns (c : Thread nD τ) acc0 fullShare (accAt0 V c n hn) ∗ rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) acc0 fullShare (accAt0 V c n hn) ∗ rest0 (F := F) c) := rfl
theorem PhiS0_pos (c : Dev nD) (n : ℕ) (h : n ≤ cfg0.N) (hz : n ≠ 0) :
    PhiS0 V c n h = iprop(owns (c : Thread nD τ) acc0 fullShare (accAt0 V c (n - 1) (by omega)) ∗ rest0 (F := F) c) := by
  cases n with
  | zero => exact absurd rfl hz
  | succ n => rfl

/-! ## The proof data -/

/-- The arrays as the region finds them; after the body each operand's buffer at its block and the output's at
    `outAt`; the invariant carrying the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem outAt0_last (c : Dev nD) (t : Fin cfg0.N) (h0 : ¬t.val % 4 = 0) (h1 : t.val % 4 = 3) :
    outAt0 V c t = outLast0 c (grid0.coords t) (ms0_0 t) (hs0_0 t) (ms0_1 t) (hs0_1 t) (ms0_2 t) (hs0_2 t) acc0 (Memref.isWhole_whole _) (fun h => h0 ((hfirst0 t).mp h)) ((hlast0 t).mpr h1) (iblk0 V c 0 t) (iblk0 V c 1 t) (accPrev0 V c t) :=
  dif_pos h1

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 64 := lt_of_lt_of_eq t.isLt (show cfg0.N = 64 from N_0)
  by_cases h0 : t.val % 4 = 0
  · have h1 : ¬t.val % 4 = 3 := by omega
    rw [Dat.leavesExact_idle (dat0 V c) 2 t (idle0_2 t (fun h => h1 ((hlast0 t).mp h))) (noFlush0_2 t (fun h => h1 ((hlast0 t).mp h)))]
    rw [accAt0_first V c t h0 h1]
    unfold accFirst0; (try dsimp only)
    by_cases hz : t.val = 0
    · rw [PhiS0_castSucc V c t, PhiS0_zero V c _ _ hz, PhiA0_eq]
      iintro ⟨⟨HS, Hr⟩, Ho, ⟨%d0, H0⟩, ⟨%d1, H1⟩, ⟨%d2, H2⟩⟩
      iapply ((runFirst0 c (grid0.coords t) _ _ _ _ _ _ _ _ ((hfirst0 t).mpr h0) (fun h => h1 ((hlast0 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst0 c _ _ _ _ _ _ _ _ _ _ _ _ _)
        iexact Hr
      isplitl [Ho]; · iexact Ho
      isplitl [H0]; · iexact H0
      isplitl [H1]; · iexact H1
      iexists _; iexact H2
    · rw [PhiS0_castSucc V c t, PhiS0_pos V c _ _ hz]
      iintro ⟨⟨HS, Hr⟩, Ho, ⟨%d0, H0⟩, ⟨%d1, H1⟩, ⟨%d2, H2⟩⟩
      iapply ((runFirst0 c (grid0.coords t) _ _ _ _ _ _ _ _ ((hfirst0 t).mpr h0) (fun h => h1 ((hlast0 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst0 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (ms0_2 t) fullShare ((dat0 V c).after 2 t) from by
        unfold Dat.leavesExact; rw [live0_2 t ((hlast0 t).mpr h1)], after0_2]
      rw [accAt0_last V c t h0 h1, outAt0_last V c t h0 h1]
      unfold accLast0 outLast0; (try dsimp only)
      rw [PhiS0_castSucc V c t, PhiS0_pos V c _ _ hz]
      iintro ⟨⟨HS, Hr⟩, Ho, ⟨%d0, H0⟩, ⟨%d1, H1⟩, ⟨%d2, H2⟩⟩
      iapply ((runLast0 c (grid0.coords t) _ _ _ _ _ _ _ _ (fun h => h0 ((hfirst0 t).mp h)) ((hlast0 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS0 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO0 c _ _ _ _ _ _ _ _ _ _ _ _ _ _)
    · rw [Dat.leavesExact_idle (dat0 V c) 2 t (idle0_2 t (fun h => h1 ((hlast0 t).mp h))) (noFlush0_2 t (fun h => h1 ((hlast0 t).mp h)))]
      rw [accAt0_mid V c t h0 h1]
      unfold accMid0; (try dsimp only)
      rw [PhiS0_castSucc V c t, PhiS0_pos V c _ _ hz]
      iintro ⟨⟨HS, Hr⟩, Ho, ⟨%d0, H0⟩, ⟨%d1, H1⟩, ⟨%d2, H2⟩⟩
      iapply ((runMid0 c (grid0.coords t) _ _ _ _ _ _ _ _ (fun h => h0 ((hfirst0 t).mp h)) (fun h => h1 ((hlast0 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid0 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: what the accumulator holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS, Hr⟩
  isplitl [HS]
  · iexists _; iexact HS
  iexact Hr

end Cert.KernelIdeal.Hand

end
-- ==== Proof.KI.Region1.lean ====
import proofs.«141484_j24618752540870_1_alg».proof.Proof.Gen.KernelIdeal.Launch
import proofs.«141484_j24618752540870_1_alg».proof.Proof.Gen.KernelIdeal.Skeleton
import proofs.«141484_j24618752540870_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 1: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first1 (i : grid1.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst1 : ∀ t : Fin cfg1.N, first1 (grid1.coords t) ↔ t.val % 4 = 0 :=
  (by decide +kernel : ∀ t : Fin grid1.N, first1 (grid1.coords t) ↔ t.val % 4 = 0)
/-- The step along the contracted axis is the last one. -/
abbrev last1 (i : grid1.Coords) : Prop := k1_cond2 i = 1#1
/-- The last step is at the points ≡ 3 (mod 4). -/
theorem hlast1 : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
/-- Off the last step the output tile is idle: nothing is stored into it and it is not written back. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
/-- At the last step it is live. -/
theorem live1_2 : ∀ t : Fin cfg1.N, last1 (grid1.coords t) → cfg1.idle 2 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x1024 .f32 := Memref.whole cc1_scratch0
/-- The accumulator and one output staging buffer as views: what they hold is stated through them. -/
abbrev VS1 : View sig .tc .vmem S1024x1024 .f32 := (acc1).view
abbrev VO1 : View sig .tc .vmem S1024x1024 .f32 := (Memref.whole cc1_stg2_0 : Memref sig .tc .vmem S1024x1024 .f32).view

/-! ## The region's invariant, the accumulator taken out -/

/-- Every scoped buffer that is neither a staging buffer of this region nor its accumulator, at some contents, and the
    generator register at some state: what the body never touches. -/
def rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The class invariant is the accumulator at some contents beside the rest. -/
theorem PhiA1_eq (c : Dev nD) :
    (Pipeline.ΦA spec1 c : sProp 𝕄) = iprop((∃ d, owns (c : Thread nD τ) acc1 fullShare d) ∗ rest1 (F := F) c) := by
  unfold Pipeline.ΦA rest1
  rw [Pipeline.scopedRest_split_of_list (win := spec1) (c := c) [cc1_scratch0] (by decide) (by decide)]
  simp only [acc1, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i)
    (x0 : Vec F S1024x1024 .f32) (x1 : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, fun xi E Q => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i)
    (x0 : Vec F S1024x1024 .f32) (x1 : Vec F S1024x1024 .f32) (xs : Vec F S1024x1024 .f32) :
    { LS : List (View.Piece (Elt F) S1024x1024 .f32) //
      ∀ (xi : Vec F S1024x1024 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, fun xi E Q => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i)
    (x0 : Vec F S1024x1024 .f32) (x1 : Vec F S1024x1024 .f32) (xs : Vec F S1024x1024 .f32) :
    Σ' (LO : List (View.Piece (Elt F) S1024x1024 .f32)), { LS : List (View.Piece (Elt F) S1024x1024 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc1__matmul_kernel i arg3 harg3 arg4 harg4 arg5 harg5 arg6 harg6) Q } := by
  refine ⟨?_, ?_, fun E Q => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i) (x0 : Vec F S1024x1024 .f32) (x1 : Vec F S1024x1024 .f32) (y : S1024x1024.Idx) :
    ∃ pc ∈ (runFirst1 c i arg3 harg3 arg4 harg4 arg5 harg5 arg6 harg6 hc0 hc1 x0 x1).1, y ∈ pc.1.set :=
  View.cover_of_tiledL (runFirst1 c i arg3 harg3 arg4 harg4 arg5 harg5 arg6 harg6 hc0 hc1 x0 x1).1 S1024x1024.size (by sl_kernel_rfl) y
/-- The accumulator after a first step: its pieces read back. -/
def accFirst1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i) (x0 : Vec F S1024x1024 .f32) (x1 : Vec F S1024x1024 .f32) : Vec F S1024x1024 .f32 :=
  VS1.read (Elt F) (VS1.writes (Elt F) VS1.junk (runFirst1 c i arg3 harg3 arg4 harg4 arg5 harg5 arg6 harg6 hc0 hc1 x0 x1).1)

theorem coverMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i) (x0 : Vec F S1024x1024 .f32) (x1 : Vec F S1024x1024 .f32) (xs : Vec F S1024x1024 .f32) (y : S1024x1024.Idx) :
    ∃ pc ∈ (runMid1 c i arg3 harg3 arg4 harg4 arg5 harg5 arg6 harg6 hc0 hc1 x0 x1 xs).1, y ∈ pc.1.set :=
  View.cover_of_tiledL (runMid1 c i arg3 harg3 arg4 harg4 arg5 harg5 arg6 harg6 hc0 hc1 x0 x1 xs).1 S1024x1024.size (by sl_kernel_rfl) y
/-- The accumulator after a middle step. -/
def accMid1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i) (x0 : Vec F S1024x1024 .f32) (x1 : Vec F S1024x1024 .f32) (xs : Vec F S1024x1024 .f32) : Vec F S1024x1024 .f32 :=
  VS1.read (Elt F) (VS1.writes (Elt F) VS1.junk (runMid1 c i arg3 harg3 arg4 harg4 arg5 harg5 arg6 harg6 hc0 hc1 x0 x1 xs).1)

theorem coverLastS1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) (y : S1024x1024.Idx) :
    ∃ pc ∈ (runLast1 c i arg3 harg3 arg4 harg4 arg5 harg5 arg6 harg6 hc0 hc1 x0 x1 xs).2.1, y ∈ pc.1.set :=
  View.cover_of_tiledL (runLast1 c i arg3 harg3 arg4 harg4 arg5 harg5 arg6 harg6 hc0 hc1 x0 x1 xs).2.1 S1024x1024.size (by sl_kernel_rfl) y
theorem coverLastO1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) (y : S1024x1024.Idx) :
    ∃ pc ∈ (runLast1 c i arg3 harg3 arg4 harg4 arg5 harg5 arg6 harg6 hc0 hc1 x0 x1 xs).1, y ∈ pc.1.set :=
  View.cover_of_tiledL (runLast1 c i arg3 harg3 arg4 harg4 arg5 harg5 arg6 harg6 hc0 hc1 x0 x1 xs).1 S1024x1024.size (by sl_kernel_rfl) y
/-- The accumulator and the output tile after a last step. -/
def accLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) : Vec F S1024x1024 .f32 :=
  VS1.read (Elt F) (VS1.writes (Elt F) VS1.junk (runLast1 c i arg3 harg3 arg4 harg4 arg5 harg5 arg6 harg6 hc0 hc1 x0 x1 xs).2.1)
def outLast1 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) : Vec F S1024x1024 .f32 :=
  VO1.read (Elt F) (VO1.writes (Elt F) VO1.junk (runLast1 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, for any proof data over `V` that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the accumulator after the body at position `n`, by recursion on the position — a first step
    starts from the two blocks alone, any other step adds to what the position before left. -/
def accAt1 (c : Dev nD) : (n : ℕ) → n < cfg1.N → Vec F S1024x1024 .f32
  | 0, hn => accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) acc1 (Memref.isWhole_whole _) ((hfirst1 ⟨0, hn⟩).mpr (Nat.zero_mod _)) (fun h => (fun h => by (try dsimp only at h); omega) ((hlast1 ⟨0, hn⟩).mp h)) (iblk1 V c 0 ⟨0, hn⟩) (iblk1 V c 1 ⟨0, hn⟩)
  | n + 1, hn =>
    if h0 : (n + 1) % 4 = 0 then
      accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) ((hfirst1 ⟨n + 1, hn⟩).mpr h0) (fun h => (fun h => by (try dsimp only at h); omega) ((hlast1 ⟨n + 1, hn⟩).mp h)) (iblk1 V c 0 ⟨n + 1, hn⟩) (iblk1 V c 1 ⟨n + 1, hn⟩)
    else if h1 : (n + 1) % 4 = 3 then
      accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hfirst1 ⟨n + 1, hn⟩).mp h)) ((hlast1 ⟨n + 1, hn⟩).mpr h1) (iblk1 V c 0 ⟨n + 1, hn⟩) (iblk1 V c 1 ⟨n + 1, hn⟩) (accAt1 c n (Nat.lt_of_succ_lt hn))
    else
      accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) acc1 (Memref.isWhole_whole _) (fun h => h0 ((hfirst1 ⟨n + 1, hn⟩).mp h)) (fun h => h1 ((hlast1 ⟨n + 1, hn⟩).mp h)) (iblk1 V c 0 ⟨n + 1, hn⟩) (iblk1 V c 1 ⟨n + 1, hn⟩) (accAt1 c n (Nat.lt_of_succ_lt hn))

/-- What the position before left in the accumulator (read only at positions that are not first steps). -/
def accPrev1 (c : Dev nD) (t : Fin cfg1.N) : Vec F S1024x1024 .f32 :=
  accAt1 V c (t.val - 1) (Nat.lt_of_le_of_lt (Nat.sub_le _ _) t.isLt)

theorem accAt1_first (c : Dev nD) (t : Fin cfg1.N) (h0 : t.val % 4 = 0) (h1 : ¬t.val % 4 = 3) :
    accAt1 V c t.val t.isLt = accFirst1 c (grid1.coords t) (ms1_0 t) (hs1_0 t) (ms1_1 t) (hs1_1 t) (ms1_2 t) (hs1_2 t) acc1 (Memref.isWhole_whole _) ((hfirst1 t).mpr h0) (fun h => h1 ((hlast1 t).mp h)) (iblk1 V c 0 t) (iblk1 V c 1 t) := by
  obtain ⟨n, hn⟩ := t
  cases n with
  | zero => exact rfl
  | succ n => exact (dif_pos h0).trans rfl
theorem accAt1_mid (c : Dev nD) (t : Fin cfg1.N) (h0 : ¬t.val % 4 = 0) (h1 : ¬t.val % 4 = 3) :
    accAt1 V c t.val t.isLt = accMid1 c (grid1.coords t) (ms1_0 t) (hs1_0 t) (ms1_1 t) (hs1_1 t) (ms1_2 t) (hs1_2 t) acc1 (Memref.isWhole_whole _) (fun h => h0 ((hfirst1 t).mp h)) (fun h => h1 ((hlast1 t).mp h)) (iblk1 V c 0 t) (iblk1 V c 1 t) (accPrev1 V c t) := by
  obtain ⟨n, hn⟩ := t
  cases n with
  | zero => exact (by exfalso; (try dsimp only at h0); exact absurd (Nat.zero_mod _) h0)
  | succ n => exact (dif_neg h0).trans ((dif_neg h1).trans rfl)
theorem accAt1_last (c : Dev nD) (t : Fin cfg1.N) (h0 : ¬t.val % 4 = 0) (h1 : t.val % 4 = 3) :
    accAt1 V c t.val t.isLt = accLast1 c (grid1.coords t) (ms1_0 t) (hs1_0 t) (ms1_1 t) (hs1_1 t) (ms1_2 t) (hs1_2 t) acc1 (Memref.isWhole_whole _) (fun h => h0 ((hfirst1 t).mp h)) ((hlast1 t).mpr h1) (iblk1 V c 0 t) (iblk1 V c 1 t) (accPrev1 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt1 (c : Dev nD) (t : Fin cfg1.N) : Vec F S1024x1024 .f32 :=
  if h1 : t.val % 4 = 3 then
    outLast1 c (grid1.coords t) (ms1_0 t) (hs1_0 t) (ms1_1 t) (hs1_1 t) (ms1_2 t) (hs1_2 t) acc1 (Memref.isWhole_whole _) (fun h => (fun h => by omega) ((hfirst1 t).mp h)) ((hlast1 t).mpr h1) (iblk1 V c 0 t) (iblk1 V c 1 t) (accPrev1 V c t)
  else VO1.read (Elt F) (VO1.writes (Elt F) VO1.junk [])

/-- The invariant before position `n`: before the first point the class's (the accumulator at anything); afterwards
    the accumulator at what the position before left, beside the rest. -/
def PhiS1 (c : Dev nD) : (n : ℕ) → n ≤ cfg1.N → sProp 𝕄
  | 0, _ => Pipeline.ΦA spec1 c
  | n + 1, hn => iprop(owns (c : Thread nD τ) acc1 fullShare (accAt1 V c n hn) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) acc1 fullShare (accAt1 V c n hn) ∗ rest1 (F := F) c) := rfl
theorem PhiS1_pos (c : Dev nD) (n : ℕ) (h : n ≤ cfg1.N) (hz : n ≠ 0) :
    PhiS1 V c n h = iprop(owns (c : Thread nD τ) acc1 fullShare (accAt1 V c (n - 1) (by omega)) ∗ rest1 (F := F) c) := by
  cases n with
  | zero => exact absurd rfl hz
  | succ n => rfl

/-! ## The proof data -/

/-- The arrays as the region finds them; after the body each operand's buffer at its block and the output's at
    `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem outAt1_last (c : Dev nD) (t : Fin cfg1.N) (h0 : ¬t.val % 4 = 0) (h1 : t.val % 4 = 3) :
    outAt1 V c t = outLast1 c (grid1.coords t) (ms1_0 t) (hs1_0 t) (ms1_1 t) (hs1_1 t) (ms1_2 t) (hs1_2 t) acc1 (Memref.isWhole_whole _) (fun h => h0 ((hfirst1 t).mp h)) ((hlast1 t).mpr h1) (iblk1 V c 0 t) (iblk1 V c 1 t) (accPrev1 V c t) :=
  dif_pos h1

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 64 := lt_of_lt_of_eq t.isLt (show cfg1.N = 64 from N_1)
  by_cases h0 : t.val % 4 = 0
  · have h1 : ¬t.val % 4 = 3 := by omega
    rw [Dat.leavesExact_idle (dat1 V c) 2 t (idle1_2 t (fun h => h1 ((hlast1 t).mp h))) (noFlush1_2 t (fun h => h1 ((hlast1 t).mp h)))]
    rw [accAt1_first V c t h0 h1]
    unfold accFirst1; (try dsimp only)
    by_cases hz : t.val = 0
    · rw [PhiS1_castSucc V c t, PhiS1_zero V c _ _ hz, PhiA1_eq]
      iintro ⟨⟨HS, Hr⟩, Ho, ⟨%d0, H0⟩, ⟨%d1, H1⟩, ⟨%d2, H2⟩⟩
      iapply ((runFirst1 c (grid1.coords t) _ _ _ _ _ _ _ _ ((hfirst1 t).mpr h0) (fun h => h1 ((hlast1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst1 c _ _ _ _ _ _ _ _ _ _ _ _ _)
        iexact Hr
      isplitl [Ho]; · iexact Ho
      isplitl [H0]; · iexact H0
      isplitl [H1]; · iexact H1
      iexists _; iexact H2
    · rw [PhiS1_castSucc V c t, PhiS1_pos V c _ _ hz]
      iintro ⟨⟨HS, Hr⟩, Ho, ⟨%d0, H0⟩, ⟨%d1, H1⟩, ⟨%d2, H2⟩⟩
      iapply ((runFirst1 c (grid1.coords t) _ _ _ _ _ _ _ _ ((hfirst1 t).mpr h0) (fun h => h1 ((hlast1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst1 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [live1_2 t ((hlast1 t).mpr h1)], after1_2]
      rw [accAt1_last V c t h0 h1, outAt1_last V c t h0 h1]
      unfold accLast1 outLast1; (try dsimp only)
      rw [PhiS1_castSucc V c t, PhiS1_pos V c _ _ hz]
      iintro ⟨⟨HS, Hr⟩, Ho, ⟨%d0, H0⟩, ⟨%d1, H1⟩, ⟨%d2, H2⟩⟩
      iapply ((runLast1 c (grid1.coords t) _ _ _ _ _ _ _ _ (fun h => h0 ((hfirst1 t).mp h)) ((hlast1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS1 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO1 c _ _ _ _ _ _ _ _ _ _ _ _ _ _)
    · rw [Dat.leavesExact_idle (dat1 V c) 2 t (idle1_2 t (fun h => h1 ((hlast1 t).mp h))) (noFlush1_2 t (fun h => h1 ((hlast1 t).mp h)))]
      rw [accAt1_mid V c t h0 h1]
      unfold accMid1; (try dsimp only)
      rw [PhiS1_castSucc V c t, PhiS1_pos V c _ _ hz]
      iintro ⟨⟨HS, Hr⟩, Ho, ⟨%d0, H0⟩, ⟨%d1, H1⟩, ⟨%d2, H2⟩⟩
      iapply ((runMid1 c (grid1.coords t) _ _ _ _ _ _ _ _ (fun h => h0 ((hfirst1 t).mp h)) (fun h => h1 ((hlast1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid1 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: what the accumulator holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, Hr⟩
  isplitl [HS]
  · iexists _; iexact HS
  iexact Hr

end Cert.KernelIdeal.Hand

end
-- ==== Proof.KI.Region2.lean ====
import proofs.«141484_j24618752540870_1_alg».proof.Proof.Gen.KernelIdeal.Launch
import proofs.«141484_j24618752540870_1_alg».proof.Proof.Gen.KernelIdeal.Skeleton
import proofs.«141484_j24618752540870_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

/-!
  Matmul region 2: one grid point multiplies an lhs tile by an rhs tile and adds the product into a scratch
  accumulator. The last grid axis walks the contracted dimension: at its first step the accumulator is zeroed before
  the product is added, at its last step the accumulator is copied to the output tile, and at the steps between the
  output tile is left alone. Three control cases, named by the step: first, middle, last.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The step along the contracted axis is the first one. -/
abbrev first2 (i : grid2.Coords) : Prop := (Scalar.cmpi .ne (Scalar.extui (Scalar.cmpi .eq (BitVec.ofNat 32 (i 2).val) 0#32)) 0#32) = 1#1
/-- The contracted axis is the fastest of the grid and has four steps: the first step is at the points ≡ 0 (mod 4). -/
theorem hfirst2 : ∀ t : Fin cfg2.N, first2 (grid2.coords t) ↔ t.val % 4 = 0 :=
  (by decide +kernel : ∀ t : Fin grid2.N, first2 (grid2.coords t) ↔ t.val % 4 = 0)
/-- The step along the contracted axis is the last one. -/
abbrev last2 (i : grid2.Coords) : Prop := k2_cond2 i = 1#1
/-- The last step is at the points ≡ 3 (mod 4). -/
theorem hlast2 : ∀ t : Fin cfg2.N, last2 (grid2.coords t) ↔ t.val % 4 = 3 :=
  (by decide +kernel : ∀ t : Fin grid2.N, last2 (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Off the last step the output tile is idle: nothing is stored into it and it is not written back. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
/-- At the last step it is live. -/
theorem live2_2 : ∀ t : Fin cfg2.N, last2 (grid2.coords t) → cfg2.idle 2 (grid2.coords t) = false := by decide +kernel

/-! ## The memrefs the body is called with -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x256 .f32 := Memref.whole cc2_scratch0
/-- The accumulator and one output staging buffer as views: what they hold is stated through them. -/
abbrev VS2 : View sig .tc .vmem S1024x256 .f32 := (acc2).view
abbrev VO2 : View sig .tc .vmem S1024x256 .f32 := (Memref.whole cc2_stg2_0 : Memref sig .tc .vmem S1024x256 .f32).view

/-! ## The region's invariant, the accumulator taken out -/

/-- Every scoped buffer that is neither a staging buffer of this region nor its accumulator, at some contents, and the
    generator register at some state: what the body never touches. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The class invariant is the accumulator at some contents beside the rest. -/
theorem PhiA2_eq (c : Dev nD) :
    (Pipeline.ΦA spec2 c : sProp 𝕄) = iprop((∃ d, owns (c : Thread nD τ) acc2 fullShare d) ∗ rest2 (F := F) c) := by
  unfold Pipeline.ΦA rest2
  rw [Pipeline.scopedRest_split_of_list (win := spec2) (c := c) [cc2_scratch0] (by decide) (by decide)]
  simp only [acc2, owns_whole]
  rw [bigSepL_singleton]
  exact equiv_iff.mp ⟨Idealize.SL.BI.sep_assoc, Idealize.SL.BI.sep_assoc'⟩

/-! ## The body, case by case -/

set_option maxHeartbeats 1000000 in
/-- First step: from the two operand tiles held whole, the output tile at anything it holds and handed back untouched,
    and the accumulator at anything, the body runs to its return with the accumulator holding what its stores wrote
    (the zero tile, then the zero tile plus the product: the pieces, last store first). -/
noncomputable def runFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i)
    (x0 : Vec F S1024x1024 .f32) (x1 : Vec F S1024x256 .f32) :
    { LS : List (View.Piece (Elt F) S1024x256 .f32) //
      ∀ (xi : Vec F S1024x256 .f32) (E : Set ℕ) (Q : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, fun xi E Q => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- A middle step: the accumulator comes in at what the step before left (`xs`) and leaves with the product added. -/
noncomputable def runMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i)
    (x0 : Vec F S1024x1024 .f32) (x1 : Vec F S1024x256 .f32) (xs : Vec F S1024x256 .f32) :
    { LS : List (View.Piece (Elt F) S1024x256 .f32) //
      ∀ (xi : Vec F S1024x256 .f32) (E : Set ℕ) (Q : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, fun xi E Q => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- The last step: as a middle step, and then the accumulator is copied to the output tile, which comes in at anything. -/
noncomputable def runLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i)
    (x0 : Vec F S1024x1024 .f32) (x1 : Vec F S1024x256 .f32) (xs : Vec F S1024x256 .f32) :
    Σ' (LO : List (View.Piece (Elt F) S1024x256 .f32)), { LS : List (View.Piece (Elt F) S1024x256 .f32) //
      ∀ (E : Set ℕ) (Q : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ Q ⟨⟩))
          ⊢ wp frame (wpE (defs₀ (F := F)) Variants.none c none) E (cc2__matmul_kernel i arg3 harg3 arg4 harg4 arg5 harg5 arg6 harg6) Q } := by
  refine ⟨?_, ?_, fun E Q => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each case leaves -/

/-- The first step's stores cover the accumulator (each is a store of the whole tile). -/
theorem coverFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i) (x0 : Vec F S1024x1024 .f32) (x1 : Vec F S1024x256 .f32) (y : S1024x256.Idx) :
    ∃ pc ∈ (runFirst2 c i arg3 harg3 arg4 harg4 arg5 harg5 arg6 harg6 hc0 hc1 x0 x1).1, y ∈ pc.1.set :=
  View.cover_of_tiledL (runFirst2 c i arg3 harg3 arg4 harg4 arg5 harg5 arg6 harg6 hc0 hc1 x0 x1).1 S1024x256.size (by sl_kernel_rfl) y
/-- The accumulator after a first step: its pieces read back. -/
def accFirst2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i) (x0 : Vec F S1024x1024 .f32) (x1 : Vec F S1024x256 .f32) : Vec F S1024x256 .f32 :=
  VS2.read (Elt F) (VS2.writes (Elt F) VS2.junk (runFirst2 c i arg3 harg3 arg4 harg4 arg5 harg5 arg6 harg6 hc0 hc1 x0 x1).1)

theorem coverMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i) (x0 : Vec F S1024x1024 .f32) (x1 : Vec F S1024x256 .f32) (xs : Vec F S1024x256 .f32) (y : S1024x256.Idx) :
    ∃ pc ∈ (runMid2 c i arg3 harg3 arg4 harg4 arg5 harg5 arg6 harg6 hc0 hc1 x0 x1 xs).1, y ∈ pc.1.set :=
  View.cover_of_tiledL (runMid2 c i arg3 harg3 arg4 harg4 arg5 harg5 arg6 harg6 hc0 hc1 x0 x1 xs).1 S1024x256.size (by sl_kernel_rfl) y
/-- The accumulator after a middle step. -/
def accMid2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i) (x0 : Vec F S1024x1024 .f32) (x1 : Vec F S1024x256 .f32) (xs : Vec F S1024x256 .f32) : Vec F S1024x256 .f32 :=
  VS2.read (Elt F) (VS2.writes (Elt F) VS2.junk (runMid2 c i arg3 harg3 arg4 harg4 arg5 harg5 arg6 harg6 hc0 hc1 x0 x1 xs).1)

theorem coverLastS2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) (y : S1024x256.Idx) :
    ∃ pc ∈ (runLast2 c i arg3 harg3 arg4 harg4 arg5 harg5 arg6 harg6 hc0 hc1 x0 x1 xs).2.1, y ∈ pc.1.set :=
  View.cover_of_tiledL (runLast2 c i arg3 harg3 arg4 harg4 arg5 harg5 arg6 harg6 hc0 hc1 x0 x1 xs).2.1 S1024x256.size (by sl_kernel_rfl) y
theorem coverLastO2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) (y : S1024x256.Idx) :
    ∃ pc ∈ (runLast2 c i arg3 harg3 arg4 harg4 arg5 harg5 arg6 harg6 hc0 hc1 x0 x1 xs).1, y ∈ pc.1.set :=
  View.cover_of_tiledL (runLast2 c i arg3 harg3 arg4 harg4 arg5 harg5 arg6 harg6 hc0 hc1 x0 x1 xs).1 S1024x256.size (by sl_kernel_rfl) y
/-- The accumulator and the output tile after a last step. -/
def accLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) : Vec F S1024x256 .f32 :=
  VS2.read (Elt F) (VS2.writes (Elt F) VS2.junk (runLast2 c i arg3 harg3 arg4 harg4 arg5 harg5 arg6 harg6 hc0 hc1 x0 x1 xs).2.1)
def outLast2 (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) : Vec F S1024x256 .f32 :=
  VO2.read (Elt F) (VO2.writes (Elt F) VO2.junk (runLast2 c i arg3 harg3 arg4 harg4 arg5 harg5 arg6 harg6 hc0 hc1 x0 x1 xs).1)

/-! ## The region at the entry contents `V` -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, for any proof data over `V` that leaves it in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: the accumulator after the body at position `n`, by recursion on the position — a first step
    starts from the two blocks alone, any other step adds to what the position before left. -/
def accAt2 (c : Dev nD) : (n : ℕ) → n < cfg2.N → Vec F S1024x256 .f32
  | 0, hn => accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) acc2 (Memref.isWhole_whole _) ((hfirst2 ⟨0, hn⟩).mpr (Nat.zero_mod _)) (fun h => (fun h => by (try dsimp only at h); omega) ((hlast2 ⟨0, hn⟩).mp h)) (iblk2 V c 0 ⟨0, hn⟩) (iblk2 V c 1 ⟨0, hn⟩)
  | n + 1, hn =>
    if h0 : (n + 1) % 4 = 0 then
      accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) ((hfirst2 ⟨n + 1, hn⟩).mpr h0) (fun h => (fun h => by (try dsimp only at h); omega) ((hlast2 ⟨n + 1, hn⟩).mp h)) (iblk2 V c 0 ⟨n + 1, hn⟩) (iblk2 V c 1 ⟨n + 1, hn⟩)
    else if h1 : (n + 1) % 4 = 3 then
      accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hfirst2 ⟨n + 1, hn⟩).mp h)) ((hlast2 ⟨n + 1, hn⟩).mpr h1) (iblk2 V c 0 ⟨n + 1, hn⟩) (iblk2 V c 1 ⟨n + 1, hn⟩) (accAt2 c n (Nat.lt_of_succ_lt hn))
    else
      accMid2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) acc2 (Memref.isWhole_whole _) (fun h => h0 ((hfirst2 ⟨n + 1, hn⟩).mp h)) (fun h => h1 ((hlast2 ⟨n + 1, hn⟩).mp h)) (iblk2 V c 0 ⟨n + 1, hn⟩) (iblk2 V c 1 ⟨n + 1, hn⟩) (accAt2 c n (Nat.lt_of_succ_lt hn))

/-- What the position before left in the accumulator (read only at positions that are not first steps). -/
def accPrev2 (c : Dev nD) (t : Fin cfg2.N) : Vec F S1024x256 .f32 :=
  accAt2 V c (t.val - 1) (Nat.lt_of_le_of_lt (Nat.sub_le _ _) t.isLt)

theorem accAt2_first (c : Dev nD) (t : Fin cfg2.N) (h0 : t.val % 4 = 0) (h1 : ¬t.val % 4 = 3) :
    accAt2 V c t.val t.isLt = accFirst2 c (grid2.coords t) (ms2_0 t) (hs2_0 t) (ms2_1 t) (hs2_1 t) (ms2_2 t) (hs2_2 t) acc2 (Memref.isWhole_whole _) ((hfirst2 t).mpr h0) (fun h => h1 ((hlast2 t).mp h)) (iblk2 V c 0 t) (iblk2 V c 1 t) := by
  obtain ⟨n, hn⟩ := t
  cases n with
  | zero => exact rfl
  | succ n => exact (dif_pos h0).trans rfl
theorem accAt2_mid (c : Dev nD) (t : Fin cfg2.N) (h0 : ¬t.val % 4 = 0) (h1 : ¬t.val % 4 = 3) :
    accAt2 V c t.val t.isLt = accMid2 c (grid2.coords t) (ms2_0 t) (hs2_0 t) (ms2_1 t) (hs2_1 t) (ms2_2 t) (hs2_2 t) acc2 (Memref.isWhole_whole _) (fun h => h0 ((hfirst2 t).mp h)) (fun h => h1 ((hlast2 t).mp h)) (iblk2 V c 0 t) (iblk2 V c 1 t) (accPrev2 V c t) := by
  obtain ⟨n, hn⟩ := t
  cases n with
  | zero => exact (by exfalso; (try dsimp only at h0); exact absurd (Nat.zero_mod _) h0)
  | succ n => exact (dif_neg h0).trans ((dif_neg h1).trans rfl)
theorem accAt2_last (c : Dev nD) (t : Fin cfg2.N) (h0 : ¬t.val % 4 = 0) (h1 : t.val % 4 = 3) :
    accAt2 V c t.val t.isLt = accLast2 c (grid2.coords t) (ms2_0 t) (hs2_0 t) (ms2_1 t) (hs2_1 t) (ms2_2 t) (hs2_2 t) acc2 (Memref.isWhole_whole _) (fun h => h0 ((hfirst2 t).mp h)) ((hlast2 t).mpr h1) (iblk2 V c 0 t) (iblk2 V c 1 t) (accPrev2 V c t) := by
  obtain ⟨n, hn⟩ := t
  cases n with
  | zero => exact (by exfalso; (try dsimp only at h0); exact absurd (Nat.zero_mod _) h0)
  | succ n => exact (dif_neg h0).trans ((dif_pos h1).trans rfl)

/-- What the output tile's staging buffer holds after the body: at a last step the accumulator's copy; elsewhere the
    tile is idle and this value is consulted by nothing. -/
def outAt2 (c : Dev nD) (t : Fin cfg2.N) : Vec F S1024x256 .f32 :=
  if h1 : t.val % 4 = 3 then
    outLast2 c (grid2.coords t) (ms2_0 t) (hs2_0 t) (ms2_1 t) (hs2_1 t) (ms2_2 t) (hs2_2 t) acc2 (Memref.isWhole_whole _) (fun h => (fun h => by omega) ((hfirst2 t).mp h)) ((hlast2 t).mpr h1) (iblk2 V c 0 t) (iblk2 V c 1 t) (accPrev2 V c t)
  else VO2.read (Elt F) (VO2.writes (Elt F) VO2.junk [])

/-- The invariant before position `n`: before the first point the class's (the accumulator at anything); afterwards
    the accumulator at what the position before left, beside the rest. -/
def PhiS2 (c : Dev nD) : (n : ℕ) → n ≤ cfg2.N → sProp 𝕄
  | 0, _ => Pipeline.ΦA spec2 c
  | n + 1, hn => iprop(owns (c : Thread nD τ) acc2 fullShare (accAt2 V c n hn) ∗ rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) acc2 fullShare (accAt2 V c n hn) ∗ rest2 (F := F) c) := rfl
theorem PhiS2_pos (c : Dev nD) (n : ℕ) (h : n ≤ cfg2.N) (hz : n ≠ 0) :
    PhiS2 V c n h = iprop(owns (c : Thread nD τ) acc2 fullShare (accAt2 V c (n - 1) (by omega)) ∗ rest2 (F := F) c) := by
  cases n with
  | zero => exact absurd rfl hz
  | succ n => rfl

/-! ## The proof data -/

/-- The arrays as the region finds them; after the body each operand's buffer at its block and the output's at
    `outAt`; the invariant carrying the accumulator; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

theorem outAt2_last (c : Dev nD) (t : Fin cfg2.N) (h0 : ¬t.val % 4 = 0) (h1 : t.val % 4 = 3) :
    outAt2 V c t = outLast2 c (grid2.coords t) (ms2_0 t) (hs2_0 t) (ms2_1 t) (hs2_1 t) (ms2_2 t) (hs2_2 t) acc2 (Memref.isWhole_whole _) (fun h => h0 ((hfirst2 t).mp h)) ((hlast2 t).mpr h1) (iblk2 V c 0 t) (iblk2 V c 1 t) (accPrev2 V c t) :=
  dif_pos h1

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The operands' buffers hold their blocks; the position modulo four says which case the point
    is in; the invariant hands the body the accumulator at what the position before left (at anything at the grid's
    first point) and takes it back at this position's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 16 := lt_of_lt_of_eq t.isLt (show cfg2.N = 16 from N_2)
  by_cases h0 : t.val % 4 = 0
  · have h1 : ¬t.val % 4 = 3 := by omega
    rw [Dat.leavesExact_idle (dat2 V c) 2 t (idle2_2 t (fun h => h1 ((hlast2 t).mp h))) (noFlush2_2 t (fun h => h1 ((hlast2 t).mp h)))]
    rw [accAt2_first V c t h0 h1]
    unfold accFirst2; (try dsimp only)
    by_cases hz : t.val = 0
    · rw [PhiS2_castSucc V c t, PhiS2_zero V c _ _ hz, PhiA2_eq]
      iintro ⟨⟨HS, Hr⟩, Ho, ⟨%d0, H0⟩, ⟨%d1, H1⟩, ⟨%d2, H2⟩⟩
      iapply ((runFirst2 c (grid2.coords t) _ _ _ _ _ _ _ _ ((hfirst2 t).mpr h0) (fun h => h1 ((hlast2 t).mp h)) (iblk2 V c 0 t) (iblk2 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst2 c _ _ _ _ _ _ _ _ _ _ _ _ _)
        iexact Hr
      isplitl [Ho]; · iexact Ho
      isplitl [H0]; · iexact H0
      isplitl [H1]; · iexact H1
      iexists _; iexact H2
    · rw [PhiS2_castSucc V c t, PhiS2_pos V c _ _ hz]
      iintro ⟨⟨HS, Hr⟩, Ho, ⟨%d0, H0⟩, ⟨%d1, H1⟩, ⟨%d2, H2⟩⟩
      iapply ((runFirst2 c (grid2.coords t) _ _ _ _ _ _ _ _ ((hfirst2 t).mpr h0) (fun h => h1 ((hlast2 t).mp h)) (iblk2 V c 0 t) (iblk2 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverFirst2 c _ _ _ _ _ _ _ _ _ _ _ _ _)
        iexact Hr
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat2 V c).leavesExact 2 t = owns (c : Thread nD τ) (ms2_2 t) fullShare ((dat2 V c).after 2 t) from by
        unfold Dat.leavesExact; rw [live2_2 t ((hlast2 t).mpr h1)], after2_2]
      rw [accAt2_last V c t h0 h1, outAt2_last V c t h0 h1]
      unfold accLast2 outLast2; (try dsimp only)
      rw [PhiS2_castSucc V c t, PhiS2_pos V c _ _ hz]
      iintro ⟨⟨HS, Hr⟩, Ho, ⟨%d0, H0⟩, ⟨%d1, H1⟩, ⟨%d2, H2⟩⟩
      iapply ((runLast2 c (grid2.coords t) _ _ _ _ _ _ _ _ (fun h => h0 ((hfirst2 t).mp h)) ((hlast2 t).mpr h1) (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverLastS2 c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverLastO2 c _ _ _ _ _ _ _ _ _ _ _ _ _ _)
    · rw [Dat.leavesExact_idle (dat2 V c) 2 t (idle2_2 t (fun h => h1 ((hlast2 t).mp h))) (noFlush2_2 t (fun h => h1 ((hlast2 t).mp h)))]
      rw [accAt2_mid V c t h0 h1]
      unfold accMid2; (try dsimp only)
      rw [PhiS2_castSucc V c t, PhiS2_pos V c _ _ hz]
      iintro ⟨⟨HS, Hr⟩, Ho, ⟨%d0, H0⟩, ⟨%d1, H1⟩, ⟨%d2, H2⟩⟩
      iapply ((runMid2 c (grid2.coords t) _ _ _ _ _ _ _ _ (fun h => h0 ((hfirst2 t).mp h)) (fun h => h1 ((hlast2 t).mp h)) (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverMid2 c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨HS, Hr⟩
  isplitl [HS]
  · iexists _; iexact HS
  iexact Hr

end Cert.KernelIdeal.Hand

end
-- ==== Proof.KI.Segs.lean ====
/- The three kernel regions of @main as segment records, and the two runs they give.

   Between two items of @main every core holds each of its unscoped buffers whole at a valuation, beside its
   generator register at some state and nothing owed.  A kernel region takes its three windows' arrays out of
   those buffers, runs its pipeline from the class invariant, and puts the arrays back: the two operands as
   they were, the output at what the pipeline's write-backs leave (`Dat.arrAt 2 N` of the region's proof data
   at its entry contents).  That pins the contents `outs` the valuations of the imported module
   `Gen.KernelIdeal.Regions` are written over:
     `outs 1 main_v0` is region 0's output at the launch contents,
     `outs 2 main_v1` is region 1's output at the contents after region 0,
     `outs 5 main_v4` is region 2's output at the contents after the two host stretches that follow region 1.
   With these the hypotheses of the conditional frame and of the conditional run hold, which gives the frame of
   the program and its run with the result named. -/
import proofs.«141484_j24618752540870_1_alg».proof.Proof.KI.RunCond
import proofs.«141484_j24618752540870_1_alg».proof.Proof.KI.Region0
import proofs.«141484_j24618752540870_1_alg».proof.Proof.KI.Region1
import proofs.«141484_j24618752540870_1_alg».proof.Proof.KI.Region2
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents around the regions -/

/-- Region 0's entry contents: the launch memory, read at the TensorCore's references. -/
abbrev Ve0 : (c : Dev nD) → (b : Ref sig .tc) → Buf (Elt F) ((c : Thread nD τ).loc b) := fun c b => V0 m c b
/-- What region 0 leaves in its output array `main_v0`. -/
def o0 (c : Dev nD) : Buf (Elt F) ((c : Thread nD τ).loc main_v0) := (dat0 (Ve0 m) c).arrAt 2 cfg0.N
/-- Core `c`'s unscoped buffers after region 0. -/
def X1 (c : Dev nD) : Valuation τ sig (Elt F) := Function.update (V0 m c) main_v0 (o0 m c)
/-- Region 1's entry contents. -/
abbrev Ve1 : (c : Dev nD) → (b : Ref sig .tc) → Buf (Elt F) ((c : Thread nD τ).loc b) := fun c b => X1 m c b
/-- What region 1 leaves in its output array `main_v1`. -/
def o1 (c : Dev nD) : Buf (Elt F) ((c : Thread nD τ).loc main_v1) := (dat1 (Ve1 m) c).arrAt 2 cfg1.N
/-- Core `c`'s unscoped buffers after region 1. -/
def X2 (c : Dev nD) : Valuation τ sig (Elt F) := Function.update (X1 m c) main_v1 (o1 m c)
/-- The same read at the TensorCore's references (region 1's exit contents). -/
abbrev Ve1' : (c : Dev nD) → (b : Ref sig .tc) → Buf (Elt F) ((c : Thread nD τ).loc b) := fun c b => X2 m c b
/-- Core `c`'s unscoped buffers after the two host stretches that follow region 1. -/
def X4 (c : Dev nD) : Valuation τ sig (Elt F) := StableHlo.after hostOps2_1 (StableHlo.after hostOps2 (X2 m c))
/-- Region 2's entry contents. -/
abbrev Ve2 : (c : Dev nD) → (b : Ref sig .tc) → Buf (Elt F) ((c : Thread nD τ).loc b) := fun c b => X4 m c b
/-- What region 2 leaves in its output array `main_v4`. -/
def o2 (c : Dev nD) : Buf (Elt F) ((c : Thread nD τ).loc main_v4) := (dat2 (Ve2 m) c).arrAt 2 cfg2.N
/-- Core `c`'s unscoped buffers after region 2. -/
def X5 (c : Dev nD) : Valuation τ sig (Elt F) := Function.update (X4 m c) main_v4 (o2 m c)
/-- The same read at the TensorCore's references (region 2's exit contents). -/
abbrev Ve2' : (c : Dev nD) → (b : Ref sig .tc) → Buf (Elt F) ((c : Thread nD τ).loc b) := fun c b => X5 m c b

/-- The contents the regions leave, as the imported valuations take them: after item 0 the buffers at `X1`, after
    item 1 at `X2`, after item 4 at `X5` (read only at the regions' output arrays). -/
def outs : Outs (F := F) := fun J r c =>
  match J with
  | 1 => X1 m c r
  | 2 => X2 m c r
  | 5 => X5 m c r
  | _ => V0 m c r

theorem X1_self (c : Dev nD) : X1 m c main_v0 = o0 m c := by unfold X1; exact Function.update_self _ _ _
theorem X2_self (c : Dev nD) : X2 m c main_v1 = o1 m c := by unfold X2; exact Function.update_self _ _ _
theorem X5_self (c : Dev nD) : X5 m c main_v4 = o2 m c := by unfold X5; exact Function.update_self _ _ _
theorem X1_of (c : Dev nD) (r : Ref sig .tc) (h : r ≠ main_v0) : X1 m c r = V0 m c r := by
  unfold X1; exact Function.update_of_ne (StableHlo.devRef_ne_of_ne h : (Proc.devRef .tc r : DevRef τ sig) ≠ Proc.devRef .tc main_v0) _ _
theorem X2_of (c : Dev nD) (r : Ref sig .tc) (h : r ≠ main_v1) : X2 m c r = X1 m c r := by
  unfold X2; exact Function.update_of_ne (StableHlo.devRef_ne_of_ne h : (Proc.devRef .tc r : DevRef τ sig) ≠ Proc.devRef .tc main_v1) _ _
theorem X5_of (c : Dev nD) (r : Ref sig .tc) (h : r ≠ main_v4) : X5 m c r = X4 m c r := by
  unfold X5; exact Function.update_of_ne (StableHlo.devRef_ne_of_ne h : (Proc.devRef .tc r : DevRef τ sig) ≠ Proc.devRef .tc main_v4) _ _

/-- The regions' outputs are what `outs` holds at the three points the imported valuations read it. -/
theorem outs_v0 (c : Dev nD) : outs m 1 main_v0 c = o0 m c := X1_self m c
theorem outs_v1 (c : Dev nD) : outs m 2 main_v1 c = o1 m c := X2_self m c
theorem outs_v4 (c : Dev nD) : outs m 5 main_v4 c = o2 m c := X5_self m c

/-- The imported valuations at `outs` are the ones above. -/
theorem V1_eq (c : Dev nD) : V1 m (outs m) c = X1 m c := by
  show Function.update (V0 m c) main_v0 (outs m 1 main_v0 c) = X1 m c
  rw [outs_v0]; rfl
theorem V2_eq (c : Dev nD) : V2 m (outs m) c = X2 m c := by
  show Function.update (V1 m (outs m) c) main_v1 (outs m 2 main_v1 c) = X2 m c
  rw [outs_v1, V1_eq]; rfl
theorem V4_eq (c : Dev nD) : V4 m (outs m) c = X4 m c := by
  show StableHlo.after hostOps2_1 (StableHlo.after hostOps2 (V2 m (outs m) c)) = X4 m c
  rw [V2_eq]; rfl
theorem V5_eq (c : Dev nD) : V5 m (outs m) c = X5 m c := by
  show Function.update (V4 m (outs m) c) main_v4 (outs m 5 main_v4 c) = X5 m c
  rw [outs_v4, V4_eq]; rfl

/-- At region 0's exit each of its arrays holds what the pipeline leaves — an operand what it held at entry, the
    output its folded write-backs — and every other buffer what it held at entry. -/
theorem hF0 (c : Dev nD) : ∀ w : Fin cfg0.W, (dat0 (Ve0 m) c).arrAt w cfg0.N = Ve1 m c (Pipeline.arrRef spec0 w)
  | 0 => ((dat0 (Ve0 m) c).arrAt_in 0 rfl _).trans ((A_eq0 (Ve0 m) c 0).trans (X1_of m c main_arg3 (by decide)).symm)
  | 1 => ((dat0 (Ve0 m) c).arrAt_in 1 rfl _).trans ((A_eq0 (Ve0 m) c 1).trans (X1_of m c main_arg2 (by decide)).symm)
  | 2 => (X1_self m c).symm
  | ⟨_ + 3, h⟩ => absurd h (Nat.not_lt.2 (Nat.le_add_left _ _))
theorem hrest0 (c : Dev nD) : ∀ b, b ∉ Finset.univ.image (Pipeline.arrRef spec0) → Ve1 m c b = Ve0 m c b :=
  fun b hb => X1_of m c b fun e => hb (Finset.mem_image.mpr ⟨2, Finset.mem_univ _, e.symm⟩)

/-- At region 1's exit each of its arrays holds what the pipeline leaves — an operand what it held at entry, the
    output its folded write-backs — and every other buffer what it held at entry. -/
theorem hF1 (c : Dev nD) : ∀ w : Fin cfg1.W, (dat1 (Ve1 m) c).arrAt w cfg1.N = Ve1' m c (Pipeline.arrRef spec1 w)
  | 0 => ((dat1 (Ve1 m) c).arrAt_in 0 rfl _).trans ((A_eq1 (Ve1 m) c 0).trans (X2_of m c main_v0 (by decide)).symm)
  | 1 => ((dat1 (Ve1 m) c).arrAt_in 1 rfl _).trans ((A_eq1 (Ve1 m) c 1).trans (X2_of m c main_arg3 (by decide)).symm)
  | 2 => (X2_self m c).symm
  | ⟨_ + 3, h⟩ => absurd h (Nat.not_lt.2 (Nat.le_add_left _ _))
theorem hrest1 (c : Dev nD) : ∀ b, b ∉ Finset.univ.image (Pipeline.arrRef spec1) → Ve1' m c b = Ve1 m c b :=
  fun b hb => X2_of m c b fun e => hb (Finset.mem_image.mpr ⟨2, Finset.mem_univ _, e.symm⟩)

/-- At region 2's exit each of its arrays holds what the pipeline leaves — an operand what it held at entry, the
    output its folded write-backs — and every other buffer what it held at entry. -/
theorem hF2 (c : Dev nD) : ∀ w : Fin cfg2.W, (dat2 (Ve2 m) c).arrAt w cfg2.N = Ve2' m c (Pipeline.arrRef spec2 w)
  | 0 => ((dat2 (Ve2 m) c).arrAt_in 0 rfl _).trans ((A_eq2 (Ve2 m) c 0).trans (X5_of m c main_v1 (by decide)).symm)
  | 1 => ((dat2 (Ve2 m) c).arrAt_in 1 rfl _).trans ((A_eq2 (Ve2 m) c 1).trans (X5_of m c main_v3 (by decide)).symm)
  | 2 => (X5_self m c).symm
  | ⟨_ + 3, h⟩ => absurd h (Nat.not_lt.2 (Nat.le_add_left _ _))
theorem hrest2 (c : Dev nD) : ∀ b, b ∉ Finset.univ.image (Pipeline.arrRef spec2) → Ve2' m c b = Ve2 m c b :=
  fun b hb => X5_of m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (Ve0 m) c
  | ⟨1, _⟩ => fun c => dat1 (Ve1 m) c
  | ⟨2, _⟩ => fun c => dat2 (Ve2 m) c
  | ⟨_ + 3, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    class invariant takes it in and gives it back) and its `owes`, at nothing. -/
abbrev R (c : Dev nD) : sProp 𝕄 := iprop((∃ r, prngReg c r) ∗ ∃ W, owes (c : Thread nD τ) (0 : CellTallies nD τ sig Unit) W)

/-! ## The regions as segments -/

-- `iapply` of a library lemma stated over `pin pcs a p` unifies with the pinned configuration only when unification may
-- unfold plain definitions in a metavariable's type
set_option backward.isDefEq.respectTransparency.types false in
/-- REGION 0 over the thread state: entered from the launch contents `V0`, left at `X1` (`main_v0` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine BIBase.Entails.trans (hout0 (Ve0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from `X1`, left at `X2` (`main_v1` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    refine BIBase.Entails.trans (hout1 (Ve1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve1' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from `X4` (after the two host stretches), left at `X5` (`main_v4` at what the pipeline's write-backs leave). Its arrays are split out of the
    unscoped buffers at entry and put back at the exit contents; the generator register goes into the class
    invariant and comes back; nothing is owed; the kernel has no semaphore of its own. The region's own invariant
    is reached from the class invariant at the first point and gives it back at the last. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (X4 m c) ∗ R c)
  post c := iprop(StableHlo.held (c : Thread nD τ) (Pipeline.ucRefs τ sig) (X5 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Ve2 m) c)
    unfold Pipeline.ΦA
    iintro ⟨Hp, -, Hr⟩
    isplitl [Hr]; · iexact Hr
    iexact Hp
  hout c := by
    refine BIBase.Entails.trans (hout2 (Ve2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Ve2' m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, and the two runs -/

/-- The launch element is the pipeline library's own; no core takes a ghost resource of its own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest `R` from what the launch deals it: its generator register and its `owes` at nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing. -/
theorem hE3 (c : Dev nD) : R c ⊢ (iprop(∃ W, owes (c : Thread nD τ) (0 : CellTallies nD τ sig Unit) W) : sProp 𝕄) := by
  iintro ⟨-, HO⟩; iexact HO

/-- THE FRAME: from any memory with zero counters every weakly fair execution of @main terminates and every
    final memory holds each argument as launched. -/
theorem frame_KI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun c => .rfl) (hpost0 := fun c => BIBase.Entails.of_eq (congrArg (fun W => iprop(StableHlo.held (c : Thread nD τ) (Pipeline.ucRefs τ sig) W ∗ R c)) (V1_eq m c).symm))
    (R1 := reg1 m) (hpre1 := fun c => BIBase.Entails.of_eq (congrArg (fun W => iprop(StableHlo.held (c : Thread nD τ) (Pipeline.ucRefs τ sig) W ∗ R c)) (V1_eq m c)))
    (hpost1 := fun c => BIBase.Entails.of_eq (congrArg (fun W => iprop(StableHlo.held (c : Thread nD τ) (Pipeline.ucRefs τ sig) W ∗ R c)) (V2_eq m c).symm))
    (R2 := reg2 m) (hpre2 := fun c => BIBase.Entails.of_eq (congrArg (fun W => iprop(StableHlo.held (c : Thread nD τ) (Pipeline.ucRefs τ sig) W ∗ R c)) (V4_eq m c)))
    (hpost2 := fun c => BIBase.Entails.of_eq (congrArg (fun W => iprop(StableHlo.held (c : Thread nD τ) (Pipeline.ucRefs τ sig) W ∗ R c)) (V5_eq m c).symm))

/-- THE RUN WITH THE RESULT NAMED: the same, and every final memory holds in `main_v60` what the last valuation,
    over the regions' outputs `outs`, holds there. -/
theorem run_KI (ρ : Dev nD → PrngReg) :
    θ_run defs (onTc (τ := τ) (main (F := F))) ⟨m, fun _ => 0, ρ⟩ (fun r => ∀ c : Dev nD,
      r.2.mem ((c.tc : Thread nD τ).loc main_v60) = V8 m (outs m) c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ)
    (outs := outs m) (pdats := pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun c => .rfl) (hpost0 := fun c => BIBase.Entails.of_eq (congrArg (fun W => iprop(StableHlo.held (c : Thread nD τ) (Pipeline.ucRefs τ sig) W ∗ R c)) (V1_eq m c).symm))
    (R1 := reg1 m) (hpre1 := fun c => BIBase.Entails.of_eq (congrArg (fun W => iprop(StableHlo.held (c : Thread nD τ) (Pipeline.ucRefs τ sig) W ∗ R c)) (V1_eq m c)))
    (hpost1 := fun c => BIBase.Entails.of_eq (congrArg (fun W => iprop(StableHlo.held (c : Thread nD τ) (Pipeline.ucRefs τ sig) W ∗ R c)) (V2_eq m c).symm))
    (R2 := reg2 m) (hpre2 := fun c => BIBase.Entails.of_eq (congrArg (fun W => iprop(StableHlo.held (c : Thread nD τ) (Pipeline.ucRefs τ sig) W ∗ R c)) (V4_eq m c)))
    (hpost2 := fun c => BIBase.Entails.of_eq (congrArg (fun W => iprop(StableHlo.held (c : Thread nD τ) (Pipeline.ucRefs τ sig) W ∗ R c)) (V5_eq m c).symm))

end Cert.KernelIdeal.Hand

end
-- ==== Proof.HostTail.lean ====
/- The host computation that both programs end with, stated once.

   After the three matrix products both programs run the same operations on the host: a normalised graph convolution
   of `x = arg0` over the edge list `arg1` with one self-loop added per node (weights `arg5`, bias `arg6`), scaled by `arg7`,
   plus `arg8` times the last product `Hh = (arg3·arg2·arg3) · relu(arg0·arg4)`. `tail` is that computation as ONE function
   of the arrays it reads and of `Hh`; the reference's result is `tail` at its own product, the kernel program's result is
   `tail` at whatever its last region left in `main_v4`. Nothing here looks inside `tail`: the two sides are joined by
   congruence in its last argument. -/
import proofs.«141484_j24618752540870_1_alg».proof.Proof.RefRun
import proofs.«141484_j24618752540870_1_alg».proof.Proof.Gen.KernelIdeal.Regions

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- The edge sources followed by one self-loop per node: row 0 of the edge list with `0, 1, …, 4095` appended. -/
def srcIdx (a1 : (⟨S2x131072, .i32⟩ : BufTy).Contents (Elt F)) : (⟨S135168, .i32⟩ : BufTy).Contents (Elt F) :=
  (concatenate S135168 0 [⟨S131072, (shapeCast _ (extractStridedSlice S1x131072 ![0, 0] a1 slices_S2x131072_S1x131072_0_0) shapeCasts_S1x131072_S131072)⟩, ⟨S4096, (iotaInDim S4096 32 0)⟩] concatenates_S131072_S4096_S135168_d0)

/-- The edge targets followed by one self-loop per node: row 1 of the edge list with `0, 1, …, 4095` appended. -/
def dstIdx (a1 : (⟨S2x131072, .i32⟩ : BufTy).Contents (Elt F)) : (⟨S135168, .i32⟩ : BufTy).Contents (Elt F) :=
  (concatenate S135168 0 [⟨S131072, (shapeCast _ (extractStridedSlice S1x131072 ![1, 0] a1 slices_S2x131072_S1x131072_1_0) shapeCasts_S1x131072_S131072)⟩, ⟨S4096, (iotaInDim S4096 32 0)⟩] concatenates_S131072_S4096_S135168_d0)

/-- The normalising factor of each node: with `d` the number of edges (self-loops included) that end in the node,
    `rsqrt (max d ε)` where `d > 0` and `0` elsewhere; a function of the target list alone. -/
def degInvSqrt (v11 : (⟨S135168, .i32⟩ : BufTy).Contents (Elt F)) : (⟨S4096, .f32⟩ : BufTy).Contents (Elt F) :=
  (select (cmpf .ogt (Host.scatterAdd scatter_S4096_S135168x1_S135168_n_0_0_1 (broadcastInDim S4096 ![] bcast_S_S4096 (constant (F := F) S_ .f32 0x00000000#32)) (broadcastInDim S135168x1 ![0] bcast_S135168_S135168x1_0 v11) (broadcastInDim S135168 ![] bcast_S_S135168 (constant (F := F) S_ .f32 0x3F800000#32))) (broadcastInDim S4096 ![] bcast_S_S4096 (constant (F := F) S_ .f32 0x00000000#32))) (Host.rsqrt (maximumf (Host.scatterAdd scatter_S4096_S135168x1_S135168_n_0_0_1 (broadcastInDim S4096 ![] bcast_S_S4096 (constant (F := F) S_ .f32 0x00000000#32)) (broadcastInDim S135168x1 ![0] bcast_S135168_S135168x1_0 v11) (broadcastInDim S135168 ![] bcast_S_S135168 (constant (F := F) S_ .f32 0x3F800000#32))) (broadcastInDim S4096 ![] bcast_S_S4096 (constant (F := F) S_ .f32 0x2B8CBCCC#32)))) (broadcastInDim S4096 ![] bcast_S_S4096 (id (constant (F := F) S_ .f32 0x00000000#32))))

/-- The graph-convolution branch and the final mix, given the two index lists and the per-node factors:
    `a7 * (scatter-add over targets of (x·W)[source] * (f[source] * f[target]) + bias) + a8 * Hh`,
    an index below zero first raised by 4096. -/
def mix (a0 : (⟨S4096x256, .f32⟩ : BufTy).Contents (Elt F)) (a5 : (⟨S256x256, .f32⟩ : BufTy).Contents (Elt F)) (a6 : (⟨S256, .f32⟩ : BufTy).Contents (Elt F)) (a7 a8 : (⟨S1, .f32⟩ : BufTy).Contents (Elt F))
    (v10 v11 : (⟨S135168, .i32⟩ : BufTy).Contents (Elt F)) (v21 : (⟨S4096, .f32⟩ : BufTy).Contents (Elt F)) (Hh : (⟨S4096x256, .f32⟩ : BufTy).Contents (Elt F)) : (⟨S4096x256, .f32⟩ : BufTy).Contents (Elt F) :=
  addf (mulf (broadcastInDim S4096x256 ![0, 1] bcast_S1x1_S4096x256_0_1 (broadcastInDim S1x1 ![1] bcast_S1_S1x1_1 a7)) (addf (Host.scatterAdd scatter_S4096x256_S135168x1_S135168x256_1_0_0_1 (broadcastInDim S4096x256 ![] bcast_S_S4096x256 (constant (F := F) S_ .f32 0x00000000#32)) (broadcastInDim S135168x1 ![0] bcast_S135168_S135168x1_0 v11) (mulf (Host.gather gather_S4096x256_S135168x1_S135168x256_1_0_n_n_0_1_1256 (Host.dotGeneral dot_S4096x256_S256x256_S4096x256_1_0_0_1_n_n none a0 a5) (broadcastInDim S135168x1 ![0] bcast_S135168_S135168x1_0 (select (cmpi .slt v10 (broadcastInDim S135168 ![] bcast_S_S135168 (constantI S_ 32 0#32))) (addi v10 (broadcastInDim S135168 ![] bcast_S_S135168 (constantI S_ 32 4096#32))) v10))) (broadcastInDim S135168x256 ![0, 1] bcast_S135168x1_S135168x256_0_1 (broadcastInDim S135168x1 ![0] bcast_S135168_S135168x1_0 (mulf (Host.gather gather_S4096_S135168x1_S135168_n_0_n_n_0_1_1 v21 (broadcastInDim S135168x1 ![0] bcast_S135168_S135168x1_0 (select (cmpi .slt v10 (broadcastInDim S135168 ![] bcast_S_S135168 (constantI S_ 32 0#32))) (addi v10 (broadcastInDim S135168 ![] bcast_S_S135168 (constantI S_ 32 4096#32))) v10))) (Host.gather gather_S4096_S135168x1_S135168_n_0_n_n_0_1_1 v21 (broadcastInDim S135168x1 ![0] bcast_S135168_S135168x1_0 (select (cmpi .slt v11 (broadcastInDim S135168 ![] bcast_S_S135168 (constantI S_ 32 0#32))) (addi v11 (broadcastInDim S135168 ![] bcast_S_S135168 (constantI S_ 32 4096#32))) v11)))))))) (broadcastInDim S4096x256 ![0, 1] bcast_S1x256_S4096x256_0_1 (broadcastInDim S1x256 ![1] bcast_S256_S1x256_1 a6)))) (mulf (broadcastInDim S4096x256 ![0, 1] bcast_S1x1_S4096x256_0_1 (broadcastInDim S1x1 ![1] bcast_S1_S1x1_1 a8)) Hh)

/-- The result as a function of the arguments the host operations after the last product read and of that product `Hh`:
    the low-pass branch (a normalised graph convolution of `a0` with weights `a5`, bias `a6`) scaled by `a7`, plus `a8 * Hh`. -/
def tail (a0 : (⟨S4096x256, .f32⟩ : BufTy).Contents (Elt F)) (a1 : (⟨S2x131072, .i32⟩ : BufTy).Contents (Elt F)) (a5 : (⟨S256x256, .f32⟩ : BufTy).Contents (Elt F)) (a6 : (⟨S256, .f32⟩ : BufTy).Contents (Elt F)) (a7 a8 : (⟨S1, .f32⟩ : BufTy).Contents (Elt F))
    (Hh : (⟨S4096x256, .f32⟩ : BufTy).Contents (Elt F)) : (⟨S4096x256, .f32⟩ : BufTy).Contents (Elt F) :=
  mix a0 a5 a6 a7 a8 (srcIdx (F := F) a1) (dstIdx (F := F) a1) (degInvSqrt (dstIdx (F := F) a1)) Hh

/-- The right factor of the last product: `max (a0 · a4) 0`, entry by entry. -/
def hh (a0 : (⟨S4096x256, .f32⟩ : BufTy).Contents (Elt F)) (a4 : (⟨S256x256, .f32⟩ : BufTy).Contents (Elt F)) : (⟨S4096x256, .f32⟩ : BufTy).Contents (Elt F) :=
  maximumf (Host.dotGeneral dot_S4096x256_S256x256_S4096x256_1_0_0_1_n_n none a0 a4) (broadcastInDim S4096x256 ![] bcast_S_S4096x256 (constant (F := F) S_ .f32 0x00000000#32))

/-- The reference's result is `tail` at its three products composed: `(arg3·arg2)·arg3` times `hh arg0 arg4`. -/
theorem ref_result (m : (ℓ : Loc nD τ sig) → Buf (Elt F) ℓ) (c : Dev nD) :
    Cert.ReferenceIdeal.ValueP.res_main_v60 m c =
      tail (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg7)) (m ((c.tc : Thread nD τ).loc main_arg8))
        (Host.dotGeneral dot_S4096x4096_S4096x256_S4096x256_1_0_0_1_n_n none
          (Host.dotGeneral dot_S4096x4096_S4096x4096_S4096x4096_1_0_0_1_n_n none
            (Host.dotGeneral dot_S4096x4096_S4096x4096_S4096x4096_1_0_0_1_n_n none (m ((c.tc : Thread nD τ).loc main_arg3)) (m ((c.tc : Thread nD τ).loc main_arg2)))
            (m ((c.tc : Thread nD τ).loc main_arg3)))
          (hh (m ((c.tc : Thread nD τ).loc main_arg0)) (m ((c.tc : Thread nD τ).loc main_arg4)))) := by
  unfold Cert.ReferenceIdeal.ValueP.res_main_v60 tail mix degInvSqrt srcIdx dstIdx hh
  rfl

/-! ## The kernel program's host stretches, over any valuation they start from

Each lemma reads one buffer after a stretch of host operations as a function of the buffers the stretch reads, for an
arbitrary valuation `W` before it: the operations are the reference's, spelt over the kernel program's own buffer table. -/

/-- After the first stretch of the graph branch, `main_v10` holds the source list of `arg1`. -/
theorem after3_v10 (W : Valuation Cert.KernelIdeal.τ Cert.KernelIdeal.sig (Elt F)) :
    StableHlo.after (Cert.KernelIdeal.Gen.hostOps3 (F := F)) W (Proc.devRef .tc Cert.KernelIdeal.main_v10) = srcIdx (F := F) (W (Proc.devRef .tc Cert.KernelIdeal.main_arg1)) := by
  dsimp only [Cert.KernelIdeal.Gen.hostOps3]
  after_results
  rfl

/-- After the first stretch of the graph branch, `main_v11` holds the target list of `arg1`. -/
theorem after3_v11 (W : Valuation Cert.KernelIdeal.τ Cert.KernelIdeal.sig (Elt F)) :
    StableHlo.after (Cert.KernelIdeal.Gen.hostOps3 (F := F)) W (Proc.devRef .tc Cert.KernelIdeal.main_v11) = dstIdx (F := F) (W (Proc.devRef .tc Cert.KernelIdeal.main_arg1)) := by
  dsimp only [Cert.KernelIdeal.Gen.hostOps3]
  after_results
  rfl

/-- After the first two stretches of the graph branch, `main_v21` holds the per-node factors of `arg1`'s target list. -/
theorem after31_v21 (W : Valuation Cert.KernelIdeal.τ Cert.KernelIdeal.sig (Elt F)) :
    StableHlo.after (Cert.KernelIdeal.Gen.hostOps3_1 (F := F)) (StableHlo.after (Cert.KernelIdeal.Gen.hostOps3 (F := F)) W) (Proc.devRef .tc Cert.KernelIdeal.main_v21)
      = degInvSqrt (dstIdx (F := F) (W (Proc.devRef .tc Cert.KernelIdeal.main_arg1))) := by
  dsimp only [Cert.KernelIdeal.Gen.hostOps3_1, Cert.KernelIdeal.Gen.hostOps3]
  after_results_simp
  rfl

/-- The last stretch leaves in `main_v60` the mix of what it finds in the arguments, the two index lists, the factors and `main_v4`. -/
theorem after32_v60 (W : Valuation Cert.KernelIdeal.τ Cert.KernelIdeal.sig (Elt F)) :
    StableHlo.after (Cert.KernelIdeal.Gen.hostOps3_2 (F := F)) W (Proc.devRef .tc Cert.KernelIdeal.main_v60)
      = mix (W (Proc.devRef .tc Cert.KernelIdeal.main_arg0)) (W (Proc.devRef .tc Cert.KernelIdeal.main_arg5)) (W (Proc.devRef .tc Cert.KernelIdeal.main_arg6)) (W (Proc.devRef .tc Cert.KernelIdeal.main_arg7)) (W (Proc.devRef .tc Cert.KernelIdeal.main_arg8))
          (W (Proc.devRef .tc Cert.KernelIdeal.main_v10)) (W (Proc.devRef .tc Cert.KernelIdeal.main_v11)) (W (Proc.devRef .tc Cert.KernelIdeal.main_v21)) (W (Proc.devRef .tc Cert.KernelIdeal.main_v4)) := by
  dsimp only [Cert.KernelIdeal.Gen.hostOps3_2]
  after_results_simp
  rfl

/-- The two stretches before the last region leave `max (arg0 · arg4) 0` in `main_v3`. -/
theorem after21_v3 (W : Valuation Cert.KernelIdeal.τ Cert.KernelIdeal.sig (Elt F)) :
    StableHlo.after (Cert.KernelIdeal.Gen.hostOps2_1 (F := F)) (StableHlo.after (Cert.KernelIdeal.Gen.hostOps2 (F := F)) W) (Proc.devRef .tc Cert.KernelIdeal.main_v3)
      = hh (W (Proc.devRef .tc Cert.KernelIdeal.main_arg0)) (W (Proc.devRef .tc Cert.KernelIdeal.main_arg4)) := by
  dsimp only [Cert.KernelIdeal.Gen.hostOps2_1, Cert.KernelIdeal.Gen.hostOps2]
  after_results
  rfl

/-! ## The kernel program's valuations between its items

`V0 … V8` (generated) are the buffers' contents between the program's items, with what the three regions leave as unknowns `outs`.
Read at the buffers that matter: the arguments are never written, each region's operands are what the items before it left, and
the result is `tail` at what the last region left in `main_v4`. -/

section Valuations

variable (m : (ℓ : Loc Cert.KernelIdeal.nD Cert.KernelIdeal.τ Cert.KernelIdeal.sig) → Buf (Elt F) ℓ) (outs : Cert.KernelIdeal.Gen.Outs (F := F)) (c : Dev Cert.KernelIdeal.nD)

theorem V7_arg0 : Cert.KernelIdeal.Gen.V7 m outs c Cert.KernelIdeal.main_arg0 = m ((c.tc : Thread Cert.KernelIdeal.nD Cert.KernelIdeal.τ).loc Cert.KernelIdeal.main_arg0) :=
  (Cert.KernelIdeal.Gen.V7_of m outs c Cert.KernelIdeal.main_arg0 (by decide)).trans <| (Cert.KernelIdeal.Gen.V6_of m outs c Cert.KernelIdeal.main_arg0 (by decide)).trans <| (Cert.KernelIdeal.Gen.V5_of m outs c Cert.KernelIdeal.main_arg0 (by decide)).trans <| (Cert.KernelIdeal.Gen.V4_of m outs c Cert.KernelIdeal.main_arg0 (by decide)).trans <| (Cert.KernelIdeal.Gen.V3_of m outs c Cert.KernelIdeal.main_arg0 (by decide)).trans <| (Cert.KernelIdeal.Gen.V2_of m outs c Cert.KernelIdeal.main_arg0 (by decide)).trans <| (Cert.KernelIdeal.Gen.V1_of m outs c Cert.KernelIdeal.main_arg0 (by decide)).trans <| rfl
theorem V7_arg1 : Cert.KernelIdeal.Gen.V7 m outs c Cert.KernelIdeal.main_arg1 = m ((c.tc : Thread Cert.KernelIdeal.nD Cert.KernelIdeal.τ).loc Cert.KernelIdeal.main_arg1) :=
  (Cert.KernelIdeal.Gen.V7_of m outs c Cert.KernelIdeal.main_arg1 (by decide)).trans <| (Cert.KernelIdeal.Gen.V6_of m outs c Cert.KernelIdeal.main_arg1 (by decide)).trans <| (Cert.KernelIdeal.Gen.V5_of m outs c Cert.KernelIdeal.main_arg1 (by decide)).trans <| (Cert.KernelIdeal.Gen.V4_of m outs c Cert.KernelIdeal.main_arg1 (by decide)).trans <| (Cert.KernelIdeal.Gen.V3_of m outs c Cert.KernelIdeal.main_arg1 (by decide)).trans <| (Cert.KernelIdeal.Gen.V2_of m outs c Cert.KernelIdeal.main_arg1 (by decide)).trans <| (Cert.KernelIdeal.Gen.V1_of m outs c Cert.KernelIdeal.main_arg1 (by decide)).trans <| rfl
theorem V7_arg5 : Cert.KernelIdeal.Gen.V7 m outs c Cert.KernelIdeal.main_arg5 = m ((c.tc : Thread Cert.KernelIdeal.nD Cert.KernelIdeal.τ).loc Cert.KernelIdeal.main_arg5) :=
  (Cert.KernelIdeal.Gen.V7_of m outs c Cert.KernelIdeal.main_arg5 (by decide)).trans <| (Cert.KernelIdeal.Gen.V6_of m outs c Cert.KernelIdeal.main_arg5 (by decide)).trans <| (Cert.KernelIdeal.Gen.V5_of m outs c Cert.KernelIdeal.main_arg5 (by decide)).trans <| (Cert.KernelIdeal.Gen.V4_of m outs c Cert.KernelIdeal.main_arg5 (by decide)).trans <| (Cert.KernelIdeal.Gen.V3_of m outs c Cert.KernelIdeal.main_arg5 (by decide)).trans <| (Cert.KernelIdeal.Gen.V2_of m outs c Cert.KernelIdeal.main_arg5 (by decide)).trans <| (Cert.KernelIdeal.Gen.V1_of m outs c Cert.KernelIdeal.main_arg5 (by decide)).trans <| rfl
theorem V7_arg6 : Cert.KernelIdeal.Gen.V7 m outs c Cert.KernelIdeal.main_arg6 = m ((c.tc : Thread Cert.KernelIdeal.nD Cert.KernelIdeal.τ).loc Cert.KernelIdeal.main_arg6) :=
  (Cert.KernelIdeal.Gen.V7_of m outs c Cert.KernelIdeal.main_arg6 (by decide)).trans <| (Cert.KernelIdeal.Gen.V6_of m outs c Cert.KernelIdeal.main_arg6 (by decide)).trans <| (Cert.KernelIdeal.Gen.V5_of m outs c Cert.KernelIdeal.main_arg6 (by decide)).trans <| (Cert.KernelIdeal.Gen.V4_of m outs c Cert.KernelIdeal.main_arg6 (by decide)).trans <| (Cert.KernelIdeal.Gen.V3_of m outs c Cert.KernelIdeal.main_arg6 (by decide)).trans <| (Cert.KernelIdeal.Gen.V2_of m outs c Cert.KernelIdeal.main_arg6 (by decide)).trans <| (Cert.KernelIdeal.Gen.V1_of m outs c Cert.KernelIdeal.main_arg6 (by decide)).trans <| rfl
theorem V7_arg7 : Cert.KernelIdeal.Gen.V7 m outs c Cert.KernelIdeal.main_arg7 = m ((c.tc : Thread Cert.KernelIdeal.nD Cert.KernelIdeal.τ).loc Cert.KernelIdeal.main_arg7) :=
  (Cert.KernelIdeal.Gen.V7_of m outs c Cert.KernelIdeal.main_arg7 (by decide)).trans <| (Cert.KernelIdeal.Gen.V6_of m outs c Cert.KernelIdeal.main_arg7 (by decide)).trans <| (Cert.KernelIdeal.Gen.V5_of m outs c Cert.KernelIdeal.main_arg7 (by decide)).trans <| (Cert.KernelIdeal.Gen.V4_of m outs c Cert.KernelIdeal.main_arg7 (by decide)).trans <| (Cert.KernelIdeal.Gen.V3_of m outs c Cert.KernelIdeal.main_arg7 (by decide)).trans <| (Cert.KernelIdeal.Gen.V2_of m outs c Cert.KernelIdeal.main_arg7 (by decide)).trans <| (Cert.KernelIdeal.Gen.V1_of m outs c Cert.KernelIdeal.main_arg7 (by decide)).trans <| rfl
theorem V7_arg8 : Cert.KernelIdeal.Gen.V7 m outs c Cert.KernelIdeal.main_arg8 = m ((c.tc : Thread Cert.KernelIdeal.nD Cert.KernelIdeal.τ).loc Cert.KernelIdeal.main_arg8) :=
  (Cert.KernelIdeal.Gen.V7_of m outs c Cert.KernelIdeal.main_arg8 (by decide)).trans <| (Cert.KernelIdeal.Gen.V6_of m outs c Cert.KernelIdeal.main_arg8 (by decide)).trans <| (Cert.KernelIdeal.Gen.V5_of m outs c Cert.KernelIdeal.main_arg8 (by decide)).trans <| (Cert.KernelIdeal.Gen.V4_of m outs c Cert.KernelIdeal.main_arg8 (by decide)).trans <| (Cert.KernelIdeal.Gen.V3_of m outs c Cert.KernelIdeal.main_arg8 (by decide)).trans <| (Cert.KernelIdeal.Gen.V2_of m outs c Cert.KernelIdeal.main_arg8 (by decide)).trans <| (Cert.KernelIdeal.Gen.V1_of m outs c Cert.KernelIdeal.main_arg8 (by decide)).trans <| rfl
theorem V5_arg1 : Cert.KernelIdeal.Gen.V5 m outs c Cert.KernelIdeal.main_arg1 = m ((c.tc : Thread Cert.KernelIdeal.nD Cert.KernelIdeal.τ).loc Cert.KernelIdeal.main_arg1) :=
  (Cert.KernelIdeal.Gen.V5_of m outs c Cert.KernelIdeal.main_arg1 (by decide)).trans <| (Cert.KernelIdeal.Gen.V4_of m outs c Cert.KernelIdeal.main_arg1 (by decide)).trans <| (Cert.KernelIdeal.Gen.V3_of m outs c Cert.KernelIdeal.main_arg1 (by decide)).trans <| (Cert.KernelIdeal.Gen.V2_of m outs c Cert.KernelIdeal.main_arg1 (by decide)).trans <| (Cert.KernelIdeal.Gen.V1_of m outs c Cert.KernelIdeal.main_arg1 (by decide)).trans <| rfl
theorem V2_arg0 : Cert.KernelIdeal.Gen.V2 m outs c Cert.KernelIdeal.main_arg0 = m ((c.tc : Thread Cert.KernelIdeal.nD Cert.KernelIdeal.τ).loc Cert.KernelIdeal.main_arg0) :=
  (Cert.KernelIdeal.Gen.V2_of m outs c Cert.KernelIdeal.main_arg0 (by decide)).trans <| (Cert.KernelIdeal.Gen.V1_of m outs c Cert.KernelIdeal.main_arg0 (by decide)).trans <| rfl
theorem V2_arg4 : Cert.KernelIdeal.Gen.V2 m outs c Cert.KernelIdeal.main_arg4 = m ((c.tc : Thread Cert.KernelIdeal.nD Cert.KernelIdeal.τ).loc Cert.KernelIdeal.main_arg4) :=
  (Cert.KernelIdeal.Gen.V2_of m outs c Cert.KernelIdeal.main_arg4 (by decide)).trans <| (Cert.KernelIdeal.Gen.V1_of m outs c Cert.KernelIdeal.main_arg4 (by decide)).trans <| rfl

/-- The first region's operands are the arguments as launched. -/
theorem V0_arg2 : Cert.KernelIdeal.Gen.V0 m c Cert.KernelIdeal.main_arg2 = m ((c.tc : Thread Cert.KernelIdeal.nD Cert.KernelIdeal.τ).loc Cert.KernelIdeal.main_arg2) := rfl
theorem V0_arg3 : Cert.KernelIdeal.Gen.V0 m c Cert.KernelIdeal.main_arg3 = m ((c.tc : Thread Cert.KernelIdeal.nD Cert.KernelIdeal.τ).loc Cert.KernelIdeal.main_arg3) := rfl

/-- The second region finds in `main_v0` what the first left there, and `arg3` as launched. -/
theorem V1_v0 : Cert.KernelIdeal.Gen.V1 m outs c Cert.KernelIdeal.main_v0 = outs 1 Cert.KernelIdeal.main_v0 c := by
  simp only [Cert.KernelIdeal.Gen.V1, Function.update_self]
theorem V1_arg2 : Cert.KernelIdeal.Gen.V1 m outs c Cert.KernelIdeal.main_arg2 = m ((c.tc : Thread Cert.KernelIdeal.nD Cert.KernelIdeal.τ).loc Cert.KernelIdeal.main_arg2) :=
  (Cert.KernelIdeal.Gen.V1_of m outs c Cert.KernelIdeal.main_arg2 (by decide)).trans <| rfl
theorem V1_arg3 : Cert.KernelIdeal.Gen.V1 m outs c Cert.KernelIdeal.main_arg3 = m ((c.tc : Thread Cert.KernelIdeal.nD Cert.KernelIdeal.τ).loc Cert.KernelIdeal.main_arg3) :=
  (Cert.KernelIdeal.Gen.V1_of m outs c Cert.KernelIdeal.main_arg3 (by decide)).trans <| rfl

/-- The third region finds in `main_v1` what the second left there. -/
theorem V4_v1 : Cert.KernelIdeal.Gen.V4 m outs c Cert.KernelIdeal.main_v1 = outs 2 Cert.KernelIdeal.main_v1 c :=
  (Cert.KernelIdeal.Gen.V4_of m outs c Cert.KernelIdeal.main_v1 (by decide)).trans <| (Cert.KernelIdeal.Gen.V3_of m outs c Cert.KernelIdeal.main_v1 (by decide)).trans <| by
    simp only [Cert.KernelIdeal.Gen.V2, Function.update_self]
theorem V4_arg2 : Cert.KernelIdeal.Gen.V4 m outs c Cert.KernelIdeal.main_arg2 = m ((c.tc : Thread Cert.KernelIdeal.nD Cert.KernelIdeal.τ).loc Cert.KernelIdeal.main_arg2) :=
  (Cert.KernelIdeal.Gen.V4_of m outs c Cert.KernelIdeal.main_arg2 (by decide)).trans <| (Cert.KernelIdeal.Gen.V3_of m outs c Cert.KernelIdeal.main_arg2 (by decide)).trans <| (Cert.KernelIdeal.Gen.V2_of m outs c Cert.KernelIdeal.main_arg2 (by decide)).trans <| (Cert.KernelIdeal.Gen.V1_of m outs c Cert.KernelIdeal.main_arg2 (by decide)).trans <| rfl
theorem V4_arg3 : Cert.KernelIdeal.Gen.V4 m outs c Cert.KernelIdeal.main_arg3 = m ((c.tc : Thread Cert.KernelIdeal.nD Cert.KernelIdeal.τ).loc Cert.KernelIdeal.main_arg3) :=
  (Cert.KernelIdeal.Gen.V4_of m outs c Cert.KernelIdeal.main_arg3 (by decide)).trans <| (Cert.KernelIdeal.Gen.V3_of m outs c Cert.KernelIdeal.main_arg3 (by decide)).trans <| (Cert.KernelIdeal.Gen.V2_of m outs c Cert.KernelIdeal.main_arg3 (by decide)).trans <| (Cert.KernelIdeal.Gen.V1_of m outs c Cert.KernelIdeal.main_arg3 (by decide)).trans <| rfl

/-- The third region finds `max (arg0 · arg4) 0` in `main_v3`. -/
theorem kernel_v3 : Cert.KernelIdeal.Gen.V4 m outs c Cert.KernelIdeal.main_v3 = hh (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  refine (after21_v3 (Cert.KernelIdeal.Gen.V2 m outs c)).trans ?_
  rw [V2_arg0 m outs c, V2_arg4 m outs c]

/-- The host operations after the third region find in `main_v4` what that region left there. -/
theorem V7_v4 : Cert.KernelIdeal.Gen.V7 m outs c Cert.KernelIdeal.main_v4 = outs 5 Cert.KernelIdeal.main_v4 c :=
  (Cert.KernelIdeal.Gen.V7_of m outs c Cert.KernelIdeal.main_v4 (by decide)).trans <| (Cert.KernelIdeal.Gen.V6_of m outs c Cert.KernelIdeal.main_v4 (by decide)).trans <| by
    simp only [Cert.KernelIdeal.Gen.V5, Function.update_self]

theorem V7_v10 : Cert.KernelIdeal.Gen.V7 m outs c Cert.KernelIdeal.main_v10 = srcIdx (F := F) (m ((c.tc : Thread Cert.KernelIdeal.nD Cert.KernelIdeal.τ).loc Cert.KernelIdeal.main_arg1)) :=
  (Cert.KernelIdeal.Gen.V7_of m outs c Cert.KernelIdeal.main_v10 (by decide)).trans <| (after3_v10 (Cert.KernelIdeal.Gen.V5 m outs c)).trans <| by rw [V5_arg1 m outs c]
theorem V7_v11 : Cert.KernelIdeal.Gen.V7 m outs c Cert.KernelIdeal.main_v11 = dstIdx (F := F) (m ((c.tc : Thread Cert.KernelIdeal.nD Cert.KernelIdeal.τ).loc Cert.KernelIdeal.main_arg1)) :=
  (Cert.KernelIdeal.Gen.V7_of m outs c Cert.KernelIdeal.main_v11 (by decide)).trans <| (after3_v11 (Cert.KernelIdeal.Gen.V5 m outs c)).trans <| by rw [V5_arg1 m outs c]
theorem V7_v21 : Cert.KernelIdeal.Gen.V7 m outs c Cert.KernelIdeal.main_v21 = degInvSqrt (dstIdx (F := F) (m ((c.tc : Thread Cert.KernelIdeal.nD Cert.KernelIdeal.τ).loc Cert.KernelIdeal.main_arg1))) :=
  (after31_v21 (Cert.KernelIdeal.Gen.V5 m outs c)).trans <| by rw [V5_arg1 m outs c]

/-- The kernel program's result is `tail` at what its last region left in `main_v4`. -/
theorem kernel_result : Cert.KernelIdeal.Gen.V8 m outs c Cert.KernelIdeal.main_v60 =
    tail (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (outs 5 Cert.KernelIdeal.main_v4 c) := by
  refine (after32_v60 (Cert.KernelIdeal.Gen.V7 m outs c)).trans ?_
  rw [V7_arg0 m outs c, V7_arg5 m outs c, V7_arg6 m outs c, V7_arg7 m outs c, V7_arg8 m outs c, V7_v10 m outs c, V7_v11 m outs c,
    V7_v21 m outs c, V7_v4 m outs c]
  rfl

end Valuations

end Cert.Bridge

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.ResultEq.lean ====
/- The kernel program's last product is the reference's.

   Each of the kernel program's three regions leaves a matrix product, entry by entry the full dot product over the
   contraction axis: `o0 = arg3 · arg2`, `o1 = o0 · arg3`, `o2 = o1 · relu(arg0 · arg4)`. At the extended reals the host's
   `dot_general` is that same sum entry by entry, so `o2` is the reference's nested product, and the two results — the
   common host computation `tail` applied to each — are equal by congruence in `tail`'s last argument. -/
import proofs.«141484_j24618752540870_1_alg».proof.Proof.HostTail
import proofs.«141484_j24618752540870_1_alg».proof.Proof.LibMatmulRowsByCols

noncomputable section

namespace Cert.Bridge

open Cert.ReferenceIdeal Cert.ReferenceIdeal.Gen Idealize.ShloMosaic Idealize.ShloMosaic.ValueIdx

/-- Three arrays that are, entry by entry, the products `a3 · a2`, `o0 · a3` and `o1 · hh a0 a4` compose to the reference's
    nested `dot_general`: an array is determined by its entries, and each entry of a `dot_general` at the extended reals is
    the dot product of a row with a column. -/
theorem last_product_eq
    (a0 : (⟨S4096x256, .f32⟩ : BufTy).Contents (Elt Ideal)) (a2 a3 : (⟨S4096x4096, .f32⟩ : BufTy).Contents (Elt Ideal)) (a4 : (⟨S256x256, .f32⟩ : BufTy).Contents (Elt Ideal))
    (o0 o1 : (⟨S4096x4096, .f32⟩ : BufTy).Contents (Elt Ideal)) (o2 : (⟨S4096x256, .f32⟩ : BufTy).Contents (Elt Ideal))
    (h0 : ∀ (r : Fin 4096) (s : Fin 4096), o0 (ix2 r s) = ∑ k : Fin 4096, a3 (ix2 r k) * a2 (ix2 k s))
    (h1 : ∀ (r : Fin 4096) (s : Fin 4096), o1 (ix2 r s) = ∑ k : Fin 4096, o0 (ix2 r k) * a3 (ix2 k s))
    (h2 : ∀ (r : Fin 4096) (s : Fin 256), o2 (ix2 r s) = ∑ k : Fin 4096, o1 (ix2 r k) * hh (F := Ideal) a0 a4 (ix2 k s)) :
    o2 = Host.dotGeneral (F := Ideal) (φ₁ := .f32) (φ₂ := .f32) dot_S4096x4096_S4096x256_S4096x256_1_0_0_1_n_n none
          (Host.dotGeneral (F := Ideal) (φ₁ := .f32) (φ₂ := .f32) dot_S4096x4096_S4096x4096_S4096x4096_1_0_0_1_n_n none
            (Host.dotGeneral (F := Ideal) (φ₁ := .f32) (φ₂ := .f32) dot_S4096x4096_S4096x4096_S4096x4096_1_0_0_1_n_n none a3 a2) a3)
          (hh (F := Ideal) a0 a4) := by
  have e0 : o0 = Host.dotGeneral (F := Ideal) (φ₁ := .f32) (φ₂ := .f32) dot_S4096x4096_S4096x4096_S4096x4096_1_0_0_1_n_n none a3 a2 := by
    funext j
    obtain ⟨r, s, rfl⟩ : ∃ (r : Fin 4096) (s : Fin 4096), j = ix2 r s := ⟨j 0, j 1, eq_ix2 j⟩
    rw [h0, Cert.RowsByCols.dotGeneral_apply _ ⟨rfl, rfl, rfl, rfl, rfl, rfl⟩]
  have e1 : o1 = Host.dotGeneral (F := Ideal) (φ₁ := .f32) (φ₂ := .f32) dot_S4096x4096_S4096x4096_S4096x4096_1_0_0_1_n_n none o0 a3 := by
    funext j
    obtain ⟨r, s, rfl⟩ : ∃ (r : Fin 4096) (s : Fin 4096), j = ix2 r s := ⟨j 0, j 1, eq_ix2 j⟩
    rw [h1, Cert.RowsByCols.dotGeneral_apply _ ⟨rfl, rfl, rfl, rfl, rfl, rfl⟩]
  have e2 : o2 = Host.dotGeneral (F := Ideal) (φ₁ := .f32) (φ₂ := .f32) dot_S4096x4096_S4096x256_S4096x256_1_0_0_1_n_n none o1 (hh (F := Ideal) a0 a4) := by
    funext j
    obtain ⟨r, s, rfl⟩ : ∃ (r : Fin 4096) (s : Fin 256), j = ix2 r s := ⟨j 0, j 1, eq_ix2 j⟩
    rw [h2, Cert.RowsByCols.dotGeneral_apply _ ⟨rfl, rfl, rfl, rfl, rfl, rfl⟩]
  rw [e2, e1, e0]

/-- The two programs' results are equal: `tail` at what the kernel program's last region leaves, and `tail` at the
    reference's nested product. -/
theorem result_eq
    (a0 : (⟨S4096x256, .f32⟩ : BufTy).Contents (Elt Ideal)) (a1 : (⟨S2x131072, .i32⟩ : BufTy).Contents (Elt Ideal)) (a2 a3 : (⟨S4096x4096, .f32⟩ : BufTy).Contents (Elt Ideal))
    (a4 a5 : (⟨S256x256, .f32⟩ : BufTy).Contents (Elt Ideal)) (a6 : (⟨S256, .f32⟩ : BufTy).Contents (Elt Ideal)) (a7 a8 : (⟨S1, .f32⟩ : BufTy).Contents (Elt Ideal))
    (o0 o1 : (⟨S4096x4096, .f32⟩ : BufTy).Contents (Elt Ideal)) (o2 : (⟨S4096x256, .f32⟩ : BufTy).Contents (Elt Ideal))
    (h0 : ∀ (r : Fin 4096) (s : Fin 4096), o0 (ix2 r s) = ∑ k : Fin 4096, a3 (ix2 r k) * a2 (ix2 k s))
    (h1 : ∀ (r : Fin 4096) (s : Fin 4096), o1 (ix2 r s) = ∑ k : Fin 4096, o0 (ix2 r k) * a3 (ix2 k s))
    (h2 : ∀ (r : Fin 4096) (s : Fin 256), o2 (ix2 r s) = ∑ k : Fin 4096, o1 (ix2 r k) * hh (F := Ideal) a0 a4 (ix2 k s)) :
    tail (F := Ideal) a0 a1 a5 a6 a7 a8 o2
      = tail (F := Ideal) a0 a1 a5 a6 a7 a8
          (Host.dotGeneral (F := Ideal) (φ₁ := .f32) (φ₂ := .f32) dot_S4096x4096_S4096x256_S4096x256_1_0_0_1_n_n none
            (Host.dotGeneral (F := Ideal) (φ₁ := .f32) (φ₂ := .f32) dot_S4096x4096_S4096x4096_S4096x4096_1_0_0_1_n_n none
              (Host.dotGeneral (F := Ideal) (φ₁ := .f32) (φ₂ := .f32) dot_S4096x4096_S4096x4096_S4096x4096_1_0_0_1_n_n none a3 a2) a3)
            (hh (F := Ideal) a0 a4)) :=
  congrArg (tail (F := Ideal) a0 a1 a5 a6 a7 a8) (last_product_eq a0 a2 a3 a4 o0 o1 o2 h0 h1 h2)

end Cert.Bridge

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.KI.Value0.lean ====
import proofs.«141484_j24618752540870_1_alg».proof.Proof.KI.Region0
import Idealize.ShloMosaic.Lib.Pipeline.Value
import Idealize.ShloMosaic.Lib.ValueIdx
import Idealize.ShloMosaic.PureOps.Ideal.Laws
import proofs.«141484_j24618752540870_1_alg».proof.Proof.LibMatmulRowsByCols
import proofs.«141484_j24618752540870_1_alg».proof.Proof.LibTileSum

/-!
  Matmul region 0, the value: what the accumulator and the output tile hold, as the body's arithmetic of the
  operand tiles.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz0 : (![0, 0] : Fin 2 → Nat) = fun _ => 0 := funext fun a => by fin_cases a <;> rfl

/-- A middle step leaves the accumulator at the previous contents plus the product of the two tiles. -/
theorem accMid0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : ¬last0 i) (x0 : Vec F S1024x1024 .f32) (x1 : Vec F S1024x1024 .f32) (xs : Vec F S1024x1024 .f32) :
    accMid0 c i arg3 harg3 arg4 harg4 arg5 harg5 arg6 harg6 hc0 hc1 x0 x1 xs = k0_pay2 x0 x1 xs := by
  unfold accMid0
  rw [View.read_writes_eq_canon _ _ _ (coverMid0 c i arg3 harg3 arg4 harg4 arg5 harg5 arg6 harg6 hc0 hc1 x0 x1 xs)]
  unfold runMid0
  dsimp only
  rw [View.canon_unit_zero hz0]
  simp only [View.readAt_eq_ld, harg3.read_unread, harg4.read_unread, harg6.read_unread, View.ld_unit_zero (S := S1024x1024) hz0, View.ld_unit_zero (S := S1024x1024) hz0]

/-- A first step leaves the zero tile plus the product. -/
theorem accFirst0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first0 i) (hc1 : ¬last0 i) (x0 : Vec F S1024x1024 .f32) (x1 : Vec F S1024x1024 .f32) :
    accFirst0 c i arg3 harg3 arg4 harg4 arg5 harg5 arg6 harg6 hc0 hc1 x0 x1 = k0_pay2 x0 x1 (k0_pay1 (F := F)) := by
  unfold accFirst0
  rw [View.read_writes_eq_canon _ _ _ (coverFirst0 c i arg3 harg3 arg4 harg4 arg5 harg5 arg6 harg6 hc0 hc1 x0 x1)]
  unfold runFirst0
  dsimp only
  sl_unfold_words
  rw [View.canon_cons_unit_zero (S := S1024x1024) hz0, View.readCov_unit_zero (S := S1024x1024) _ hz0]
  simp only [View.readAt_eq_ld, harg3.read_unread, harg4.read_unread, harg6.read_unread, View.ld_unit_zero (S := S1024x1024) hz0, View.ld_unit_zero (S := S1024x1024) hz0]

/-- A last step leaves the accumulator as a middle step does, -/
theorem accLast0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) :
    accLast0 c i arg3 harg3 arg4 harg4 arg5 harg5 arg6 harg6 hc0 hc1 x0 x1 xs = k0_pay2 x0 x1 xs := by
  unfold accLast0
  rw [View.read_writes_eq_canon _ _ _ (coverLastS0 c i arg3 harg3 arg4 harg4 arg5 harg5 arg6 harg6 hc0 hc1 x0 x1 xs)]
  unfold runLast0
  dsimp only
  sl_unfold_words
  rw [View.canon_unit_zero hz0]
  simp only [View.readAt_eq_ld, harg3.read_unread, harg4.read_unread, harg6.read_unread, View.ld_unit_zero (S := S1024x1024) hz0, View.ld_unit_zero (S := S1024x1024) hz0]

/-- and copies it to the output tile. -/
theorem outLast0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first0 i) (hc1 : last0 i) (x0 : Vec F S1024x1024 .f32) (x1 : Vec F S1024x1024 .f32) (xs : Vec F S1024x1024 .f32) :
    outLast0 c i arg3 harg3 arg4 harg4 arg5 harg5 arg6 harg6 hc0 hc1 x0 x1 xs = k0_pay2 x0 x1 xs := by
  unfold outLast0
  rw [View.read_writes_eq_canon _ _ _ (coverLastO0 c i arg3 harg3 arg4 harg4 arg5 harg5 arg6 harg6 hc0 hc1 x0 x1 xs)]
  unfold runLast0
  dsimp only
  sl_unfold_words
  rw [View.canon_unit_zero hz0, View.readCov_unit_zero (S := S1024x1024) _ hz0]
  simp only [View.readAt_eq_ld, harg3.read_unread, harg4.read_unread, harg6.read_unread, View.ld_unit_zero (S := S1024x1024) hz0, View.ld_unit_zero (S := S1024x1024) hz0]

/-! ## The arithmetic over the extended reals -/

/-- The zero tile. -/
theorem pay10_apply (j : S1024x1024.Idx) : k0_pay1 (F := Ideal) j = 0 := by
  unfold k0_pay1
  simp only [shapeCast_self, broadcast]
  exact Ideal.ofBits_zero_f32

/-- One step's arithmetic at an entry: the previous contents plus the row of the left tile against the column of
    the right tile (a change of float format is the identity over the extended reals). -/
theorem pay20_apply (x0 : Vec Ideal S1024x1024 .f32) (x1 : Vec Ideal S1024x1024 .f32) (xs : Vec Ideal S1024x1024 .f32) (p : Fin 1024) (q : Fin 1024) :
    k0_pay2 x0 x1 xs (ValueIdx.ix2 p q) = xs (ValueIdx.ix2 p q) + ∑ k : Fin 1024, x0 (ValueIdx.ix2 p k) * x1 (ValueIdx.ix2 k q) := by
  unfold k0_pay2
  simp only [shapeCast_self]
  rw [ValueIdx.addf_apply, Cert.RowsByCols.matmul_zero_apply _ ⟨rfl, rfl, rfl, rfl, rfl, rfl⟩]
  rfl

/-! ## The tiles as parts of the arrays -/

/-- The windows' index maps over the grid, decided once: the left operand's tile is (row block, step), the right
    operand's (step, column block), the output's (row block, column block). -/
theorem idx0 : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4)

variable (V : (c : Dev nD) → (b : Ref sig .tc) → Buf (Elt Ideal) ((c : Thread nD τ).loc b))

/-- The two operand arrays as the region finds them, at their literal shapes. -/
def lhs0 (c : Dev nD) : (⟨2, ![4096, 4096]⟩ : Shape).Idx → EReal := V c (Pipeline.arrRef spec0 0)
def rhs0 (c : Dev nD) : (⟨2, ![4096, 4096]⟩ : Shape).Idx → EReal := V c (Pipeline.arrRef spec0 1)

/-- An entry of the left operand's tile is the left array's entry at (row block · 1024 + p, step · 1024 + k). -/
theorem iblk0_0_apply (c : Dev nD) (t : Fin cfg0.N) (p k : Fin 1024) (R C : Fin 4096)
    (hR : R.val = 1024 * (t.val / 16) + p.val) (hC : C.val = 1024 * (t.val % 4) + k.val) :
    (iblk0 V c 0 t : Vec Ideal S1024x1024 .f32) (ValueIdx.ix2 p k) = lhs0 V c (ValueIdx.ix2 R C) := by
  unfold iblk0 lhs0
  rw [View.read_apply]
  show V c (Pipeline.arrRef spec0 0) (((cfg0.win 0).blk t).view.emb (ValueIdx.ix2 p k)) = _
  refine congrArg _ (funext fun a => Fin.ext ?_)
  obtain ⟨h00, h01, -⟩ := idx0 t
  match a with
  | ⟨0, _⟩ => show win0_0.index t 0 * 1024 + 1 * p.val = R.val; rw [h00, hR]; omega
  | ⟨1, _⟩ => show win0_0.index t 1 * 1024 + 1 * k.val = C.val; rw [h01, hC]; omega

/-- An entry of the right operand's tile is the right array's entry at (step · 1024 + k, column block · 1024 + q). -/
theorem iblk0_1_apply (c : Dev nD) (t : Fin cfg0.N) (k : Fin 1024) (q : Fin 1024) (R : Fin 4096) (C : Fin 4096)
    (hR : R.val = 1024 * (t.val % 4) + k.val) (hC : C.val = 1024 * (t.val / 4 % 4) + q.val) :
    (iblk0 V c 1 t : Vec Ideal S1024x1024 .f32) (ValueIdx.ix2 k q) = rhs0 V c (ValueIdx.ix2 R C) := by
  unfold iblk0 rhs0
  rw [View.read_apply]
  show V c (Pipeline.arrRef spec0 1) (((cfg0.win 1).blk t).view.emb (ValueIdx.ix2 k q)) = _
  refine congrArg _ (funext fun a => Fin.ext ?_)
  obtain ⟨-, -, h10, h11, -⟩ := idx0 t
  match a with
  | ⟨0, _⟩ => show win0_1.index t 0 * 1024 + 1 * k.val = R.val; rw [h10, hR]; omega
  | ⟨1, _⟩ => show win0_1.index t 1 * 1024 + 1 * q.val = C.val; rw [h11, hC]; omega

/-- The product of the left array's entry (r, k) with the right array's entry (k, s), by position; zero off the arrays. -/
def term0 (c : Dev nD) (r s k : ℕ) : EReal :=
  if h : r < 4096 ∧ s < 4096 ∧ k < 4096 then
    lhs0 V c (ValueIdx.ix2 (⟨r, h.1⟩ : Fin 4096) (⟨k, h.2.2⟩ : Fin 4096))
      * rhs0 V c (ValueIdx.ix2 (⟨k, h.2.2⟩ : Fin 4096) (⟨s, h.2.1⟩ : Fin 4096))
  else 0

/-- One term of a tile product, as a term of the arrays. -/
theorem tile_term0 (c : Dev nD) (t : Fin cfg0.N) (p : Fin 1024) (q : Fin 1024) (k : Fin 1024)
    (x0 : Vec Ideal S1024x1024 .f32) (x1 : Vec Ideal S1024x1024 .f32) (e0 : x0 = iblk0 V c 0 t) (e1 : x1 = iblk0 V c 1 t) :
    x0 (ValueIdx.ix2 p k) * x1 (ValueIdx.ix2 k q)
      = term0 V c (1024 * (t.val / 16) + p.val) (1024 * (t.val / 4 % 4) + q.val) (1024 * (t.val % 4) + k.val) := by
  have hN : t.val < 64 := lt_of_lt_of_eq t.isLt (show cfg0.N = 64 from N_0)
  have hb : 1024 * (t.val / 16) + p.val < 4096 ∧ 1024 * (t.val / 4 % 4) + q.val < 4096 ∧ 1024 * (t.val % 4) + k.val < 4096 := by
    refine ⟨?_, ?_, ?_⟩ <;> omega
  subst e0 e1
  unfold term0
  rw [dif_pos hb, iblk0_0_apply V c t p k ⟨_, hb.1⟩ ⟨_, hb.2.2⟩ rfl rfl, iblk0_1_apply V c t k q ⟨_, hb.2.2⟩ ⟨_, hb.2.1⟩ rfl rfl]

theorem accAt0_congr (c : Dev nD) {n n' : ℕ} (e : n = n') (hn : n < cfg0.N) (hn' : n' < cfg0.N) :
    accAt0 V c n hn = accAt0 V c n' hn' := by subst e; rfl

/-- THE ACCUMULATOR IN CLOSED FORM. At step `kk` of the tile pair `u` the accumulator's entry (p, q) is the sum, over
    the steps so far, of the tile products' entries: the terms of the arrays' product at row (row block)·1024 + p and
    column (column block)·1024 + q whose contracted position lies in the first kk + 1 tiles. By induction on the step. -/
theorem acc0_closed (c : Dev nD) (u : ℕ) (p : Fin 1024) (q : Fin 1024) : ∀ (kk : ℕ) (hk : kk < 4) (hn : 4 * u + kk < cfg0.N),
    accAt0 V c (4 * u + kk) hn (ValueIdx.ix2 p q)
      = ∑ s ∈ Finset.range (kk + 1), ∑ k : Fin 1024, term0 V c (1024 * (u / 4) + p.val) (1024 * (u % 4) + q.val) (1024 * s + k.val)
  | 0, hk, hn => by
    have hN : cfg0.N = 64 := N_0
    have h0 : (⟨4 * u + 0, hn⟩ : Fin cfg0.N).val % 4 = 0 := by dsimp only; omega
    have h1 : ¬(⟨4 * u + 0, hn⟩ : Fin cfg0.N).val % 4 = 3 := by dsimp only; omega
    have e := accAt0_first V c ⟨4 * u + 0, hn⟩ h0 h1
    dsimp only at e
    rw [e, accFirst0_eq, pay20_apply, pay10_apply, zero_add, Finset.sum_range_one]
    refine Finset.sum_congr rfl fun k _ => ?_
    rw [tile_term0 V c _ p q k _ _ rfl rfl]
    congr 1 <;> (dsimp only; omega)
  | kk + 1, hk, hn => by
    have hN : cfg0.N = 64 := N_0
    have h0 : ¬(⟨4 * u + (kk + 1), hn⟩ : Fin cfg0.N).val % 4 = 0 := by dsimp only; omega
    have ih := acc0_closed c u p q kk (by omega) (by omega)
    have hprev : accPrev0 V c ⟨4 * u + (kk + 1), hn⟩ = accAt0 V c (4 * u + kk) (by omega) :=
      accAt0_congr V c (by dsimp only; omega) _ _
    rw [Finset.sum_range_succ, ← ih, ← hprev]
    by_cases h1 : (⟨4 * u + (kk + 1), hn⟩ : Fin cfg0.N).val % 4 = 3
    · have e := accAt0_last V c ⟨4 * u + (kk + 1), hn⟩ h0 h1
      dsimp only at e
      rw [e, accLast0_eq, pay20_apply]
      congr 1
      refine Finset.sum_congr rfl fun k _ => ?_
      rw [tile_term0 V c _ p q k _ _ rfl rfl]
      congr 1 <;> (dsimp only; omega)
    · have e := accAt0_mid V c ⟨4 * u + (kk + 1), hn⟩ h0 h1
      dsimp only at e
      rw [e, accMid0_eq, pay20_apply]
      congr 1
      refine Finset.sum_congr rfl fun k _ => ?_
      rw [tile_term0 V c _ p q k _ _ rfl rfl]
      congr 1 <;> (dsimp only; omega)

/-- The whole product of the two arrays: entry (r, s) is the sum over the contracted position. -/
def prod0 (c : Dev nD) : (⟨2, ![4096, 4096]⟩ : Shape).Idx → EReal :=
  fun j => ∑ k : Fin 4096, lhs0 V c (ValueIdx.ix2 (j 0) k) * rhs0 V c (ValueIdx.ix2 k (j 1))

/-- The contracted sum, tile by tile, is the contracted sum. -/
theorem prod0_tiles (c : Dev nD) (r : Fin 4096) (s : Fin 4096) :
    ∑ st ∈ Finset.range 4, ∑ k : Fin 1024, term0 V c r.val s.val (1024 * st + k.val) = prod0 V c (ValueIdx.ix2 r s) := by
  rw [Cert.TileSum.sum_tiles 1024 (term0 V c r.val s.val) 4]
  show ∑ k : Fin 4096, term0 V c r.val s.val k.val = ∑ k : Fin 4096, lhs0 V c (ValueIdx.ix2 r k) * rhs0 V c (ValueIdx.ix2 k s)
  refine Finset.sum_congr rfl fun k _ => ?_
  unfold term0
  rw [dif_pos ⟨r.isLt, s.isLt, k.isLt⟩]

/-- The output tile a last step leaves is the product's tile: entry (p, q) of the tile of point `t` is the product's
    entry at (row block · 1024 + p, column block · 1024 + q). -/
theorem out0_entry (c : Dev nD) (t : Fin cfg0.N) (h3 : t.val % 4 = 3) (p : Fin 1024) (q : Fin 1024) (R : Fin 4096) (S : Fin 4096)
    (hR : R.val = 1024 * (t.val / 16) + p.val) (hS : S.val = 1024 * (t.val / 4 % 4) + q.val) :
    k0_pay2 (iblk0 V c 0 t) (iblk0 V c 1 t) (accPrev0 V c t) (ValueIdx.ix2 p q) = prod0 V c (ValueIdx.ix2 R S) := by
  have hN : cfg0.N = 64 := N_0
  have h0 : ¬ t.val % 4 = 0 := by omega
  have hu : 4 * (t.val / 4) + 3 = t.val := by omega
  have e1 : k0_pay2 (iblk0 V c 0 t) (iblk0 V c 1 t) (accPrev0 V c t) = accAt0 V c t.val t.isLt :=
    ((accAt0_last V c t h0 h3).trans (accLast0_eq ..)).symm
  rw [e1, accAt0_congr V c hu.symm t.isLt (by omega), acc0_closed V c (t.val / 4) p q 3 (by omega) (by omega), ← prod0_tiles]
  refine Finset.sum_congr rfl fun st _ => Finset.sum_congr rfl fun k _ => ?_
  congr 1 <;> omega

/-- What a last step writes back is the product's tile. -/
theorem flushed0_eq (c : Dev nD) (t : Fin cfg0.N) (hf : (cfg0.win 2).flush t = true) :
    (dat0 V c).flushed 2 t = ((cfg0.win 2).blk t).view.read (Elt Ideal) (prod0 V c) := by
  have hN : cfg0.N = 64 := N_0
  have h3 : t.val % 4 = 3 := (flush0_2 t).mp hf
  have h0 : ¬ t.val % 4 = 0 := by omega
  show (cfg0.win 2).cut (grid0.coords t) ((dat0 V c).after 2 t) = _
  rw [after0_2, outAt0_last V c t h0 h3, outLast0_eq]
  show (k0_pay2 (iblk0 V c 0 t) (iblk0 V c 1 t) (accPrev0 V c t) : Vec Ideal S1024x1024 .f32) = _
  funext y
  obtain ⟨p, q, rfl⟩ : ∃ (p : Fin 1024) (q : Fin 1024), y = ValueIdx.ix2 p q := ⟨y 0, y 1, ValueIdx.eq_ix2 y⟩
  have hb : 1024 * (t.val / 16) + p.val < 4096 ∧ 1024 * (t.val / 4 % 4) + q.val < 4096 := by
    refine ⟨?_, ?_⟩ <;> omega
  rw [out0_entry V c t h3 p q ⟨_, hb.1⟩ ⟨_, hb.2⟩ rfl rfl, View.read_apply]
  show _ = prod0 V c (((cfg0.win 2).blk t).view.emb (ValueIdx.ix2 p q))
  refine congrArg _ (funext fun a => Fin.ext ?_)
  obtain ⟨-, -, -, -, h20, h21⟩ := idx0 t
  match a with
  | ⟨0, _⟩ => show 1024 * (t.val / 16) + p.val = win0_2.index t 0 * 1024 + 1 * p.val; rw [h20]; omega
  | ⟨1, _⟩ => show 1024 * (t.val / 4 % 4) + q.val = win0_2.index t 1 * 1024 + 1 * q.val; rw [h21]; omega

/-- The output window's tiles have their full extents at every point. -/
theorem xsize0_2 : ∀ t : Fin cfg0.N, win0_2.xsize (grid0.coords t) (0 : Fin 2) = 1024 ∧ win0_2.xsize (grid0.coords t) (1 : Fin 2) = 1024 :=
  (by decide +kernel : ∀ t : Fin grid0.N, win0_2.xsize (grid0.coords t) (0 : Fin 2) = 1024 ∧ win0_2.xsize (grid0.coords t) (1 : Fin 2) = 1024)

/-- THE ARRAY THE REGION WRITES ends holding the whole product: every entry lies in the tile of its row block and
    column block, which the last step of that tile pair writes back. -/
theorem final0_arr (c : Dev nD) : (dat0 V c).arrAt 2 cfg0.N = prod0 V c :=
  (dat0 V c).arrAt_eq_of_cover 2 (prod0 V c) (flushed0_eq V c) fun i => by
    have hN : cfg0.N = 64 := N_0
    have hi0 : (i 0 : Nat) < 4096 := (i 0).isLt
    have hi1 : (i 1 : Nat) < 4096 := (i 1).isLt
    have ht : 16 * ((i 0 : Nat) / 1024) + 4 * ((i 1 : Nat) / 1024) + 3 < cfg0.N := by omega
    refine ⟨⟨16 * ((i 0 : Nat) / 1024) + 4 * ((i 1 : Nat) / 1024) + 3, ht⟩, (flush0_2 _).mpr (by dsimp only; omega), ?_⟩
    show i ∈ ((View.whole main_v0).slice (win0_2.rect ⟨16 * ((i 0 : Nat) / 1024) + 4 * ((i 1 : Nat) / 1024) + 3, ht⟩)).set
    rw [View.set_slice_whole, Rect.mem_set_unit]
    intro a
    obtain ⟨-, -, -, -, h20, h21⟩ := idx0 ⟨16 * ((i 0 : Nat) / 1024) + 4 * ((i 1 : Nat) / 1024) + 3, ht⟩
    obtain ⟨hx0, hx1⟩ := xsize0_2 ⟨16 * ((i 0 : Nat) / 1024) + 4 * ((i 1 : Nat) / 1024) + 3, ht⟩
    match a with
    | ⟨0, _⟩ =>
      show win0_2.index ⟨16 * ((i 0 : Nat) / 1024) + 4 * ((i 1 : Nat) / 1024) + 3, ht⟩ 0 * win0_2.size 0 ≤ (i 0 : Nat) ∧ (i 0 : Nat) < win0_2.index ⟨16 * ((i 0 : Nat) / 1024) + 4 * ((i 1 : Nat) / 1024) + 3, ht⟩ 0 * win0_2.size 0 + win0_2.xsize (grid0.coords ⟨16 * ((i 0 : Nat) / 1024) + 4 * ((i 1 : Nat) / 1024) + 3, ht⟩) 0
      rw [h20, hx0, show win0_2.size 0 = 1024 from rfl]; dsimp only; omega
    | ⟨1, _⟩ =>
      show win0_2.index ⟨16 * ((i 0 : Nat) / 1024) + 4 * ((i 1 : Nat) / 1024) + 3, ht⟩ 1 * win0_2.size 1 ≤ (i 1 : Nat) ∧ (i 1 : Nat) < win0_2.index ⟨16 * ((i 0 : Nat) / 1024) + 4 * ((i 1 : Nat) / 1024) + 3, ht⟩ 1 * win0_2.size 1 + win0_2.xsize (grid0.coords ⟨16 * ((i 0 : Nat) / 1024) + 4 * ((i 1 : Nat) / 1024) + 3, ht⟩) 1
      rw [h21, hx1, show win0_2.size 1 = 1024 from rfl]; dsimp only; omega

/-- Entry by entry: the region's result is the product of its two operand arrays. -/
theorem final0 (c : Dev nD) (r : Fin 4096) (s : Fin 4096) :
    (dat0 V c).arrAt 2 cfg0.N (ValueIdx.ix2 r s) = ∑ k : Fin 4096, lhs0 V c (ValueIdx.ix2 r k) * rhs0 V c (ValueIdx.ix2 k s) := by
  rw [final0_arr]; rfl

end Cert.KernelIdeal.Hand

end
-- ==== Proof.KI.Value1.lean ====
import proofs.«141484_j24618752540870_1_alg».proof.Proof.KI.Region1
import Idealize.ShloMosaic.Lib.Pipeline.Value
import Idealize.ShloMosaic.Lib.ValueIdx
import Idealize.ShloMosaic.PureOps.Ideal.Laws
import proofs.«141484_j24618752540870_1_alg».proof.Proof.LibMatmulRowsByCols
import proofs.«141484_j24618752540870_1_alg».proof.Proof.LibTileSum

/-!
  Matmul region 1, the value: what the accumulator and the output tile hold, as the body's arithmetic of the
  operand tiles.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz1 : (![0, 0] : Fin 2 → Nat) = fun _ => 0 := funext fun a => by fin_cases a <;> rfl

/-- A middle step leaves the accumulator at the previous contents plus the product of the two tiles. -/
theorem accMid1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : ¬last1 i) (x0 : Vec F S1024x1024 .f32) (x1 : Vec F S1024x1024 .f32) (xs : Vec F S1024x1024 .f32) :
    accMid1 c i arg3 harg3 arg4 harg4 arg5 harg5 arg6 harg6 hc0 hc1 x0 x1 xs = k1_pay2 x0 x1 xs := by
  unfold accMid1
  rw [View.read_writes_eq_canon _ _ _ (coverMid1 c i arg3 harg3 arg4 harg4 arg5 harg5 arg6 harg6 hc0 hc1 x0 x1 xs)]
  unfold runMid1
  dsimp only
  rw [View.canon_unit_zero hz1]
  simp only [View.readAt_eq_ld, harg3.read_unread, harg4.read_unread, harg6.read_unread, View.ld_unit_zero (S := S1024x1024) hz1, View.ld_unit_zero (S := S1024x1024) hz1]

/-- A first step leaves the zero tile plus the product. -/
theorem accFirst1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : first1 i) (hc1 : ¬last1 i) (x0 : Vec F S1024x1024 .f32) (x1 : Vec F S1024x1024 .f32) :
    accFirst1 c i arg3 harg3 arg4 harg4 arg5 harg5 arg6 harg6 hc0 hc1 x0 x1 = k1_pay2 x0 x1 (k1_pay1 (F := F)) := by
  unfold accFirst1
  rw [View.read_writes_eq_canon _ _ _ (coverFirst1 c i arg3 harg3 arg4 harg4 arg5 harg5 arg6 harg6 hc0 hc1 x0 x1)]
  unfold runFirst1
  dsimp only
  sl_unfold_words
  rw [View.canon_cons_unit_zero (S := S1024x1024) hz1, View.readCov_unit_zero (S := S1024x1024) _ hz1]
  simp only [View.readAt_eq_ld, harg3.read_unread, harg4.read_unread, harg6.read_unread, View.ld_unit_zero (S := S1024x1024) hz1, View.ld_unit_zero (S := S1024x1024) hz1]

/-- A last step leaves the accumulator as a middle step does, -/
theorem accLast1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) :
    accLast1 c i arg3 harg3 arg4 harg4 arg5 harg5 arg6 harg6 hc0 hc1 x0 x1 xs = k1_pay2 x0 x1 xs := by
  unfold accLast1
  rw [View.read_writes_eq_canon _ _ _ (coverLastS1 c i arg3 harg3 arg4 harg4 arg5 harg5 arg6 harg6 hc0 hc1 x0 x1 xs)]
  unfold runLast1
  dsimp only
  sl_unfold_words
  rw [View.canon_unit_zero hz1]
  simp only [View.readAt_eq_ld, harg3.read_unread, harg4.read_unread, harg6.read_unread, View.ld_unit_zero (S := S1024x1024) hz1, View.ld_unit_zero (S := S1024x1024) hz1]

/-- and copies it to the output tile. -/
theorem outLast1_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬first1 i) (hc1 : last1 i) (x0 : Vec F S1024x1024 .f32) (x1 : Vec F S1024x1024 .f32) (xs : Vec F S1024x1024 .f32) :
    outLast1 c i arg3 harg3 arg4 harg4 arg5 harg5 arg6 harg6 hc0 hc1 x0 x1 xs = k1_pay2 x0 x1 xs := by
  unfold outLast1
  rw [View.read_writes_eq_canon _ _ _ (coverLastO1 c i arg3 harg3 arg4 harg4 arg5 harg5 arg6 harg6 hc0 hc1 x0 x1 xs)]
  unfold runLast1
  dsimp only
  sl_unfold_words
  rw [View.canon_unit_zero hz1, View.readCov_unit_zero (S := S1024x1024) _ hz1]
  simp only [View.readAt_eq_ld, harg3.read_unread, harg4.read_unread, harg6.read_unread, View.ld_unit_zero (S := S1024x1024) hz1, View.ld_unit_zero (S := S1024x1024) hz1]

/-! ## The arithmetic over the extended reals -/

/-- The zero tile. -/
theorem pay11_apply (j : S1024x1024.Idx) : k1_pay1 (F := Ideal) j = 0 := by
  unfold k1_pay1
  simp only [shapeCast_self, broadcast]
  exact Ideal.ofBits_zero_f32

/-- One step's arithmetic at an entry: the previous contents plus the row of the left tile against the column of
    the right tile (a change of float format is the identity over the extended reals). -/
theorem pay21_apply (x0 : Vec Ideal S1024x1024 .f32) (x1 : Vec Ideal S1024x1024 .f32) (xs : Vec Ideal S1024x1024 .f32) (p : Fin 1024) (q : Fin 1024) :
    k1_pay2 x0 x1 xs (ValueIdx.ix2 p q) = xs (ValueIdx.ix2 p q) + ∑ k : Fin 1024, x0 (ValueIdx.ix2 p k) * x1 (ValueIdx.ix2 k q) := by
  unfold k1_pay2
  simp only [shapeCast_self]
  rw [ValueIdx.addf_apply, Cert.RowsByCols.matmul_zero_apply _ ⟨rfl, rfl, rfl, rfl, rfl, rfl⟩]
  rfl

/-! ## The tiles as parts of the arrays -/

/-- The windows' index maps over the grid, decided once: the left operand's tile is (row block, step), the right
    operand's (step, column block), the output's (row block, column block). -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4)

variable (V : (c : Dev nD) → (b : Ref sig .tc) → Buf (Elt Ideal) ((c : Thread nD τ).loc b))

/-- The two operand arrays as the region finds them, at their literal shapes. -/
def lhs1 (c : Dev nD) : (⟨2, ![4096, 4096]⟩ : Shape).Idx → EReal := V c (Pipeline.arrRef spec1 0)
def rhs1 (c : Dev nD) : (⟨2, ![4096, 4096]⟩ : Shape).Idx → EReal := V c (Pipeline.arrRef spec1 1)

/-- An entry of the left operand's tile is the left array's entry at (row block · 1024 + p, step · 1024 + k). -/
theorem iblk1_0_apply (c : Dev nD) (t : Fin cfg1.N) (p k : Fin 1024) (R C : Fin 4096)
    (hR : R.val = 1024 * (t.val / 16) + p.val) (hC : C.val = 1024 * (t.val % 4) + k.val) :
    (iblk1 V c 0 t : Vec Ideal S1024x1024 .f32) (ValueIdx.ix2 p k) = lhs1 V c (ValueIdx.ix2 R C) := by
  unfold iblk1 lhs1
  rw [View.read_apply]
  show V c (Pipeline.arrRef spec1 0) (((cfg1.win 0).blk t).view.emb (ValueIdx.ix2 p k)) = _
  refine congrArg _ (funext fun a => Fin.ext ?_)
  obtain ⟨h00, h01, -⟩ := idx1 t
  match a with
  | ⟨0, _⟩ => show win1_0.index t 0 * 1024 + 1 * p.val = R.val; rw [h00, hR]; omega
  | ⟨1, _⟩ => show win1_0.index t 1 * 1024 + 1 * k.val = C.val; rw [h01, hC]; omega

/-- An entry of the right operand's tile is the right array's entry at (step · 1024 + k, column block · 1024 + q). -/
theorem iblk1_1_apply (c : Dev nD) (t : Fin cfg1.N) (k : Fin 1024) (q : Fin 1024) (R : Fin 4096) (C : Fin 4096)
    (hR : R.val = 1024 * (t.val % 4) + k.val) (hC : C.val = 1024 * (t.val / 4 % 4) + q.val) :
    (iblk1 V c 1 t : Vec Ideal S1024x1024 .f32) (ValueIdx.ix2 k q) = rhs1 V c (ValueIdx.ix2 R C) := by
  unfold iblk1 rhs1
  rw [View.read_apply]
  show V c (Pipeline.arrRef spec1 1) (((cfg1.win 1).blk t).view.emb (ValueIdx.ix2 k q)) = _
  refine congrArg _ (funext fun a => Fin.ext ?_)
  obtain ⟨-, -, h10, h11, -⟩ := idx1 t
  match a with
  | ⟨0, _⟩ => show win1_1.index t 0 * 1024 + 1 * k.val = R.val; rw [h10, hR]; omega
  | ⟨1, _⟩ => show win1_1.index t 1 * 1024 + 1 * q.val = C.val; rw [h11, hC]; omega

/-- The product of the left array's entry (r, k) with the right array's entry (k, s), by position; zero off the arrays. -/
def term1 (c : Dev nD) (r s k : ℕ) : EReal :=
  if h : r < 4096 ∧ s < 4096 ∧ k < 4096 then
    lhs1 V c (ValueIdx.ix2 (⟨r, h.1⟩ : Fin 4096) (⟨k, h.2.2⟩ : Fin 4096))
      * rhs1 V c (ValueIdx.ix2 (⟨k, h.2.2⟩ : Fin 4096) (⟨s, h.2.1⟩ : Fin 4096))
  else 0

/-- One term of a tile product, as a term of the arrays. -/
theorem tile_term1 (c : Dev nD) (t : Fin cfg1.N) (p : Fin 1024) (q : Fin 1024) (k : Fin 1024)
    (x0 : Vec Ideal S1024x1024 .f32) (x1 : Vec Ideal S1024x1024 .f32) (e0 : x0 = iblk1 V c 0 t) (e1 : x1 = iblk1 V c 1 t) :
    x0 (ValueIdx.ix2 p k) * x1 (ValueIdx.ix2 k q)
      = term1 V c (1024 * (t.val / 16) + p.val) (1024 * (t.val / 4 % 4) + q.val) (1024 * (t.val % 4) + k.val) := by
  have hN : t.val < 64 := lt_of_lt_of_eq t.isLt (show cfg1.N = 64 from N_1)
  have hb : 1024 * (t.val / 16) + p.val < 4096 ∧ 1024 * (t.val / 4 % 4) + q.val < 4096 ∧ 1024 * (t.val % 4) + k.val < 4096 := by
    refine ⟨?_, ?_, ?_⟩ <;> omega
  subst e0 e1
  unfold term1
  rw [dif_pos hb, iblk1_0_apply V c t p k ⟨_, hb.1⟩ ⟨_, hb.2.2⟩ rfl rfl, iblk1_1_apply V c t k q ⟨_, hb.2.2⟩ ⟨_, hb.2.1⟩ rfl rfl]

theorem accAt1_congr (c : Dev nD) {n n' : ℕ} (e : n = n') (hn : n < cfg1.N) (hn' : n' < cfg1.N) :
    accAt1 V c n hn = accAt1 V c n' hn' := by subst e; rfl

/-- THE ACCUMULATOR IN CLOSED FORM. At step `kk` of the tile pair `u` the accumulator's entry (p, q) is the sum, over
    the steps so far, of the tile products' entries: the terms of the arrays' product at row (row block)·1024 + p and
    column (column block)·1024 + q whose contracted position lies in the first kk + 1 tiles. By induction on the step. -/
theorem acc1_closed (c : Dev nD) (u : ℕ) (p : Fin 1024) (q : Fin 1024) : ∀ (kk : ℕ) (hk : kk < 4) (hn : 4 * u + kk < cfg1.N),
    accAt1 V c (4 * u + kk) hn (ValueIdx.ix2 p q)
      = ∑ s ∈ Finset.range (kk + 1), ∑ k : Fin 1024, term1 V c (1024 * (u / 4) + p.val) (1024 * (u % 4) + q.val) (1024 * s + k.val)
  | 0, hk, hn => by
    have hN : cfg1.N = 64 := N_1
    have h0 : (⟨4 * u + 0, hn⟩ : Fin cfg1.N).val % 4 = 0 := by dsimp only; omega
    have h1 : ¬(⟨4 * u + 0, hn⟩ : Fin cfg1.N).val % 4 = 3 := by dsimp only; omega
    have e := accAt1_first V c ⟨4 * u + 0, hn⟩ h0 h1
    dsimp only at e
    rw [e, accFirst1_eq, pay21_apply, pay11_apply, zero_add, Finset.sum_range_one]
    refine Finset.sum_congr rfl fun k _ => ?_
    rw [tile_term1 V c _ p q k _ _ rfl rfl]
    congr 1 <;> (dsimp only; omega)
  | kk + 1, hk, hn => by
    have hN : cfg1.N = 64 := N_1
    have h0 : ¬(⟨4 * u + (kk + 1), hn⟩ : Fin cfg1.N).val % 4 = 0 := by dsimp only; omega
    have ih := acc1_closed c u p q kk (by omega) (by omega)
    have hprev : accPrev1 V c ⟨4 * u + (kk + 1), hn⟩ = accAt1 V c (4 * u + kk) (by omega) :=
      accAt1_congr V c (by dsimp only; omega) _ _
    rw [Finset.sum_range_succ, ← ih, ← hprev]
    by_cases h1 : (⟨4 * u + (kk + 1), hn⟩ : Fin cfg1.N).val % 4 = 3
    · have e := accAt1_last V c ⟨4 * u + (kk + 1), hn⟩ h0 h1
      dsimp only at e
      rw [e, accLast1_eq, pay21_apply]
      congr 1
      refine Finset.sum_congr rfl fun k _ => ?_
      rw [tile_term1 V c _ p q k _ _ rfl rfl]
      congr 1 <;> (dsimp only; omega)
    · have e := accAt1_mid V c ⟨4 * u + (kk + 1), hn⟩ h0 h1
      dsimp only at e
      rw [e, accMid1_eq, pay21_apply]
      congr 1
      refine Finset.sum_congr rfl fun k _ => ?_
      rw [tile_term1 V c _ p q k _ _ rfl rfl]
      congr 1 <;> (dsimp only; omega)

/-- The whole product of the two arrays: entry (r, s) is the sum over the contracted position. -/
def prod1 (c : Dev nD) : (⟨2, ![4096, 4096]⟩ : Shape).Idx → EReal :=
  fun j => ∑ k : Fin 4096, lhs1 V c (ValueIdx.ix2 (j 0) k) * rhs1 V c (ValueIdx.ix2 k (j 1))

/-- The contracted sum, tile by tile, is the contracted sum. -/
theorem prod1_tiles (c : Dev nD) (r : Fin 4096) (s : Fin 4096) :
    ∑ st ∈ Finset.range 4, ∑ k : Fin 1024, term1 V c r.val s.val (1024 * st + k.val) = prod1 V c (ValueIdx.ix2 r s) := by
  rw [Cert.TileSum.sum_tiles 1024 (term1 V c r.val s.val) 4]
  show ∑ k : Fin 4096, term1 V c r.val s.val k.val = ∑ k : Fin 4096, lhs1 V c (ValueIdx.ix2 r k) * rhs1 V c (ValueIdx.ix2 k s)
  refine Finset.sum_congr rfl fun k _ => ?_
  unfold term1
  rw [dif_pos ⟨r.isLt, s.isLt, k.isLt⟩]

/-- The output tile a last step leaves is the product's tile: entry (p, q) of the tile of point `t` is the product's
    entry at (row block · 1024 + p, column block · 1024 + q). -/
theorem out1_entry (c : Dev nD) (t : Fin cfg1.N) (h3 : t.val % 4 = 3) (p : Fin 1024) (q : Fin 1024) (R : Fin 4096) (S : Fin 4096)
    (hR : R.val = 1024 * (t.val / 16) + p.val) (hS : S.val = 1024 * (t.val / 4 % 4) + q.val) :
    k1_pay2 (iblk1 V c 0 t) (iblk1 V c 1 t) (accPrev1 V c t) (ValueIdx.ix2 p q) = prod1 V c (ValueIdx.ix2 R S) := by
  have hN : cfg1.N = 64 := N_1
  have h0 : ¬ t.val % 4 = 0 := by omega
  have hu : 4 * (t.val / 4) + 3 = t.val := by omega
  have e1 : k1_pay2 (iblk1 V c 0 t) (iblk1 V c 1 t) (accPrev1 V c t) = accAt1 V c t.val t.isLt :=
    ((accAt1_last V c t h0 h3).trans (accLast1_eq ..)).symm
  rw [e1, accAt1_congr V c hu.symm t.isLt (by omega), acc1_closed V c (t.val / 4) p q 3 (by omega) (by omega), ← prod1_tiles]
  refine Finset.sum_congr rfl fun st _ => Finset.sum_congr rfl fun k _ => ?_
  congr 1 <;> omega

/-- What a last step writes back is the product's tile. -/
theorem flushed1_eq (c : Dev nD) (t : Fin cfg1.N) (hf : (cfg1.win 2).flush t = true) :
    (dat1 V c).flushed 2 t = ((cfg1.win 2).blk t).view.read (Elt Ideal) (prod1 V c) := by
  have hN : cfg1.N = 64 := N_1
  have h3 : t.val % 4 = 3 := (flush1_2 t).mp hf
  have h0 : ¬ t.val % 4 = 0 := by omega
  show (cfg1.win 2).cut (grid1.coords t) ((dat1 V c).after 2 t) = _
  rw [after1_2, outAt1_last V c t h0 h3, outLast1_eq]
  show (k1_pay2 (iblk1 V c 0 t) (iblk1 V c 1 t) (accPrev1 V c t) : Vec Ideal S1024x1024 .f32) = _
  funext y
  obtain ⟨p, q, rfl⟩ : ∃ (p : Fin 1024) (q : Fin 1024), y = ValueIdx.ix2 p q := ⟨y 0, y 1, ValueIdx.eq_ix2 y⟩
  have hb : 1024 * (t.val / 16) + p.val < 4096 ∧ 1024 * (t.val / 4 % 4) + q.val < 4096 := by
    refine ⟨?_, ?_⟩ <;> omega
  rw [out1_entry V c t h3 p q ⟨_, hb.1⟩ ⟨_, hb.2⟩ rfl rfl, View.read_apply]
  show _ = prod1 V c (((cfg1.win 2).blk t).view.emb (ValueIdx.ix2 p q))
  refine congrArg _ (funext fun a => Fin.ext ?_)
  obtain ⟨-, -, -, -, h20, h21⟩ := idx1 t
  match a with
  | ⟨0, _⟩ => show 1024 * (t.val / 16) + p.val = win1_2.index t 0 * 1024 + 1 * p.val; rw [h20]; omega
  | ⟨1, _⟩ => show 1024 * (t.val / 4 % 4) + q.val = win1_2.index t 1 * 1024 + 1 * q.val; rw [h21]; omega

/-- The output window's tiles have their full extents at every point. -/
theorem xsize1_2 : ∀ t : Fin cfg1.N, win1_2.xsize (grid1.coords t) (0 : Fin 2) = 1024 ∧ win1_2.xsize (grid1.coords t) (1 : Fin 2) = 1024 :=
  (by decide +kernel : ∀ t : Fin grid1.N, win1_2.xsize (grid1.coords t) (0 : Fin 2) = 1024 ∧ win1_2.xsize (grid1.coords t) (1 : Fin 2) = 1024)

/-- THE ARRAY THE REGION WRITES ends holding the whole product: every entry lies in the tile of its row block and
    column block, which the last step of that tile pair writes back. -/
theorem final1_arr (c : Dev nD) : (dat1 V c).arrAt 2 cfg1.N = prod1 V c :=
  (dat1 V c).arrAt_eq_of_cover 2 (prod1 V c) (flushed1_eq V c) fun i => by
    have hN : cfg1.N = 64 := N_1
    have hi0 : (i 0 : Nat) < 4096 := (i 0).isLt
    have hi1 : (i 1 : Nat) < 4096 := (i 1).isLt
    have ht : 16 * ((i 0 : Nat) / 1024) + 4 * ((i 1 : Nat) / 1024) + 3 < cfg1.N := by omega
    refine ⟨⟨16 * ((i 0 : Nat) / 1024) + 4 * ((i 1 : Nat) / 1024) + 3, ht⟩, (flush1_2 _).mpr (by dsimp only; omega), ?_⟩
    show i ∈ ((View.whole main_v1).slice (win1_2.rect ⟨16 * ((i 0 : Nat) / 1024) + 4 * ((i 1 : Nat) / 1024) + 3, ht⟩)).set
    rw [View.set_slice_whole, Rect.mem_set_unit]
    intro a
    obtain ⟨-, -, -, -, h20, h21⟩ := idx1 ⟨16 * ((i 0 : Nat) / 1024) + 4 * ((i 1 : Nat) / 1024) + 3, ht⟩
    obtain ⟨hx0, hx1⟩ := xsize1_2 ⟨16 * ((i 0 : Nat) / 1024) + 4 * ((i 1 : Nat) / 1024) + 3, ht⟩
    match a with
    | ⟨0, _⟩ =>
      show win1_2.index ⟨16 * ((i 0 : Nat) / 1024) + 4 * ((i 1 : Nat) / 1024) + 3, ht⟩ 0 * win1_2.size 0 ≤ (i 0 : Nat) ∧ (i 0 : Nat) < win1_2.index ⟨16 * ((i 0 : Nat) / 1024) + 4 * ((i 1 : Nat) / 1024) + 3, ht⟩ 0 * win1_2.size 0 + win1_2.xsize (grid1.coords ⟨16 * ((i 0 : Nat) / 1024) + 4 * ((i 1 : Nat) / 1024) + 3, ht⟩) 0
      rw [h20, hx0, show win1_2.size 0 = 1024 from rfl]; dsimp only; omega
    | ⟨1, _⟩ =>
      show win1_2.index ⟨16 * ((i 0 : Nat) / 1024) + 4 * ((i 1 : Nat) / 1024) + 3, ht⟩ 1 * win1_2.size 1 ≤ (i 1 : Nat) ∧ (i 1 : Nat) < win1_2.index ⟨16 * ((i 0 : Nat) / 1024) + 4 * ((i 1 : Nat) / 1024) + 3, ht⟩ 1 * win1_2.size 1 + win1_2.xsize (grid1.coords ⟨16 * ((i 0 : Nat) / 1024) + 4 * ((i 1 : Nat) / 1024) + 3, ht⟩) 1
      rw [h21, hx1, show win1_2.size 1 = 1024 from rfl]; dsimp only; omega

/-- Entry by entry: the region's result is the product of its two operand arrays. -/
theorem final1 (c : Dev nD) (r : Fin 4096) (s : Fin 4096) :
    (dat1 V c).arrAt 2 cfg1.N (ValueIdx.ix2 r s) = ∑ k : Fin 4096, lhs1 V c (ValueIdx.ix2 r k) * rhs1 V c (ValueIdx.ix2 k s) := by
  rw [final1_arr]; rfl

end Cert.KernelIdeal.Hand

end
-- ==== Proof.KI.Value2.lean ====
import proofs.«141484_j24618752540870_1_alg».proof.Proof.KI.Region2
import Idealize.ShloMosaic.Lib.Pipeline.Value
import Idealize.ShloMosaic.Lib.ValueIdx
import Idealize.ShloMosaic.PureOps.Ideal.Laws
import proofs.«141484_j24618752540870_1_alg».proof.Proof.LibMatmulRowsByCols
import proofs.«141484_j24618752540870_1_alg».proof.Proof.LibTileSum

/-!
  Matmul region 2, the value: what the accumulator and the output tile hold, as the body's arithmetic of the
  operand tiles.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-- A middle step leaves the accumulator at the previous contents plus the product of the two tiles. -/
theorem accMid2_eq (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : ¬last2 i) (x0 : Vec F S1024x1024 .f32) (x1 : Vec F S1024x256 .f32) (xs : Vec F S1024x256 .f32) :
    accMid2 c i arg3 harg3 arg4 harg4 arg5 harg5 arg6 harg6 hc0 hc1 x0 x1 xs = k2_pay2 x0 x1 xs := by
  unfold accMid2
  rw [View.read_writes_eq_canon _ _ _ (coverMid2 c i arg3 harg3 arg4 harg4 arg5 harg5 arg6 harg6 hc0 hc1 x0 x1 xs)]
  unfold runMid2
  dsimp only
  rw [View.canon_unit_zero hz2]
  simp only [View.readAt_eq_ld, harg3.read_unread, harg4.read_unread, harg6.read_unread, View.ld_unit_zero (S := S1024x1024) hz2, View.ld_unit_zero (S := S1024x256) hz2]

/-- A first step leaves the zero tile plus the product. -/
theorem accFirst2_eq (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : first2 i) (hc1 : ¬last2 i) (x0 : Vec F S1024x1024 .f32) (x1 : Vec F S1024x256 .f32) :
    accFirst2 c i arg3 harg3 arg4 harg4 arg5 harg5 arg6 harg6 hc0 hc1 x0 x1 = k2_pay2 x0 x1 (k2_pay1 (F := F)) := by
  unfold accFirst2
  rw [View.read_writes_eq_canon _ _ _ (coverFirst2 c i arg3 harg3 arg4 harg4 arg5 harg5 arg6 harg6 hc0 hc1 x0 x1)]
  unfold runFirst2
  dsimp only
  sl_unfold_words
  rw [View.canon_cons_unit_zero (S := S1024x256) hz2, View.readCov_unit_zero (S := S1024x256) _ hz2]
  simp only [View.readAt_eq_ld, harg3.read_unread, harg4.read_unread, harg6.read_unread, View.ld_unit_zero (S := S1024x1024) hz2, View.ld_unit_zero (S := S1024x256) hz2]

/-- A last step leaves the accumulator as a middle step does, -/
theorem accLast2_eq (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) :
    accLast2 c i arg3 harg3 arg4 harg4 arg5 harg5 arg6 harg6 hc0 hc1 x0 x1 xs = k2_pay2 x0 x1 xs := by
  unfold accLast2
  rw [View.read_writes_eq_canon _ _ _ (coverLastS2 c i arg3 harg3 arg4 harg4 arg5 harg5 arg6 harg6 hc0 hc1 x0 x1 xs)]
  unfold runLast2
  dsimp only
  sl_unfold_words
  rw [View.canon_unit_zero hz2]
  simp only [View.readAt_eq_ld, harg3.read_unread, harg4.read_unread, harg6.read_unread, View.ld_unit_zero (S := S1024x1024) hz2, View.ld_unit_zero (S := S1024x256) hz2]

/-- and copies it to the output tile. -/
theorem outLast2_eq (c : Dev nD) (i : grid2.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬first2 i) (hc1 : last2 i) (x0 : Vec F S1024x1024 .f32) (x1 : Vec F S1024x256 .f32) (xs : Vec F S1024x256 .f32) :
    outLast2 c i arg3 harg3 arg4 harg4 arg5 harg5 arg6 harg6 hc0 hc1 x0 x1 xs = k2_pay2 x0 x1 xs := by
  unfold outLast2
  rw [View.read_writes_eq_canon _ _ _ (coverLastO2 c i arg3 harg3 arg4 harg4 arg5 harg5 arg6 harg6 hc0 hc1 x0 x1 xs)]
  unfold runLast2
  dsimp only
  sl_unfold_words
  rw [View.canon_unit_zero hz2, View.readCov_unit_zero (S := S1024x256) _ hz2]
  simp only [View.readAt_eq_ld, harg3.read_unread, harg4.read_unread, harg6.read_unread, View.ld_unit_zero (S := S1024x1024) hz2, View.ld_unit_zero (S := S1024x256) hz2]

/-! ## The arithmetic over the extended reals -/

/-- The zero tile. -/
theorem pay12_apply (j : S1024x256.Idx) : k2_pay1 (F := Ideal) j = 0 := by
  unfold k2_pay1
  simp only [shapeCast_self, broadcast]
  exact Ideal.ofBits_zero_f32

/-- One step's arithmetic at an entry: the previous contents plus the row of the left tile against the column of
    the right tile (a change of float format is the identity over the extended reals). -/
theorem pay22_apply (x0 : Vec Ideal S1024x1024 .f32) (x1 : Vec Ideal S1024x256 .f32) (xs : Vec Ideal S1024x256 .f32) (p : Fin 1024) (q : Fin 256) :
    k2_pay2 x0 x1 xs (ValueIdx.ix2 p q) = xs (ValueIdx.ix2 p q) + ∑ k : Fin 1024, x0 (ValueIdx.ix2 p k) * x1 (ValueIdx.ix2 k q) := by
  unfold k2_pay2
  simp only [shapeCast_self]
  rw [ValueIdx.addf_apply, Cert.RowsByCols.matmul_zero_apply _ ⟨rfl, rfl, rfl, rfl, rfl, rfl⟩]
  rfl

/-! ## The tiles as parts of the arrays -/

/-- The windows' index maps over the grid, decided once: the left operand's tile is (row block, step), the right
    operand's (step, column block), the output's (row block, column block). -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0)

variable (V : (c : Dev nD) → (b : Ref sig .tc) → Buf (Elt Ideal) ((c : Thread nD τ).loc b))

/-- The two operand arrays as the region finds them, at their literal shapes. -/
def lhs2 (c : Dev nD) : (⟨2, ![4096, 4096]⟩ : Shape).Idx → EReal := V c (Pipeline.arrRef spec2 0)
def rhs2 (c : Dev nD) : (⟨2, ![4096, 256]⟩ : Shape).Idx → EReal := V c (Pipeline.arrRef spec2 1)

/-- An entry of the left operand's tile is the left array's entry at (row block · 1024 + p, step · 1024 + k). -/
theorem iblk2_0_apply (c : Dev nD) (t : Fin cfg2.N) (p k : Fin 1024) (R C : Fin 4096)
    (hR : R.val = 1024 * (t.val / 4) + p.val) (hC : C.val = 1024 * (t.val % 4) + k.val) :
    (iblk2 V c 0 t : Vec Ideal S1024x1024 .f32) (ValueIdx.ix2 p k) = lhs2 V c (ValueIdx.ix2 R C) := by
  unfold iblk2 lhs2
  rw [View.read_apply]
  show V c (Pipeline.arrRef spec2 0) (((cfg2.win 0).blk t).view.emb (ValueIdx.ix2 p k)) = _
  refine congrArg _ (funext fun a => Fin.ext ?_)
  obtain ⟨h00, h01, -⟩ := idx2 t
  match a with
  | ⟨0, _⟩ => show win2_0.index t 0 * 1024 + 1 * p.val = R.val; rw [h00, hR]; omega
  | ⟨1, _⟩ => show win2_0.index t 1 * 1024 + 1 * k.val = C.val; rw [h01, hC]; omega

/-- An entry of the right operand's tile is the right array's entry at (step · 1024 + k, column block · 256 + q). -/
theorem iblk2_1_apply (c : Dev nD) (t : Fin cfg2.N) (k : Fin 1024) (q : Fin 256) (R : Fin 4096) (C : Fin 256)
    (hR : R.val = 1024 * (t.val % 4) + k.val) (hC : C.val = 256 * (0) + q.val) :
    (iblk2 V c 1 t : Vec Ideal S1024x256 .f32) (ValueIdx.ix2 k q) = rhs2 V c (ValueIdx.ix2 R C) := by
  unfold iblk2 rhs2
  rw [View.read_apply]
  show V c (Pipeline.arrRef spec2 1) (((cfg2.win 1).blk t).view.emb (ValueIdx.ix2 k q)) = _
  refine congrArg _ (funext fun a => Fin.ext ?_)
  obtain ⟨-, -, h10, h11, -⟩ := idx2 t
  match a with
  | ⟨0, _⟩ => show win2_1.index t 0 * 1024 + 1 * k.val = R.val; rw [h10, hR]; omega
  | ⟨1, _⟩ => show win2_1.index t 1 * 256 + 1 * q.val = C.val; rw [h11, hC]; omega

/-- The product of the left array's entry (r, k) with the right array's entry (k, s), by position; zero off the arrays. -/
def term2 (c : Dev nD) (r s k : ℕ) : EReal :=
  if h : r < 4096 ∧ s < 256 ∧ k < 4096 then
    lhs2 V c (ValueIdx.ix2 (⟨r, h.1⟩ : Fin 4096) (⟨k, h.2.2⟩ : Fin 4096))
      * rhs2 V c (ValueIdx.ix2 (⟨k, h.2.2⟩ : Fin 4096) (⟨s, h.2.1⟩ : Fin 256))
  else 0

/-- One term of a tile product, as a term of the arrays. -/
theorem tile_term2 (c : Dev nD) (t : Fin cfg2.N) (p : Fin 1024) (q : Fin 256) (k : Fin 1024)
    (x0 : Vec Ideal S1024x1024 .f32) (x1 : Vec Ideal S1024x256 .f32) (e0 : x0 = iblk2 V c 0 t) (e1 : x1 = iblk2 V c 1 t) :
    x0 (ValueIdx.ix2 p k) * x1 (ValueIdx.ix2 k q)
      = term2 V c (1024 * (t.val / 4) + p.val) (256 * (0) + q.val) (1024 * (t.val % 4) + k.val) := by
  have hN : t.val < 16 := lt_of_lt_of_eq t.isLt (show cfg2.N = 16 from N_2)
  have hb : 1024 * (t.val / 4) + p.val < 4096 ∧ 256 * (0) + q.val < 256 ∧ 1024 * (t.val % 4) + k.val < 4096 := by
    refine ⟨?_, ?_, ?_⟩ <;> omega
  subst e0 e1
  unfold term2
  rw [dif_pos hb, iblk2_0_apply V c t p k ⟨_, hb.1⟩ ⟨_, hb.2.2⟩ rfl rfl, iblk2_1_apply V c t k q ⟨_, hb.2.2⟩ ⟨_, hb.2.1⟩ rfl rfl]

theorem accAt2_congr (c : Dev nD) {n n' : ℕ} (e : n = n') (hn : n < cfg2.N) (hn' : n' < cfg2.N) :
    accAt2 V c n hn = accAt2 V c n' hn' := by subst e; rfl

/-- THE ACCUMULATOR IN CLOSED FORM. At step `kk` of the tile pair `u` the accumulator's entry (p, q) is the sum, over
    the steps so far, of the tile products' entries: the terms of the arrays' product at row (row block)·1024 + p and
    column (column block)·256 + q whose contracted position lies in the first kk + 1 tiles. By induction on the step. -/
theorem acc2_closed (c : Dev nD) (u : ℕ) (p : Fin 1024) (q : Fin 256) : ∀ (kk : ℕ) (hk : kk < 4) (hn : 4 * u + kk < cfg2.N),
    accAt2 V c (4 * u + kk) hn (ValueIdx.ix2 p q)
      = ∑ s ∈ Finset.range (kk + 1), ∑ k : Fin 1024, term2 V c (1024 * (u) + p.val) (256 * (0) + q.val) (1024 * s + k.val)
  | 0, hk, hn => by
    have hN : cfg2.N = 16 := N_2
    have h0 : (⟨4 * u + 0, hn⟩ : Fin cfg2.N).val % 4 = 0 := by dsimp only; omega
    have h1 : ¬(⟨4 * u + 0, hn⟩ : Fin cfg2.N).val % 4 = 3 := by dsimp only; omega
    have e := accAt2_first V c ⟨4 * u + 0, hn⟩ h0 h1
    dsimp only at e
    rw [e, accFirst2_eq, pay22_apply, pay12_apply, zero_add, Finset.sum_range_one]
    refine Finset.sum_congr rfl fun k _ => ?_
    rw [tile_term2 V c _ p q k _ _ rfl rfl]
    congr 1 <;> (dsimp only; omega)
  | kk + 1, hk, hn => by
    have hN : cfg2.N = 16 := N_2
    have h0 : ¬(⟨4 * u + (kk + 1), hn⟩ : Fin cfg2.N).val % 4 = 0 := by dsimp only; omega
    have ih := acc2_closed c u p q kk (by omega) (by omega)
    have hprev : accPrev2 V c ⟨4 * u + (kk + 1), hn⟩ = accAt2 V c (4 * u + kk) (by omega) :=
      accAt2_congr V c (by dsimp only; omega) _ _
    rw [Finset.sum_range_succ, ← ih, ← hprev]
    by_cases h1 : (⟨4 * u + (kk + 1), hn⟩ : Fin cfg2.N).val % 4 = 3
    · have e := accAt2_last V c ⟨4 * u + (kk + 1), hn⟩ h0 h1
      dsimp only at e
      rw [e, accLast2_eq, pay22_apply]
      congr 1
      refine Finset.sum_congr rfl fun k _ => ?_
      rw [tile_term2 V c _ p q k _ _ rfl rfl]
      congr 1 <;> (dsimp only; omega)
    · have e := accAt2_mid V c ⟨4 * u + (kk + 1), hn⟩ h0 h1
      dsimp only at e
      rw [e, accMid2_eq, pay22_apply]
      congr 1
      refine Finset.sum_congr rfl fun k _ => ?_
      rw [tile_term2 V c _ p q k _ _ rfl rfl]
      congr 1 <;> (dsimp only; omega)

/-- The whole product of the two arrays: entry (r, s) is the sum over the contracted position. -/
def prod2 (c : Dev nD) : (⟨2, ![4096, 256]⟩ : Shape).Idx → EReal :=
  fun j => ∑ k : Fin 4096, lhs2 V c (ValueIdx.ix2 (j 0) k) * rhs2 V c (ValueIdx.ix2 k (j 1))

/-- The contracted sum, tile by tile, is the contracted sum. -/
theorem prod2_tiles (c : Dev nD) (r : Fin 4096) (s : Fin 256) :
    ∑ st ∈ Finset.range 4, ∑ k : Fin 1024, term2 V c r.val s.val (1024 * st + k.val) = prod2 V c (ValueIdx.ix2 r s) := by
  rw [Cert.TileSum.sum_tiles 1024 (term2 V c r.val s.val) 4]
  show ∑ k : Fin 4096, term2 V c r.val s.val k.val = ∑ k : Fin 4096, lhs2 V c (ValueIdx.ix2 r k) * rhs2 V c (ValueIdx.ix2 k s)
  refine Finset.sum_congr rfl fun k _ => ?_
  unfold term2
  rw [dif_pos ⟨r.isLt, s.isLt, k.isLt⟩]

/-- The output tile a last step leaves is the product's tile: entry (p, q) of the tile of point `t` is the product's
    entry at (row block · 1024 + p, column block · 256 + q). -/
theorem out2_entry (c : Dev nD) (t : Fin cfg2.N) (h3 : t.val % 4 = 3) (p : Fin 1024) (q : Fin 256) (R : Fin 4096) (S : Fin 256)
    (hR : R.val = 1024 * (t.val / 4) + p.val) (hS : S.val = 256 * (0) + q.val) :
    k2_pay2 (iblk2 V c 0 t) (iblk2 V c 1 t) (accPrev2 V c t) (ValueIdx.ix2 p q) = prod2 V c (ValueIdx.ix2 R S) := by
  have hN : cfg2.N = 16 := N_2
  have h0 : ¬ t.val % 4 = 0 := by omega
  have hu : 4 * (t.val / 4) + 3 = t.val := by omega
  have e1 : k2_pay2 (iblk2 V c 0 t) (iblk2 V c 1 t) (accPrev2 V c t) = accAt2 V c t.val t.isLt :=
    ((accAt2_last V c t h0 h3).trans (accLast2_eq ..)).symm
  rw [e1, accAt2_congr V c hu.symm t.isLt (by omega), acc2_closed V c (t.val / 4) p q 3 (by omega) (by omega), ← prod2_tiles]
  refine Finset.sum_congr rfl fun st _ => Finset.sum_congr rfl fun k _ => ?_
  congr 1 <;> omega

/-- What a last step writes back is the product's tile. -/
theorem flushed2_eq (c : Dev nD) (t : Fin cfg2.N) (hf : (cfg2.win 2).flush t = true) :
    (dat2 V c).flushed 2 t = ((cfg2.win 2).blk t).view.read (Elt Ideal) (prod2 V c) := by
  have hN : cfg2.N = 16 := N_2
  have h3 : t.val % 4 = 3 := (flush2_2 t).mp hf
  have h0 : ¬ t.val % 4 = 0 := by omega
  show (cfg2.win 2).cut (grid2.coords t) ((dat2 V c).after 2 t) = _
  rw [after2_2, outAt2_last V c t h0 h3, outLast2_eq]
  show (k2_pay2 (iblk2 V c 0 t) (iblk2 V c 1 t) (accPrev2 V c t) : Vec Ideal S1024x256 .f32) = _
  funext y
  obtain ⟨p, q, rfl⟩ : ∃ (p : Fin 1024) (q : Fin 256), y = ValueIdx.ix2 p q := ⟨y 0, y 1, ValueIdx.eq_ix2 y⟩
  have hb : 1024 * (t.val / 4) + p.val < 4096 ∧ 256 * (0) + q.val < 256 := by
    refine ⟨?_, ?_⟩ <;> omega
  rw [out2_entry V c t h3 p q ⟨_, hb.1⟩ ⟨_, hb.2⟩ rfl rfl, View.read_apply]
  show _ = prod2 V c (((cfg2.win 2).blk t).view.emb (ValueIdx.ix2 p q))
  refine congrArg _ (funext fun a => Fin.ext ?_)
  obtain ⟨-, -, -, -, h20, h21⟩ := idx2 t
  match a with
  | ⟨0, _⟩ => show 1024 * (t.val / 4) + p.val = win2_2.index t 0 * 1024 + 1 * p.val; rw [h20]; omega
  | ⟨1, _⟩ => show 256 * (0) + q.val = win2_2.index t 1 * 256 + 1 * q.val; rw [h21]; omega

/-- The output window's tiles have their full extents at every point. -/
theorem xsize2_2 : ∀ t : Fin cfg2.N, win2_2.xsize (grid2.coords t) (0 : Fin 2) = 1024 ∧ win2_2.xsize (grid2.coords t) (1 : Fin 2) = 256 :=
  (by decide +kernel : ∀ t : Fin grid2.N, win2_2.xsize (grid2.coords t) (0 : Fin 2) = 1024 ∧ win2_2.xsize (grid2.coords t) (1 : Fin 2) = 256)

/-- THE ARRAY THE REGION WRITES ends holding the whole product: every entry lies in the tile of its row block and
    column block, which the last step of that tile pair writes back. -/
theorem final2_arr (c : Dev nD) : (dat2 V c).arrAt 2 cfg2.N = prod2 V c :=
  (dat2 V c).arrAt_eq_of_cover 2 (prod2 V c) (flushed2_eq V c) fun i => by
    have hN : cfg2.N = 16 := N_2
    have hi0 : (i 0 : Nat) < 4096 := (i 0).isLt
    have hi1 : (i 1 : Nat) < 256 := (i 1).isLt
    have ht : 4 * ((i 0 : Nat) / 1024) + 3 < cfg2.N := by omega
    refine ⟨⟨4 * ((i 0 : Nat) / 1024) + 3, ht⟩, (flush2_2 _).mpr (by dsimp only; omega), ?_⟩
    show i ∈ ((View.whole main_v4).slice (win2_2.rect ⟨4 * ((i 0 : Nat) / 1024) + 3, ht⟩)).set
    rw [View.set_slice_whole, Rect.mem_set_unit]
    intro a
    obtain ⟨-, -, -, -, h20, h21⟩ := idx2 ⟨4 * ((i 0 : Nat) / 1024) + 3, ht⟩
    obtain ⟨hx0, hx1⟩ := xsize2_2 ⟨4 * ((i 0 : Nat) / 1024) + 3, ht⟩
    match a with
    | ⟨0, _⟩ =>
      show win2_2.index ⟨4 * ((i 0 : Nat) / 1024) + 3, ht⟩ 0 * win2_2.size 0 ≤ (i 0 : Nat) ∧ (i 0 : Nat) < win2_2.index ⟨4 * ((i 0 : Nat) / 1024) + 3, ht⟩ 0 * win2_2.size 0 + win2_2.xsize (grid2.coords ⟨4 * ((i 0 : Nat) / 1024) + 3, ht⟩) 0
      rw [h20, hx0, show win2_2.size 0 = 1024 from rfl]; dsimp only; omega
    | ⟨1, _⟩ =>
      show win2_2.index ⟨4 * ((i 0 : Nat) / 1024) + 3, ht⟩ 1 * win2_2.size 1 ≤ (i 1 : Nat) ∧ (i 1 : Nat) < win2_2.index ⟨4 * ((i 0 : Nat) / 1024) + 3, ht⟩ 1 * win2_2.size 1 + win2_2.xsize (grid2.coords ⟨4 * ((i 0 : Nat) / 1024) + 3, ht⟩) 1
      rw [h21, hx1, show win2_2.size 1 = 256 from rfl]; dsimp only; omega

/-- Entry by entry: the region's result is the product of its two operand arrays. -/
theorem final2 (c : Dev nD) (r : Fin 4096) (s : Fin 256) :
    (dat2 V c).arrAt 2 cfg2.N (ValueIdx.ix2 r s) = ∑ k : Fin 4096, lhs2 V c (ValueIdx.ix2 r k) * rhs2 V c (ValueIdx.ix2 k s) := by
  rw [final2_arr]; rfl

end Cert.KernelIdeal.Hand

end
-- ==== Proof.Claims.lean ====
/- The five claims, assembled.

   The frames of the two kernel programs come from their regions' segment records; the reference's frame is its run with
   the result dropped. The algebraic claim: the kernel program ends with `tail` at what its last region leaves in `main_v4`,
   the reference with `tail` at its nested product; each region leaves a full matrix product of what it finds, the second
   finds the first's output, the third finds the second's and `relu(arg0 · arg4)`, so the two last arguments agree entry by
   entry, and the results are equal. No finiteness is used: only regrouped finite sums in the extended reals. -/
import proofs.«141484_j24618752540870_1_alg».proof.Proof.K.Segs
import proofs.«141484_j24618752540870_1_alg».proof.Proof.KI.Segs
import proofs.«141484_j24618752540870_1_alg».proof.Proof.ResultEq
import proofs.«141484_j24618752540870_1_alg».proof.Defs
import proofs.«141484_j24618752540870_1_alg».proof.Proof.Gen.Pre_finite_inputs
import Idealize.ShloMosaic.Adequacy
import proofs.«141484_j24618752540870_1_alg».proof.Proof.KI.Value0
import proofs.«141484_j24618752540870_1_alg».proof.Proof.KI.Value1
import proofs.«141484_j24618752540870_1_alg».proof.Proof.KI.Value2

noncomputable section

namespace Cert.Proof.Claims

open Idealize.ShloMosaic Idealize.ShloMosaic.ValueIdx Idealize.SL.Sem Idealize.ShloMosaic.TcCoe

/-- The reference's result term is what the kernel program's last valuation holds in `main_v60`, when the two launch
    memories agree on the arguments. -/
theorem results_agree
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.ValueP.res_main_v60 (F := Ideal) m' c = Cert.KernelIdeal.Gen.V8 m (Cert.KernelIdeal.Hand.outs m) c Cert.KernelIdeal.main_v60 := by
  -- the first region: arg3 · arg2
  have h0 : ∀ (r : Fin 4096) (s : Fin 4096), (id (Cert.KernelIdeal.Hand.o0 m c) : (⟨Cert.ReferenceIdeal.S4096x4096, .f32⟩ : BufTy).Contents (Elt Ideal)) (ix2 r s)
      = ∑ k : Fin 4096, (id (m ((c.tc : Thread Cert.KernelIdeal.nD Cert.KernelIdeal.τ).loc Cert.KernelIdeal.main_arg3)) : (⟨Cert.ReferenceIdeal.S4096x4096, .f32⟩ : BufTy).Contents (Elt Ideal)) (ix2 r k) * (id (m ((c.tc : Thread Cert.KernelIdeal.nD Cert.KernelIdeal.τ).loc Cert.KernelIdeal.main_arg2)) : (⟨Cert.ReferenceIdeal.S4096x4096, .f32⟩ : BufTy).Contents (Elt Ideal)) (ix2 k s) :=
    fun r s => Cert.KernelIdeal.Hand.final0 (Cert.KernelIdeal.Hand.Ve0 m) c r s
  -- the second region: what the first left, times arg3
  have h1 : ∀ (r : Fin 4096) (s : Fin 4096), (id (Cert.KernelIdeal.Hand.o1 m c) : (⟨Cert.ReferenceIdeal.S4096x4096, .f32⟩ : BufTy).Contents (Elt Ideal)) (ix2 r s)
      = ∑ k : Fin 4096, (id (Cert.KernelIdeal.Hand.o0 m c) : (⟨Cert.ReferenceIdeal.S4096x4096, .f32⟩ : BufTy).Contents (Elt Ideal)) (ix2 r k) * (id (m ((c.tc : Thread Cert.KernelIdeal.nD Cert.KernelIdeal.τ).loc Cert.KernelIdeal.main_arg3)) : (⟨Cert.ReferenceIdeal.S4096x4096, .f32⟩ : BufTy).Contents (Elt Ideal)) (ix2 k s) := by
    intro r s
    have e := Cert.KernelIdeal.Hand.final1 (Cert.KernelIdeal.Hand.Ve1 m) c r s
    have el : Cert.KernelIdeal.Hand.lhs1 (Cert.KernelIdeal.Hand.Ve1 m) c = Cert.KernelIdeal.Hand.o0 m c := Cert.KernelIdeal.Hand.X1_self m c
    have er : Cert.KernelIdeal.Hand.rhs1 (Cert.KernelIdeal.Hand.Ve1 m) c = m ((c.tc : Thread Cert.KernelIdeal.nD Cert.KernelIdeal.τ).loc Cert.KernelIdeal.main_arg3) := Cert.KernelIdeal.Hand.X1_of m c Cert.KernelIdeal.main_arg3 (by decide)
    rw [el, er] at e
    exact e
  -- the third region: what the second left, times max (arg0 · arg4) 0
  have h2 : ∀ (r : Fin 4096) (s : Fin 256), (id (Cert.KernelIdeal.Hand.o2 m c) : (⟨Cert.ReferenceIdeal.S4096x256, .f32⟩ : BufTy).Contents (Elt Ideal)) (ix2 r s)
      = ∑ k : Fin 4096, (id (Cert.KernelIdeal.Hand.o1 m c) : (⟨Cert.ReferenceIdeal.S4096x4096, .f32⟩ : BufTy).Contents (Elt Ideal)) (ix2 r k)
          * Cert.Bridge.hh (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (ix2 k s) := by
    intro r s
    have e := Cert.KernelIdeal.Hand.final2 (Cert.KernelIdeal.Hand.Ve2 m) c r s
    have el : Cert.KernelIdeal.Hand.lhs2 (Cert.KernelIdeal.Hand.Ve2 m) c = Cert.KernelIdeal.Hand.o1 m c :=
      (congrFun (Cert.KernelIdeal.Hand.V4_eq m c).symm _).trans ((Cert.Bridge.V4_v1 m (Cert.KernelIdeal.Hand.outs m) c).trans (Cert.KernelIdeal.Hand.outs_v1 m c))
    have er : Cert.KernelIdeal.Hand.rhs2 (Cert.KernelIdeal.Hand.Ve2 m) c = Cert.Bridge.hh (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) :=
      (congrFun (Cert.KernelIdeal.Hand.V4_eq m c).symm _).trans (Cert.Bridge.kernel_v3 m (Cert.KernelIdeal.Hand.outs m) c)
    rw [el, er] at e
    exact e
  rw [Cert.Bridge.ref_result (F := Ideal) m' c, Cert.Bridge.kernel_result (F := Ideal) m (Cert.KernelIdeal.Hand.outs m) c, Cert.KernelIdeal.Hand.outs_v4 m c,
    hagree.1, hagree.2.1, hagree.2.2.1, hagree.2.2.2.1, hagree.2.2.2.2.1, hagree.2.2.2.2.2.1, hagree.2.2.2.2.2.2.1,
    hagree.2.2.2.2.2.2.2.1, hagree.2.2.2.2.2.2.2.2]
  exact (Cert.Bridge.result_eq _ _ _ _ _ _ _ _ _ (Cert.KernelIdeal.Hand.o0 m c) (Cert.KernelIdeal.Hand.o1 m c) (Cert.KernelIdeal.Hand.o2 m c) h0 h1 h2).symm

theorem frame_k : Cert.frame_Kernel := fun m ρ _ => Cert.Kernel.Hand.frame_K m ρ

theorem frame_ki : Cert.frame_KernelIdeal := fun m ρ _ => Cert.KernelIdeal.Hand.frame_KI m ρ

theorem frame_ri : Cert.frame_ReferenceIdeal :=
  fun m ρ _ => (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal :=
  fun m ρ m' ρ' _ hagree =>
    ⟨fun c => Cert.KernelIdeal.Gen.V8 m (Cert.KernelIdeal.Hand.outs m) c Cert.KernelIdeal.main_v60, Cert.KernelIdeal.Hand.run_KI (F := Ideal) m ρ,
      (θ_run Cert.ReferenceIdeal.defs _ _).mono (fun _ h c => ⟨(h c).1.trans (results_agree m m' c (hagree c)), (h c).2⟩)
        (Cert.ReferenceIdeal.ValueP.run (F := Ideal) m' ρ')⟩

end Cert.Proof.Claims

end
-- ==== Proof.lean ====
/-
  A graph layer with a high-pass and a low-pass branch: the result is  aL · Hl + aH · Hh  with
  Hh = ((D · L) · D) · relu(x · W_high)  for the 4096 × 4096 matrices D and L, and Hl a graph convolution of x computed
  by gathers and scatter-adds along the edge list.

  The kernel program computes the three large products D · L, (D · L) · D and (…) · relu(x · W_high) in three tiled
  regions. A region walks a grid of tile pairs; for each output tile it visits the four tiles of the contracted
  dimension in order, zeroes an accumulator at the first of them, adds to it the product of the left tile and the
  right tile at each of them, and copies the accumulator to the output tile at the last. Everything else — the small
  product x · W_high, the relu, the whole low-pass branch and the final combination — is the same sequence of host
  operations in the kernel program and in the reference, applied to the same operands.

  Over the extended reals a change of float format is the identity and a product accumulated into zero is the plain
  sum, so after its four steps an output tile's entry (p, q) is the sum, over the four tiles and the 1024 positions
  inside each, of left entry times right entry: the whole contracted sum over 4096 positions, regrouped. Addition of
  extended reals is commutative and associative, so the regrouping asks nothing of the entries (no finiteness is used).
  The tiles a region writes back cover its result array, so the array ends holding the whole product, entry by entry
  the reference's general dot product. The two programs then apply one and the same function to equal arguments.

  The frames: each region runs from the buffers as it finds them, leaves its operands as they were and writes only
  its result array; between points the accumulator is carried in the region's invariant at the contents the point
  before left. No region and no host operation writes an argument array.
-/
import proofs.«141484_j24618752540870_1_alg».proof.Defs
import proofs.«141484_j24618752540870_1_alg».proof.Proof.Gen.Kernel
import proofs.«141484_j24618752540870_1_alg».proof.Proof.Gen.KernelIdeal
import proofs.«141484_j24618752540870_1_alg».proof.Proof.Gen.ReferenceIdeal
import proofs.«141484_j24618752540870_1_alg».proof.Proof.Gen.Pre_finite_inputs
import proofs.«141484_j24618752540870_1_alg».proof.Proof.Claims
import Idealize.ShloMosaic.Adequacy
import Idealize.ShloMosaic.Init

noncomputable section

namespace Cert.Proof

open Idealize.ShloMosaic Idealize.SL.Sem

/-- The five claims, each proved in its own module, under the programs' stated facts. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
